-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512x128 : Shape := ⟨3, ![512, 512, 128]⟩
abbrev S512x512 : Shape := ⟨2, ![512, 512]⟩
abbrev S128x128 : Shape := ⟨2, ![128, 128]⟩
abbrev S128 : Shape := ⟨1, ![128]⟩
abbrev S_ : Shape := ⟨0, ![]⟩

class Facts : Prop where
  bcast_S_S512x512x128 : S_.BroadcastsInDim S512x512x128 (![] : Fin 0 → Fin S512x512x128.rank)
  reducesTo_S512x512x128_S_d0_1_2 : S512x512x128.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_arg18 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  main_v93

def fn_part4 {F : FTy → Type} [FloatOps F] (main_arg14 : FVec F S128 .f32) (main_arg15 : FVec F S128 .f32) (main_arg16 : FVec F S128 .f32) (main_arg17 : FVec F S128 .f32) (main_arg18 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_v63 main_v67

def fn_part2 {F : FTy → Type} [FloatOps F] (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S512x512x128 .f32) (main_arg1 : FVec F S512x512x128 .f32) (main_arg2 : FVec F S512x512 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) : IVec S_ 1 :=
  let main_v0 : FVec F S512x512x128 .f32 := Host.absf main_arg0
  let main_cst : FVec F S_ .f32 := constant S_ .f32 0x7F800000#32
  let main_v1 : FVec F S512x512x128 .f32 := broadcastInDim S512x512x128 ![] bcast_S_S512x512x128 main_cst
  let main_v2 : IVec S512x512x128 1 := cmpf .olt main_v0 main_v1
  let main_c : IVec S_ 1 := constantI S_ 1 1#1
  let main_v3 : IVec S_ 1 := (fun x v => Host.reduce IntOp.andi x v reducesTo_S512x512x128_S_d0_1_2 h_S_) main_v2 main_c
  let main_v4 : FVec F S512x512x128 .f32 := Host.absf main_arg1
  let main_cst_0 : FVec F S_ .f32 := constant S_ .f32 0x7F800000#32
  let main_v5 : FVec F S512x512x128 .f32 := broadcastInDim S512x512x128 ![] bcast_S_S512x512x128 main_cst_0
  let main_v6 : IVec S512x512x128 1 := cmpf .olt main_v4 main_v5
  let main_c_1 : IVec S_ 1 := constantI S_ 1 1#1
  let main_v7 : IVec S_ 1 := (fun x v => Host.reduce IntOp.andi x v reducesTo_S512x512x128_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S512x512x128 : Shape := ⟨3, ![512, 512, 128]⟩
abbrev S512x512 : Shape := ⟨2, ![512, 512]⟩
abbrev S128x128 : Shape := ⟨2, ![128, 128]⟩
abbrev S128 : Shape := ⟨1, ![128]⟩
abbrev S512x128 : Shape := ⟨2, ![512, 128]⟩
abbrev S64x128x128 : Shape := ⟨3, ![64, 128, 128]⟩
abbrev S64x128 : Shape := ⟨2, ![64, 128]⟩
abbrev S64x128x1 : Shape := ⟨3, ![64, 128, 1]⟩
abbrev S1x1x128 : Shape := ⟨3, ![1, 1, 128]⟩
abbrev S8192x128 : Shape := ⟨2, ![8192, 128]⟩
abbrev S64x1x128 : Shape := ⟨3, ![64, 1, 128]⟩
abbrev S1x128x128 : Shape := ⟨3, ![1, 128, 128]⟩

abbrev nBuf : Space → Nat
  | .hbm => 27
  | .vmem => 34
  | .smem => 0
  | _ => 0

abbrev bufTy : (tb : Table) → Fin (tcTables nBuf tb) → BufTy
  | .hbm, ⟨0, _⟩ => ⟨S512x512x128, .f32⟩
  | .hbm, ⟨1, _⟩ => ⟨S512x512x128, .f32⟩
  | .hbm, ⟨2, _⟩ => ⟨S512x512, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S512x128, .f32⟩
  | .hbm, ⟨25, _⟩ => ⟨S512x128, .f32⟩
  | .hbm, ⟨26, _⟩ => ⟨S512x512x128, .f32⟩
  | .local _ .vmem, ⟨0, _⟩ => ⟨S64x128x128, .f32⟩
  | .local _ .vmem, ⟨1, _⟩ => ⟨S64x128x128, .f32⟩
  | .local _ .vmem, ⟨2, _⟩ => ⟨S128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S64x128, .f32⟩
  | .local _ .vmem, ⟨9, _⟩ => ⟨S64x128, .f32⟩
  | .local _ .vmem, ⟨10, _⟩ => ⟨S64x128, .f32⟩
  | .local _ .vmem, ⟨11, _⟩ => ⟨S64x128x128, .f32⟩
  | .local _ .vmem, ⟨12, _⟩ => ⟨S64x128x128, .f32⟩
  | .local _ .vmem, ⟨13, _⟩ => ⟨S64x128, .f32⟩
  | .local _ .vmem, ⟨14, _⟩ => ⟨S64x128, .f32⟩
  | .local _ .vmem, ⟨15, _⟩ => ⟨S128, .f32⟩
  | .local _ .vmem, ⟨16, _⟩ => ⟨S128, .f32⟩
  | .local _ .vmem, ⟨17, _⟩ => ⟨S128x128, .f32⟩
  | .local _ .vmem, ⟨18, _⟩ => ⟨S128, .f32⟩
  | .local _ .vmem, ⟨19, _⟩ => ⟨S128x128, .f32⟩
  | .local _ .vmem, ⟨20, _⟩ => ⟨S128, .f32⟩
  | .local _ .vmem, ⟨21, _⟩ => ⟨S64x128, .f32⟩
  | .local _ .vmem, ⟨22, _⟩ => ⟨S64x128, .f32⟩
  | .local _ .vmem, ⟨23, _⟩ => ⟨S64x128, .f32⟩
  | .local _ .vmem, ⟨24, _⟩ => ⟨S64x128, .f32⟩
  | .local _ .vmem, ⟨25, _⟩ => ⟨S64x128, .f32⟩
  | .local _ .vmem, ⟨26, _⟩ => ⟨S128x128, .f32⟩
  | .local _ .vmem, ⟨27, _⟩ => ⟨S128x128, .f32⟩
  | .local _ .vmem, ⟨28, _⟩ => ⟨S128, .f32⟩
  | .local _ .vmem, ⟨29, _⟩ => ⟨S128, .f32⟩
  | .local _ .vmem, ⟨30, _⟩ => ⟨S128x128, .f32⟩
  | .local _ .vmem, ⟨31, _⟩ => ⟨S128, .f32⟩
  | .local _ .vmem, ⟨32, _⟩ => ⟨S64x128x128, .f32⟩
  | .local _ .vmem, ⟨33, _⟩ => ⟨S64x128x128, .f32⟩
  | _, _ => ⟨S512x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg8_1 : Ref sig .tc := ⟨.vmem, 22, rfl⟩
abbrev cc1_scratch0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v60 : BitVec 1 := Scalar.cmpi .eq arg1 c3_i32
  let v61 : BitVec 32 := Scalar.extui v60
  let c0_i32_22 : BitVec 32 := 0#32
  let v62 : BitVec 1 := Scalar.cmpi .ne v61 c0_i32_22
  v62

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v64 : BitVec 1 := Scalar.cmpi .eq arg1 c3_i32
  let v65 : BitVec 32 := Scalar.extui v64
  let c0_i32_24 : BitVec 32 := 0#32
  let v66 : BitVec 1 := Scalar.cmpi .ne v65 c0_i32_24
  v66

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S64x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S64x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S64x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S128x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S64x128x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

class Facts₀ : Prop where
  transposes_S128x128_S128x128_1_0 : S128x128.Transposes [1, 0] S128x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x128x128_S64x128x128_0_0_0 : ∀ a, (![0, 0, 0] : Fin 3 → Nat) a + S64x128x128.size a ≤ S64x128x128.size a
  h_S64x128x128 : 0 < S64x128x128.numel
  inb_S128_S128_0 : ∀ a, (![0] : Fin 1 → Nat) a + S128.size a ≤ S128.size a
  h_S128 : 0 < S128.numel
  reduces_S64x128x128_S64x128 : S64x128x128.Reduces [2] S64x128
  shapeCasts_S64x128_S64x128x1 : S64x128.ShapeCasts S64x128x1
  broadcasts_S64x128x1_S64x128x128 : S64x128x1.Broadcasts S64x128x128
  shapeCasts_S128_S1x1x128 : S128.ShapeCasts S1x1x128
  broadcasts_S1x1x128_S64x128x128 : S1x1x128.Broadcasts S64x128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S64x128x128_S8192x128 : S64x128x128.ShapeCasts S8192x128
  bitsLt_bf16_f32 : FTy.bits .bf16 < FTy.bits .f32
  shapeCasts_S8192x128_S64x128x128 : S8192x128.ShapeCasts S64x128x128
  reduces_S64x128x128_S64x128_2 : S64x128x128.Reduces [1] S64x128
  shapeCasts_S64x128_S64x1x128 : S64x128.ShapeCasts S64x1x128
  shapeCasts_S64x1x128_S64x1x128 : S64x1x128.ShapeCasts S64x1x128
  broadcasts_S64x1x128_S64x128x128 : S64x1x128.Broadcasts S64x128x128
  shapeCasts_S128x128_S1x128x128 : S128x128.ShapeCasts S1x128x128
  shapeCasts_S1x128x128_S1x128x128 : S1x128x128.ShapeCasts S1x128x128
  broadcasts_S1x128x128_S64x128x128 : S1x128x128.Broadcasts S64x128x128
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x128.size a ≤ S512x512x128.size a
  hwx0_0 : ∀ i : grid0.Coords, EltTy.bits .f32 = 32 ∨ (Rect.block (s := S512x512x128) S64x128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S512x128.size a
  hwx0_7 : ∀ i : grid0.Coords, EltTy.bits .f32 = 32 ∨ (Rect.block (s := S512x128) S64x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x128x128.size a ≤ S512x512x128.size a
  hwx1_0 : ∀ i : grid1.Coords, EltTy.bits .f32 = 32 ∨ (Rect.block (s := S512x512x128) S64x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S512x512.size a
  hwx1_1 : ∀ i : grid1.Coords, EltTy.bits .f32 = 32 ∨ (Rect.block (s := S512x512) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S64x128.size a ≤ S512x128.size a
  hwx1_8 : ∀ i : grid1.Coords, EltTy.bits .f32 = 32 ∨ (Rect.block (s := S512x128) S64x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x128.size a ≤ S512x128.size a
  hwx2_0 : ∀ i : grid2.Coords, EltTy.bits .f32 = 32 ∨ (Rect.block (s := S512x128) S64x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S512x128.size a
  hwx2_1 : ∀ i : grid2.Coords, EltTy.bits .f32 = 32 ∨ (Rect.block (s := S512x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S64x128x128.size a ≤ S512x512x128.size a
  hwx2_6 : ∀ i : grid2.Coords, EltTy.bits .f32 = 32 ∨ (Rect.block (s := S512x512x128) S64x128x128.size (cc2_transform_6 i) (hinb2_6 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg1) S64x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg13) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg14) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S64x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_arg0) S64x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S64x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg15) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg16) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v6) S64x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

abbrev win2_0 : Pipeline.Window sig grid2 :=
  Pipeline.Window.ofSpec (Memref.whole main_v5) S64x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S128x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg17) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg18) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v7) S64x128x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S512x512x128 : Shape := ⟨3, ![512, 512, 128]⟩
abbrev S512x512 : Shape := ⟨2, ![512, 512]⟩
abbrev S128x128 : Shape := ⟨2, ![128, 128]⟩
abbrev S128 : Shape := ⟨1, ![128]⟩
abbrev S512x512x1 : Shape := ⟨3, ![512, 512, 1]⟩
abbrev S_ : Shape := ⟨0, ![]⟩
abbrev S1x1x128 : Shape := ⟨3, ![1, 1, 128]⟩
abbrev S512x128 : Shape := ⟨2, ![512, 128]⟩
abbrev S512x1x128 : Shape := ⟨3, ![512, 1, 128]⟩
abbrev S1x512x128 : Shape := ⟨3, ![1, 512, 128]⟩

abbrev nBuf : Space → Nat
  | .hbm => 156
  | .vmem => 0
  | .smem => 0
  | _ => 0

abbrev hbmTy0_0 (i : Nat) : BufTy := match i % 128 with
  | 0 => ⟨S512x512x128, .f32⟩
  | 1 => ⟨S512x512x128, .f32⟩
  | 2 => ⟨S512x512, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S512x512x1, .f32⟩
  | 20 => ⟨S_, .f32⟩
  | 21 => ⟨S512x512, .f32⟩
  | 22 => ⟨S512x512x1, .f32⟩
  | 23 => ⟨S_, .f32⟩
  | 24 => ⟨S512x512x1, .f32⟩
  | 25 => ⟨S512x512x1, .f32⟩
  | 26 => ⟨S512x512x128, .f32⟩
  | 27 => ⟨S512x512x128, .f32⟩
  | 28 => ⟨S512x512x128, .f32⟩
  | 29 => ⟨S_, .f32⟩
  | 30 => ⟨S512x512, .f32⟩
  | 31 => ⟨S512x512x1, .f32⟩
  | 32 => ⟨S_, .f32⟩
  | 33 => ⟨S512x512x1, .f32⟩
  | 34 => ⟨S512x512x1, .f32⟩
  | 35 => ⟨S512x512x128, .f32⟩
  | 36 => ⟨S512x512x128, .f32⟩
  | 37 => ⟨S_, .f32⟩
  | 38 => ⟨S512x512x1, .f32⟩
  | 39 => ⟨S512x512x1, .f32⟩
  | 40 => ⟨S512x512x1, .f32⟩
  | 41 => ⟨S512x512x128, .f32⟩
  | 42 => ⟨S512x512x128, .f32⟩
  | 43 => ⟨S1x1x128, .f32⟩
  | 44 => ⟨S512x512x128, .f32⟩
  | 45 => ⟨S512x512x128, .f32⟩
  | 46 => ⟨S1x1x128, .f32⟩
  | 47 => ⟨S512x512x128, .f32⟩
  | 48 => ⟨S512x512x128, .f32⟩
  | 49 => ⟨S512x512x128, .f32⟩
  | 50 => ⟨S1x1x128, .f32⟩
  | 51 => ⟨S512x512x128, .f32⟩
  | 52 => ⟨S512x512x128, .f32⟩
  | 53 => ⟨S_, .f32⟩
  | 54 => ⟨S512x512, .f32⟩
  | 55 => ⟨S512x512x1, .f32⟩
  | 56 => ⟨S_, .f32⟩
  | 57 => ⟨S512x512x1, .f32⟩
  | 58 => ⟨S512x512x1, .f32⟩
  | 59 => ⟨S512x512x128, .f32⟩
  | 60 => ⟨S512x512x128, .f32⟩
  | 61 => ⟨S512x512x128, .f32⟩
  | 62 => ⟨S_, .f32⟩
  | 63 => ⟨S512x512, .f32⟩
  | 64 => ⟨S512x512x1, .f32⟩
  | 65 => ⟨S_, .f32⟩
  | 66 => ⟨S512x512x1, .f32⟩
  | 67 => ⟨S512x512x1, .f32⟩
  | 68 => ⟨S512x512x128, .f32⟩
  | 69 => ⟨S512x512x128, .f32⟩
  | 70 => ⟨S_, .f32⟩
  | 71 => ⟨S512x512x1, .f32⟩
  | 72 => ⟨S512x512x1, .f32⟩
  | 73 => ⟨S512x512x1, .f32⟩
  | 74 => ⟨S512x512x128, .f32⟩
  | 75 => ⟨S512x512x128, .f32⟩
  | 76 => ⟨S1x1x128, .f32⟩
  | 77 => ⟨S512x512x128, .f32⟩
  | 78 => ⟨S512x512x128, .f32⟩
  | 79 => ⟨S1x1x128, .f32⟩
  | 80 => ⟨S512x512x128, .f32⟩
  | 81 => ⟨S512x512x128, .f32⟩
  | 82 => ⟨S512x512x128, .f32⟩
  | 83 => ⟨S1x1x128, .f32⟩
  | 84 => ⟨S512x512x128, .f32⟩
  | 85 => ⟨S512x512x128, .f32⟩
  | 86 => ⟨S512x512x128, .f32⟩
  | 87 => ⟨S512x512x128, .f32⟩
  | 88 => ⟨S512x512x128, .f32⟩
  | 89 => ⟨S1x1x128, .f32⟩
  | 90 => ⟨S512x512x128, .f32⟩
  | 91 => ⟨S512x512x128, .f32⟩
  | 92 => ⟨S512x512x128, .f32⟩
  | 93 => ⟨S512x512x128, .f32⟩
  | 94 => ⟨S_, .f32⟩
  | 95 => ⟨S512x512x128, .f32⟩
  | 96 => ⟨S512x512x128, .f32⟩
  | 97 => ⟨S_, .f32⟩
  | 98 => ⟨S512x512x128, .f32⟩
  | 99 => ⟨S512x512x128, .f32⟩
  | 100 => ⟨S512x512x128, .f32⟩
  | 101 => ⟨S1x1x128, .f32⟩
  | 102 => ⟨S512x512x128, .f32⟩
  | 103 => ⟨S512x512x128, .f32⟩
  | 104 => ⟨S512x512x128, .f32⟩
  | 105 => ⟨S512x512x128, .f32⟩
  | 106 => ⟨S_, .f32⟩
  | 107 => ⟨S512x512x128, .f32⟩
  | 108 => ⟨S512x512x128, .f32⟩
  | 109 => ⟨S_, .f32⟩
  | 110 => ⟨S512x512x128, .f32⟩
  | 111 => ⟨S512x512x128, .f32⟩
  | 112 => ⟨S512x512x128, .f32⟩
  | 113 => ⟨S512x512x128, .f32⟩
  | 114 => ⟨S_, .f32⟩
  | 115 => ⟨S512x128, .f32⟩
  | 116 => ⟨S_, .f32⟩
  | 117 => ⟨S512x128, .f32⟩
  | 118 => ⟨S512x1x128, .f32⟩
  | 119 => ⟨S1x512x128, .f32⟩
  | 120 => ⟨S512x512x128, .f32⟩
  | 121 => ⟨S512x512x128, .f32⟩
  | 122 => ⟨S512x512x128, .f32⟩
  | 123 => ⟨S_, .f32⟩
  | 124 => ⟨S512x512, .f32⟩
  | 125 => ⟨S512x512x1, .f32⟩
  | 126 => ⟨S_, .f32⟩
  | 127 => ⟨S512x512x1, .f32⟩
  | _ => ⟨S512x512x128, .f32⟩

abbrev hbmTy0_1 (i : Nat) : BufTy := match i % 128 with
  | 0 => ⟨S512x512x1, .f32⟩
  | 1 => ⟨S512x512x128, .f32⟩
  | 2 => ⟨S512x512x128, .f32⟩
  | 3 => ⟨S512x512x128, .f32⟩
  | 4 => ⟨S_, .f32⟩
  | 5 => ⟨S512x512, .f32⟩
  | 6 => ⟨S512x512x1, .f32⟩
  | 7 => ⟨S_, .f32⟩
  | 8 => ⟨S512x512x1, .f32⟩
  | 9 => ⟨S512x512x1, .f32⟩
  | 10 => ⟨S512x512x128, .f32⟩
  | 11 => ⟨S512x512x128, .f32⟩
  | 12 => ⟨S_, .f32⟩
  | 13 => ⟨S512x512x1, .f32⟩
  | 14 => ⟨S512x512x1, .f32⟩
  | 15 => ⟨S512x512x1, .f32⟩
  | 16 => ⟨S512x512x128, .f32⟩
  | 17 => ⟨S512x512x128, .f32⟩
  | 18 => ⟨S1x1x128, .f32⟩
  | 19 => ⟨S512x512x128, .f32⟩
  | 20 => ⟨S512x512x128, .f32⟩
  | 21 => ⟨S1x1x128, .f32⟩
  | 22 => ⟨S512x512x128, .f32⟩
  | 23 => ⟨S512x512x128, .f32⟩
  | 24 => ⟨S512x512x128, .f32⟩
  | 25 => ⟨S1x1x128, .f32⟩
  | 26 => ⟨S512x512x128, .f32⟩
  | 27 => ⟨S512x512x128, .f32⟩
  | _ => ⟨S512x512x128, .f32⟩

abbrev hbmTy (i : Nat) : BufTy := match i / 128 with
  | 0 => hbmTy0_0 i
  | 1 => hbmTy0_1 i
  | _ => ⟨S512x512x128, .f32⟩

abbrev bufTy : (tb : Table) → Fin (tcTables nBuf tb) → BufTy
  | .hbm, ⟨i, _⟩ => hbmTy i
  | _, _ => ⟨S512x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_cst : Ref sig .tc := ⟨.hbm, 20, rfl⟩
abbrev main_v1 : Ref sig .tc := ⟨.hbm, 21, rfl⟩
abbrev main_v2 : Ref sig .tc := ⟨.hbm, 22, rfl⟩
abbrev main_cst_0 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_cst_2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_3 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_9 : Ref sig .tc := ⟨.hbm, 94, rfl⟩
abbrev main_v65 : Ref sig .tc := ⟨.hbm, 95, rfl⟩
abbrev main_v66 : Ref sig .tc := ⟨.hbm, 96, rfl⟩
abbrev main_cst_10 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_11 : Ref sig .tc := ⟨.hbm, 106, rfl⟩
abbrev main_v75 : Ref sig .tc := ⟨.hbm, 107, rfl⟩
abbrev main_v76 : Ref sig .tc := ⟨.hbm, 108, rfl⟩
abbrev main_cst_12 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_13 : Ref sig .tc := ⟨.hbm, 114, rfl⟩
abbrev main_v81 : Ref sig .tc := ⟨.hbm, 115, rfl⟩
abbrev main_cst_14 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_15 : Ref sig .tc := ⟨.hbm, 123, rfl⟩
abbrev main_v88 : Ref sig .tc := ⟨.hbm, 124, rfl⟩
abbrev main_v89 : Ref sig .tc := ⟨.hbm, 125, rfl⟩
abbrev main_cst_16 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_17 : Ref sig .tc := ⟨.hbm, 132, rfl⟩
abbrev main_v95 : Ref sig .tc := ⟨.hbm, 133, rfl⟩
abbrev main_v96 : Ref sig .tc := ⟨.hbm, 134, rfl⟩
abbrev main_cst_18 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_19 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩

abbrev nD : Nat := 1
abbrev τ : Topo := Topo.v7x

variable {F : FTy → Type} [FloatOps F]

class Facts₀ : Prop where
  bcast_S512x512_S512x512x1_0_1 : S512x512.BroadcastsInDim S512x512x1 (![0, 1] : Fin 2 → Fin S512x512x1.rank)
  reducesTo_S512x512x128_S512x512_d2 : S512x512x128.ReducesTo [2] S512x512
  h_S_ : 0 < S_.numel
  bcast_S_S512x512x1 : S_.BroadcastsInDim S512x512x1 (![] : Fin 0 → Fin S512x512x1.rank)
  bcast_S512x512x1_S512x512x128_0_1_2 : S512x512x1.BroadcastsInDim S512x512x128 (![0, 1, 2] : Fin 3 → Fin S512x512x128.rank)
  bcast_S128_S1x1x128_2 : S128.BroadcastsInDim S1x1x128 (![2] : Fin 1 → Fin S1x1x128.rank)
  bcast_S1x1x128_S512x512x128_0_1_2 : S1x1x128.BroadcastsInDim S512x512x128 (![0, 1, 2] : Fin 3 → Fin S512x512x128.rank)
  bcast_S_S512x512x128 : S_.BroadcastsInDim S512x512x128 (![] : Fin 0 → Fin S512x512x128.rank)
  reducesTo_S512x512x128_S512x128_d1 : S512x512x128.ReducesTo [1] S512x128
  bcast_S512x128_S512x1x128_0_2 : S512x128.BroadcastsInDim S512x1x128 (![0, 2] : Fin 2 → Fin S512x1x128.rank)
  bcast_S512x128_S1x512x128_1_2 : S512x128.BroadcastsInDim S1x512x128 (![1, 2] : Fin 2 → Fin S1x512x128.rank)
  bcast_S512x1x128_S512x512x128_0_1_2 : S512x1x128.BroadcastsInDim S512x512x128 (![0, 1, 2] : Fin 3 → Fin S512x512x128.rank)
  bcast_S1x512x128_S512x512x128_0_1_2 : S1x512x128.BroadcastsInDim S512x512x128 (![0, 1, 2] : Fin 3 → Fin S512x512x128.rank)
  dot_S512x512x128_S128x128_S512x512x128_2_1_01_0_n_n_wf : DotDims.WF S512x512x128 S128x128 S512x512x128 [2] [1] [0, 1] [0] [] []

variable [Facts₀]

def dot_S512x512x128_S128x128_S512x512x128_2_1_01_0_n_n : DotDims S512x512x128 S128x128 S512x512x128 where
  lhsContracting := [2]
  rhsContracting := [1]
  lhsNonContracting := [0, 1]
  rhsNonContracting := [0]
  lhsBatch := []
  rhsBatch := []
  wf := dot_S512x512x128_S128x128_S512x512x128_2_1_01_0_n_n_wf

class Facts : Prop extends Facts₀ where

variable [Facts]
-- ==== Proof.K.R0Defs.lean ====
import proofs.«151578_j65635690217487_1_alg».proof.Proof.Gen.Kernel.Launch
import proofs.«151578_j65635690217487_1_alg».proof.Proof.Gen.Kernel.Skeleton
import proofs.«151578_j65635690217487_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the reduction of `p` over its second axis), shared definitions

The region is entered with the TensorCore's buffers at contents `V`. Its grid is 8 × 4; the point
`t = 4 i + j` adds the block's partial sums into a scratch accumulator that is reset at `j = 0` and
copied into the output window at `j = 3`. -/

variable (V : (c : Dev nD) → (b : Ref sig .tc) → Buf (Elt F) ((c : Thread nD τ).loc b))

/-! ## The windows' blocks -/

/-- Window `w`'s block at point `t`, read off its array at the region's entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is
    not fetched the block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is
    not fetched the block index has not moved since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is
    not fetched the block index has not moved since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: where it is
    not fetched the block index has not moved since the last fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: where it is
    not fetched the block index has not moved since the last fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not: where it is
    not fetched the block index has not moved since the last fetch. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not: where it is
    not fetched the block index has not moved since the last fetch. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, in closed form -/

/-- The first conditional's condition (`j = 0`), from the grid coordinates. -/
abbrev cond0_0 (i : grid0.Coords) : Prop := (Scalar.cmpi .ne (Scalar.extui (Scalar.cmpi .eq (BitVec.ofNat 32 (i 1).val) 0#32)) 0#32) = 1#1
/-- It holds exactly at the points `t ≡ 0 (mod 4)`. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's condition (`j = 3`), from the grid coordinates. -/
abbrev cond0_1 (i : grid0.Coords) : Prop := k0_cond2 i = 1#1
/-- It holds exactly at the points `t ≡ 3 (mod 4)`. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/
/-- Input window 0 is never idle. -/
theorem liveAt0_0 : ∀ t : Fin cfg0.N, cfg0.idle 0 (grid0.coords t) = false := by decide +kernel
/-- Input window 1 is never idle. -/
theorem liveAt0_1 : ∀ t : Fin cfg0.N, cfg0.idle 1 (grid0.coords t) = false := by decide +kernel
/-- Input window 2 is never idle. -/
theorem liveAt0_2 : ∀ t : Fin cfg0.N, cfg0.idle 2 (grid0.coords t) = false := by decide +kernel
/-- Input window 3 is never idle. -/
theorem liveAt0_3 : ∀ t : Fin cfg0.N, cfg0.idle 3 (grid0.coords t) = false := by decide +kernel
/-- Input window 4 is never idle. -/
theorem liveAt0_4 : ∀ t : Fin cfg0.N, cfg0.idle 4 (grid0.coords t) = false := by decide +kernel
/-- Input window 5 is never idle. -/
theorem liveAt0_5 : ∀ t : Fin cfg0.N, cfg0.idle 5 (grid0.coords t) = false := by decide +kernel
/-- Input window 6 is never idle. -/
theorem liveAt0_6 : ∀ t : Fin cfg0.N, cfg0.idle 6 (grid0.coords t) = false := by decide +kernel
/-- Where `j = 0` (and `j ≠ 3`) the output window is idle: nothing is stored into it. -/
theorem idleAt0_7_A : ∀ t : Fin cfg0.N, cond0_0 (grid0.coords t) → ¬cond0_1 (grid0.coords t) → cfg0.idle 7 (grid0.coords t) = true := by decide +kernel
/-- There the output's block is not written back. -/
theorem noFlush0_7_A : ∀ t : Fin cfg0.N, cond0_0 (grid0.coords t) → ¬cond0_1 (grid0.coords t) → (cfg0.win 7).flush t = false := by decide +kernel
/-- Where `j ≠ 0` and `j ≠ 3` the output window is idle. -/
theorem idleAt0_7_B : ∀ t : Fin cfg0.N, ¬cond0_0 (grid0.coords t) → ¬cond0_1 (grid0.coords t) → cfg0.idle 7 (grid0.coords t) = true := by decide +kernel
/-- There the output's block is not written back. -/
theorem noFlush0_7_B : ∀ t : Fin cfg0.N, ¬cond0_0 (grid0.coords t) → ¬cond0_1 (grid0.coords t) → (cfg0.win 7).flush t = false := by decide +kernel
/-- Where `j = 3` the output window is live: the accumulator is copied into it. -/
theorem liveAt0_7_C : ∀ t : Fin cfg0.N, ¬cond0_0 (grid0.coords t) → cond0_1 (grid0.coords t) → cfg0.idle 7 (grid0.coords t) = false := by decide +kernel

/-! ## The staging and scratch memrefs -/

/-- One staging buffer of the output window, through which its contents are stated (a covering list of pieces reads
    back the same through any whole view). -/
abbrev VO0_7 : View sig .tc .vmem S64x128 .f32 := (Memref.whole cc0_stg7_0 : Memref sig .tc .vmem S64x128 .f32).view
abbrev ms0_0 (t : Fin cfg0.N) : Memref sig .tc .vmem S64x128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x128 .f32 := win0_7.stage (cfg0.slots t 7)
abbrev hs0_7 (t : Fin cfg0.N) : (ms0_7 t).IsWhole := hstage0_7 ((cfg0.slots t 7).cast nbuf0_7)
/-- The scratch accumulator: a whole scoped buffer of the kernel's own, passed beside the windows. -/
abbrev scM0_0 : Memref sig .tc .vmem S64x128 .f32 := Memref.whole cc0_scratch0
/-- The accumulator as a view: what it holds is stated through it. -/
abbrev VS0_0 : View sig .tc .vmem S64x128 .f32 := scM0_0.view

/-- The core's scoped buffers that are no staging buffer of this region, split at the accumulator: it at some
    contents, and every other one (the other regions' staging buffers and scratch) unopened. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The rest of the region's invariant beside the accumulator: the other scoped buffers, unopened. -/
abbrev rest0 (c : Dev nD) : sProp 𝕄 :=
  Pipeline.scopedRestBut (Ix := Unit) (Name := ℕ) (U := UR sig nD τ) (Lvl := ℕ) (Val := Elt F) spec0 c [cc0_scratch0]

/-- The invariant the launch hands the region, with the accumulator as a memref owned at some contents. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA; rw [scopedRest0_split]; simp only [scM0_0, owns_whole]; try rfl

end Cert.Kernel.Hand

end
-- ==== Proof.K.R0RunA.lean ====
import proofs.«151578_j65635690217487_1_alg».proof.Proof.K.R0Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's run where `j = 0`: the accumulator is reset (whatever it held) and this block's partial sums are added; nothing is stored into the output window, which is handed back as found.
    On whole memrefs — the inputs' at their contents — the body runs to a continuation holding the inputs as they were
    and each buffer it stored into with its pieces written; the lists of pieces are the witness the run finds. -/
noncomputable def kernelRun0_A (c : Dev nD) (i : grid0.Coords) (arg2 : Memref sig .tc .vmem S64x128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S64x128 .f32) (harg9 : arg9.IsWhole) (arg10 : Memref sig .tc .vmem S64x128 .f32) (harg10 : arg10.IsWhole) (hc0 : cond0_0 i) (hc1 : ¬cond0_1 i)
    (x0 : Vec F S64x128x128 .f32) (x1 : Vec F S128 .f32) (x2 : Vec F S128 .f32) (x3 : Vec F S128x128 .f32) (x4 : Vec F S128 .f32) (x5 : Vec F S128x128 .f32) (x6 : Vec F S128 .f32) :
    Σ' (L7 : List (View.Piece (Elt F) S64x128 .f32)), { LS0 : List (View.Piece (Elt F) S64x128 .f32) //
      ∀ (xi7 : Vec F S64x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__reduce_p_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__reduce_p_kernel_eq_skeleton]; unfold cc0__reduce_p_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.Kernel.Hand

end
-- ==== Proof.K.R0RunB.lean ====
import proofs.«151578_j65635690217487_1_alg».proof.Proof.K.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's run where `j ≠ 0` and `j ≠ 3`: this block's partial sums are added to the accumulator left by the point before; nothing is stored into the output window, which is handed back as found.
    On whole memrefs — the inputs' at their contents — the body runs to a continuation holding the inputs as they were
    and each buffer it stored into with its pieces written; the lists of pieces are the witness the run finds. -/
noncomputable def kernelRun0_B (c : Dev nD) (i : grid0.Coords) (arg2 : Memref sig .tc .vmem S64x128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S64x128 .f32) (harg9 : arg9.IsWhole) (arg10 : Memref sig .tc .vmem S64x128 .f32) (harg10 : arg10.IsWhole) (hc0 : ¬cond0_0 i) (hc1 : ¬cond0_1 i)
    (x0 : Vec F S64x128x128 .f32) (x1 : Vec F S128 .f32) (x2 : Vec F S128 .f32) (x3 : Vec F S128x128 .f32) (x4 : Vec F S128 .f32) (x5 : Vec F S128x128 .f32) (x6 : Vec F S128 .f32) (xs0 : Vec F S64x128 .f32) :
    Σ' (L7 : List (View.Piece (Elt F) S64x128 .f32)), { LS0 : List (View.Piece (Elt F) S64x128 .f32) //
      ∀ (xi7 : Vec F S64x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__reduce_p_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__reduce_p_kernel_eq_skeleton]; unfold cc0__reduce_p_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.Kernel.Hand

end
-- ==== Proof.K.R0RunC.lean ====
import proofs.«151578_j65635690217487_1_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's run where `j = 3`: this block's partial sums are added to the accumulator left by the point before, and the accumulator is copied into the output window.
    On whole memrefs — the inputs' at their contents — the body runs to a continuation holding the inputs as they were
    and each buffer it stored into with its pieces written; the lists of pieces are the witness the run finds. -/
noncomputable def kernelRun0_C (c : Dev nD) (i : grid0.Coords) (arg2 : Memref sig .tc .vmem S64x128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S64x128 .f32) (harg9 : arg9.IsWhole) (arg10 : Memref sig .tc .vmem S64x128 .f32) (harg10 : arg10.IsWhole) (hc0 : ¬cond0_0 i) (hc1 : cond0_1 i)
    (x0 : Vec F S64x128x128 .f32) (x1 : Vec F S128 .f32) (x2 : Vec F S128 .f32) (x3 : Vec F S128x128 .f32) (x4 : Vec F S128 .f32) (x5 : Vec F S128x128 .f32) (x6 : Vec F S128 .f32) (xs0 : Vec F S64x128 .f32) :
    Σ' (L7 : List (View.Piece (Elt F) S64x128 .f32)), { LS0 : List (View.Piece (Elt F) S64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__reduce_p_kernel i arg2 harg2 arg3 harg3 arg4 harg4 arg5 harg5 arg6 harg6 arg7 harg7 arg8 harg8 arg9 harg9 arg10 harg10) K } := by
  refine ⟨?_, ?_, fun E K => ?run⟩
  case run =>
    simp only [cc0__reduce_p_kernel_eq_skeleton]; unfold cc0__reduce_p_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.Kernel.Hand

end
-- ==== Proof.K.Region0.lean ====
import proofs.«151578_j65635690217487_1_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the reduction of `p` over its second axis): the proof data and the body obligation

What the output window's staging buffer and the scratch accumulator hold after each point, by recursion on
the point; the invariant that tracks the accumulator between points; the body obligation by cases on the two branch
conditions. -/

variable (V : (c : Dev nD) → (b : Ref sig .tc) → Buf (Elt F) ((c : Thread nD τ).loc b))

/-! ## What each case leaves -/

/-- Case A stores nothing into the output window: no pieces (a placeholder nothing consults, the window being neither
    written back nor read at the next point). -/
def out0_A_7 (c : Dev nD) (i : grid0.Coords) (arg2 : Memref sig .tc .vmem S64x128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S64x128 .f32) (harg9 : arg9.IsWhole) (arg10 : Memref sig .tc .vmem S64x128 .f32) (harg10 : arg10.IsWhole) (hc0 : cond0_0 i) (hc1 : ¬cond0_1 i)
    (x0 : Vec F S64x128x128 .f32) (x1 : Vec F S128 .f32) (x2 : Vec F S128 .f32) (x3 : Vec F S128x128 .f32) (x4 : Vec F S128 .f32) (x5 : Vec F S128x128 .f32) (x6 : Vec F S128 .f32) : Vec F S64x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 hc1 x0 x1 x2 x3 x4 x5 x6).1)

/-- Case A's stores into the accumulator cover it. -/
theorem scover0_A_0 (c : Dev nD) (i : grid0.Coords) (arg2 : Memref sig .tc .vmem S64x128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S64x128 .f32) (harg9 : arg9.IsWhole) (arg10 : Memref sig .tc .vmem S64x128 .f32) (harg10 : arg10.IsWhole) (hc0 : cond0_0 i) (hc1 : ¬cond0_1 i)
    (x0 : Vec F S64x128x128 .f32) (x1 : Vec F S128 .f32) (x2 : Vec F S128 .f32) (x3 : Vec F S128x128 .f32) (x4 : Vec F S128 .f32) (x5 : Vec F S128x128 .f32) (x6 : Vec F S128 .f32) (y : S64x128.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5 x6).2.1 S64x128.size (by sl_kernel_rfl) y

/-- What case A leaves in the accumulator: its pieces read back. -/
def sout0_A_0 (c : Dev nD) (i : grid0.Coords) (arg2 : Memref sig .tc .vmem S64x128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S64x128 .f32) (harg9 : arg9.IsWhole) (arg10 : Memref sig .tc .vmem S64x128 .f32) (harg10 : arg10.IsWhole) (hc0 : cond0_0 i) (hc1 : ¬cond0_1 i)
    (x0 : Vec F S64x128x128 .f32) (x1 : Vec F S128 .f32) (x2 : Vec F S128 .f32) (x3 : Vec F S128x128 .f32) (x4 : Vec F S128 .f32) (x5 : Vec F S128x128 .f32) (x6 : Vec F S128 .f32) : Vec F S64x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5 x6).2.1)

/-- Case B stores nothing into the output window: no pieces (a placeholder nothing consults, the window being neither
    written back nor read at the next point). -/
def out0_B_7 (c : Dev nD) (i : grid0.Coords) (arg2 : Memref sig .tc .vmem S64x128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S64x128 .f32) (harg9 : arg9.IsWhole) (arg10 : Memref sig .tc .vmem S64x128 .f32) (harg10 : arg10.IsWhole) (hc0 : ¬cond0_0 i) (hc1 : ¬cond0_1 i)
    (x0 : Vec F S64x128x128 .f32) (x1 : Vec F S128 .f32) (x2 : Vec F S128 .f32) (x3 : Vec F S128x128 .f32) (x4 : Vec F S128 .f32) (x5 : Vec F S128x128 .f32) (x6 : Vec F S128 .f32) (xs0 : Vec F S64x128 .f32) : Vec F S64x128 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 hc1 x0 x1 x2 x3 x4 x5 x6 xs0).1)

/-- Case B's stores into the accumulator cover it. -/
theorem scover0_B_0 (c : Dev nD) (i : grid0.Coords) (arg2 : Memref sig .tc .vmem S64x128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S64x128 .f32) (harg9 : arg9.IsWhole) (arg10 : Memref sig .tc .vmem S64x128 .f32) (harg10 : arg10.IsWhole) (hc0 : ¬cond0_0 i) (hc1 : ¬cond0_1 i)
    (x0 : Vec F S64x128x128 .f32) (x1 : Vec F S128 .f32) (x2 : Vec F S128 .f32) (x3 : Vec F S128x128 .f32) (x4 : Vec F S128 .f32) (x5 : Vec F S128x128 .f32) (x6 : Vec F S128 .f32) (xs0 : Vec F S64x128 .f32) (y : S64x128.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 x6 xs0).2.1 S64x128.size (by sl_kernel_rfl) y

/-- What case B leaves in the accumulator: its pieces read back. -/
def sout0_B_0 (c : Dev nD) (i : grid0.Coords) (arg2 : Memref sig .tc .vmem S64x128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S64x128 .f32) (harg9 : arg9.IsWhole) (arg10 : Memref sig .tc .vmem S64x128 .f32) (harg10 : arg10.IsWhole) (hc0 : ¬cond0_0 i) (hc1 : ¬cond0_1 i)
    (x0 : Vec F S64x128x128 .f32) (x1 : Vec F S128 .f32) (x2 : Vec F S128 .f32) (x3 : Vec F S128x128 .f32) (x4 : Vec F S128 .f32) (x5 : Vec F S128x128 .f32) (x6 : Vec F S128 .f32) (xs0 : Vec F S64x128 .f32) : Vec F S64x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 x5 x6 xs0).2.1)

/-- Case C's one store into the output window covers its block. -/
theorem cover0_C_7 (c : Dev nD) (i : grid0.Coords) (arg2 : Memref sig .tc .vmem S64x128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S64x128 .f32) (harg9 : arg9.IsWhole) (arg10 : Memref sig .tc .vmem S64x128 .f32) (harg10 : arg10.IsWhole) (hc0 : ¬cond0_0 i) (hc1 : cond0_1 i)
    (x0 : Vec F S64x128x128 .f32) (x1 : Vec F S128 .f32) (x2 : Vec F S128 .f32) (x3 : Vec F S128x128 .f32) (x4 : Vec F S128 .f32) (x5 : Vec F S128x128 .f32) (x6 : Vec F S128 .f32) (xs0 : Vec F S64x128 .f32) (y : S64x128.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).1 S64x128.size (by sl_kernel_rfl) y

/-- What case C leaves in the output window's staging buffer: its pieces read back. -/
def out0_C_7 (c : Dev nD) (i : grid0.Coords) (arg2 : Memref sig .tc .vmem S64x128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S64x128 .f32) (harg9 : arg9.IsWhole) (arg10 : Memref sig .tc .vmem S64x128 .f32) (harg10 : arg10.IsWhole) (hc0 : ¬cond0_0 i) (hc1 : cond0_1 i)
    (x0 : Vec F S64x128x128 .f32) (x1 : Vec F S128 .f32) (x2 : Vec F S128 .f32) (x3 : Vec F S128x128 .f32) (x4 : Vec F S128 .f32) (x5 : Vec F S128x128 .f32) (x6 : Vec F S128 .f32) (xs0 : Vec F S64x128 .f32) : Vec F S64x128 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 x4 x5 x6 xs0).1)

/-- Case C's stores into the accumulator cover it. -/
theorem scover0_C_0 (c : Dev nD) (i : grid0.Coords) (arg2 : Memref sig .tc .vmem S64x128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S64x128 .f32) (harg9 : arg9.IsWhole) (arg10 : Memref sig .tc .vmem S64x128 .f32) (harg10 : arg10.IsWhole) (hc0 : ¬cond0_0 i) (hc1 : cond0_1 i)
    (x0 : Vec F S64x128x128 .f32) (x1 : Vec F S128 .f32) (x2 : Vec F S128 .f32) (x3 : Vec F S128x128 .f32) (x4 : Vec F S128 .f32) (x5 : Vec F S128x128 .f32) (x6 : Vec F S128 .f32) (xs0 : Vec F S64x128 .f32) (y : S64x128.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).2.1 S64x128.size (by sl_kernel_rfl) y

/-- What case C leaves in the accumulator: its pieces read back. -/
def sout0_C_0 (c : Dev nD) (i : grid0.Coords) (arg2 : Memref sig .tc .vmem S64x128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S64x128 .f32) (harg9 : arg9.IsWhole) (arg10 : Memref sig .tc .vmem S64x128 .f32) (harg10 : arg10.IsWhole) (hc0 : ¬cond0_0 i) (hc1 : cond0_1 i)
    (x0 : Vec F S64x128x128 .f32) (x1 : Vec F S128 .f32) (x2 : Vec F S128 .f32) (x3 : Vec F S128x128 .f32) (x4 : Vec F S128 .f32) (x5 : Vec F S128x128 .f32) (x6 : Vec F S128 .f32) (xs0 : Vec F S64x128 .f32) : Vec F S64x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 x5 x6 xs0).2.1)

/-! ## What the output window and the accumulator hold after each point -/

/-- The accumulation. What the output window's staging buffer (first) and the accumulator (second) hold after the body
    at position `n`: the case the closed forms select at `n`, run at the point's memrefs and input blocks, the
    accumulator read at what the point before left. -/
def outsAt0 (c : Dev nD) : (n : ℕ) → n < cfg0.N → Vec F S64x128 .f32 × Vec F S64x128 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h0 : (n + 1) % 4 = 0 then
      if h1 : (n + 1) % 4 = 3 then
        False.elim (by omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩))
    else
      if h1 : (n + 1) % 4 = 3 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2)
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2)

/-- `outsAt0` at a point of case A: that case's contents. -/
theorem outsAt0_A (c : Dev nD) (t : Fin cfg0.N) (h0 : t.val % 4 = 0) (h1 : ¬t.val % 4 = 3) :
    outsAt0 V c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 4 = 0) (h1 : ¬t.val % 4 = 3) :
    outsAt0 V c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 4 = 0) (h1 : t.val % 4 = 3) :
    outsAt0 V c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that tracks the accumulator -/

/-- The region's invariant before position `n`: before the first point what the launch hands over (every scoped
    buffer that is no staging buffer at some contents, the generator register at some state); afterwards the same with
    the accumulator at what the point before left in it. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The pipeline's proof data -/

/-- The proof data of the region's pipeline on core `c`: the arrays as the region finds them; after the body at point
    `t` each input's buffer at its block and the output's at `outsAt0`; the tracking invariant; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- An input's buffer is handed back at its block. -/
theorem leaves0_0 (c : Dev nD) (t : Fin cfg0.N) :
    (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (c : Dev nD) (t : Fin cfg0.N) :
    (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
theorem leaves0_2 (c : Dev nD) (t : Fin cfg0.N) :
    (dat0 V c).leavesExact 2 t = owns (c : Thread nD τ) (ms0_2 t) fullShare (iblk0 V c 2 t) := by
  rw [show (dat0 V c).leavesExact 2 t = owns (c : Thread nD τ) (ms0_2 t) fullShare ((dat0 V c).after 2 t) from by
    unfold Dat.leavesExact; rw [liveAt0_2 t], after0_2]
theorem leaves0_3 (c : Dev nD) (t : Fin cfg0.N) :
    (dat0 V c).leavesExact 3 t = owns (c : Thread nD τ) (ms0_3 t) fullShare (iblk0 V c 3 t) := by
  rw [show (dat0 V c).leavesExact 3 t = owns (c : Thread nD τ) (ms0_3 t) fullShare ((dat0 V c).after 3 t) from by
    unfold Dat.leavesExact; rw [liveAt0_3 t], after0_3]
theorem leaves0_4 (c : Dev nD) (t : Fin cfg0.N) :
    (dat0 V c).leavesExact 4 t = owns (c : Thread nD τ) (ms0_4 t) fullShare (iblk0 V c 4 t) := by
  rw [show (dat0 V c).leavesExact 4 t = owns (c : Thread nD τ) (ms0_4 t) fullShare ((dat0 V c).after 4 t) from by
    unfold Dat.leavesExact; rw [liveAt0_4 t], after0_4]
theorem leaves0_5 (c : Dev nD) (t : Fin cfg0.N) :
    (dat0 V c).leavesExact 5 t = owns (c : Thread nD τ) (ms0_5 t) fullShare (iblk0 V c 5 t) := by
  rw [show (dat0 V c).leavesExact 5 t = owns (c : Thread nD τ) (ms0_5 t) fullShare ((dat0 V c).after 5 t) from by
    unfold Dat.leavesExact; rw [liveAt0_5 t], after0_5]
theorem leaves0_6 (c : Dev nD) (t : Fin cfg0.N) :
    (dat0 V c).leavesExact 6 t = owns (c : Thread nD τ) (ms0_6 t) fullShare (iblk0 V c 6 t) := by
  rw [show (dat0 V c).leavesExact 6 t = owns (c : Thread nD τ) (ms0_6 t) fullShare ((dat0 V c).after 6 t) from by
    unfold Dat.leavesExact; rw [liveAt0_6 t], after0_6]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 1000000 in
/-- The body at any point: the inputs' memrefs hold their blocks; the closed forms say which case the point is in; the
    invariant hands the body the accumulator at what the point before left (at anything at the first point) and takes it
    back at this point's contents; the other scoped buffers, the generator register and the core's debts pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 4 = 0
  · by_cases h1 : t.val % 4 = 3
    · exfalso; omega
    · rw [leaves0_0, leaves0_1, leaves0_2, leaves0_3, leaves0_4, leaves0_5, leaves0_6]
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        iintro ⟨H0, H1, H2, H3, H4, H5, H6, H7, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · by_cases h1 : t.val % 4 = 3
    · rw [leaves0_0, leaves0_1, leaves0_2, leaves0_3, leaves0_4, leaves0_5, leaves0_6]
      rw [show (dat0 V c).leavesExact 7 t = owns (c : Thread nD τ) (ms0_7 t) fullShare ((dat0 V c).after 7 t) from by
        unfold Dat.leavesExact; rw [liveAt0_7_C t (fun h => h0 ((hcond0_0 t).mp h)) ((hcond0_1 t).mpr h1)], after0_7]
      rw [outsAt0_C V c t h0 h1]
      unfold out0_C_7 sout0_C_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        iintro ⟨H0, H1, H2, H3, H4, H5, H6, ⟨%e7, H7⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _)
    · rw [leaves0_0, leaves0_1, leaves0_2, leaves0_3, leaves0_4, leaves0_5, leaves0_6]
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.Kernel.Hand

end
-- ==== Proof.K.R1Defs.lean ====
import proofs.«151578_j65635690217487_1_alg».proof.Proof.Gen.Kernel.Launch
import proofs.«151578_j65635690217487_1_alg».proof.Proof.Gen.Kernel.Skeleton
import proofs.«151578_j65635690217487_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the masked reduction over z): what its case runs share -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is
    not fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is
    not fetched its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is
    not fetched its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is
    not fetched its block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where it is
    not fetched its block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: where it is
    not fetched its block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not: where it is
    not fetched its block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not: where it is
    not fetched its block index has not moved. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two branch conditions -/

/-- The condition of the first conditional (the accumulator is reset): the second grid coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the second conditional (the accumulator is copied out): the second grid coordinate is 3. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
/-- In case A (reset, no copy) output 8 is idle and not written back. -/
theorem idleAt1_8_A : ∀ t : Fin cfg1.N, cond1_0 (grid1.coords t) → ¬cond1_1 (grid1.coords t) → cfg1.idle 8 (grid1.coords t) = true := by decide +kernel
theorem noFlush1_8_A : ∀ t : Fin cfg1.N, cond1_0 (grid1.coords t) → ¬cond1_1 (grid1.coords t) → (cfg1.win 8).flush t = false := by decide +kernel
/-- In case B (neither) output 8 is idle and not written back. -/
theorem idleAt1_8_B : ∀ t : Fin cfg1.N, ¬cond1_0 (grid1.coords t) → ¬cond1_1 (grid1.coords t) → cfg1.idle 8 (grid1.coords t) = true := by decide +kernel
theorem noFlush1_8_B : ∀ t : Fin cfg1.N, ¬cond1_0 (grid1.coords t) → ¬cond1_1 (grid1.coords t) → (cfg1.win 8).flush t = false := by decide +kernel
/-- In case C (copy, no reset) output 8 is live. -/
theorem liveAt1_8_C : ∀ t : Fin cfg1.N, ¬cond1_0 (grid1.coords t) → cond1_1 (grid1.coords t) → cfg1.idle 8 (grid1.coords t) = false := by decide +kernel

/-! ## The memrefs the body is called with -/

/-- One staging buffer of output window 8, through which its contents are stated. -/
abbrev VO1_8 : View sig .tc .vmem S64x128 .f32 := (Memref.whole cc1_stg8_0 : Memref sig .tc .vmem S64x128 .f32).view
abbrev ms1_0 (t : Fin cfg1.N) : Memref sig .tc .vmem S64x128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S64x128 .f32 := win1_8.stage (cfg1.slots t 8)
abbrev hs1_8 (t : Fin cfg1.N) : (ms1_8 t).IsWhole := hstage1_8 ((cfg1.slots t 8).cast nbuf1_8)
/-- The scratch accumulator: a whole scoped buffer of the kernel's own, carried between points. -/
abbrev scM1_0 : Memref sig .tc .vmem S64x128 .f32 := Memref.whole cc1_scratch0
abbrev VS1_0 : View sig .tc .vmem S64x128 .f32 := scM1_0.view

/-- The region's base invariant with the accumulator as a memref owned at some contents, the other scoped buffers
    and the generator register beside it. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg6_1), ((c : Thread nD τ).loc cc2_stg6_1) ↦{fullShare} f)) ∗ (∃ r, prngReg c r)) := by
  unfold Pipeline.ΦA; rw [scopedRest1_eq]; simp only [scM1_0, owns_whole]; try rfl

end Cert.Kernel.Hand

end
-- ==== Proof.K.R1RunA.lean ====
import proofs.«151578_j65635690217487_1_alg».proof.Proof.K.R1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The whole body in case A (the accumulator is reset, then added to; output 8 is left untouched), on whole memrefs: the inputs at their contents are handed back as they
    were; the pieces each written buffer ends with (last first) are the witness the run finds. -/
noncomputable def kernelRun1_A (c : Dev nD) (i : grid1.Coords) (arg2 : Memref sig .tc .vmem S64x128x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (hc0 : cond1_0 i) (hc1 : ¬cond1_1 i)
    (x0 : Vec F S64x128x128 .f32) (x1 : Vec F S64x128 .f32) (x2 : Vec F S128 .f32) (x3 : Vec F S128 .f32) (x4 : Vec F S128x128 .f32) (x5 : Vec F S128 .f32) (x6 : Vec F S128x128 .f32) (x7 : Vec F S128 .f32) :
    Σ' (L8 : List (View.Piece (Elt F) S64x128 .f32)), { LS0 : List (View.Piece (Elt F) S64x128 .f32) //
      ∀ (xi8 : Vec F S64x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc1__reduce_z_kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc1__reduce_z_kernel_eq_skeleton]; unfold cc1__reduce_z_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.Kernel.Hand

end
-- ==== Proof.K.R1RunB.lean ====
import proofs.«151578_j65635690217487_1_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The whole body in case B (the accumulator is added to; output 8 is left untouched), on whole memrefs: the inputs at their contents are handed back as they
    were; the pieces each written buffer ends with (last first) are the witness the run finds. -/
noncomputable def kernelRun1_B (c : Dev nD) (i : grid1.Coords) (arg2 : Memref sig .tc .vmem S64x128x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : ¬cond1_1 i)
    (x0 : Vec F S64x128x128 .f32) (x1 : Vec F S64x128 .f32) (x2 : Vec F S128 .f32) (x3 : Vec F S128 .f32) (x4 : Vec F S128x128 .f32) (x5 : Vec F S128 .f32) (x6 : Vec F S128x128 .f32) (x7 : Vec F S128 .f32) (xs0 : Vec F S64x128 .f32) :
    Σ' (L8 : List (View.Piece (Elt F) S64x128 .f32)), { LS0 : List (View.Piece (Elt F) S64x128 .f32) //
      ∀ (xi8 : Vec F S64x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc1__reduce_z_kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc1__reduce_z_kernel_eq_skeleton]; unfold cc1__reduce_z_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.Kernel.Hand

end
-- ==== Proof.K.R1RunC.lean ====
import proofs.«151578_j65635690217487_1_alg».proof.Proof.K.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The whole body in case C (the accumulator is added to, then copied into output 8), on whole memrefs: the inputs at their contents are handed back as they
    were; the pieces each written buffer ends with (last first) are the witness the run finds. -/
noncomputable def kernelRun1_C (c : Dev nD) (i : grid1.Coords) (arg2 : Memref sig .tc .vmem S64x128x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : cond1_1 i)
    (x0 : Vec F S64x128x128 .f32) (x1 : Vec F S64x128 .f32) (x2 : Vec F S128 .f32) (x3 : Vec F S128 .f32) (x4 : Vec F S128x128 .f32) (x5 : Vec F S128 .f32) (x6 : Vec F S128x128 .f32) (x7 : Vec F S128 .f32) (xs0 : Vec F S64x128 .f32) :
    Σ' (L8 : List (View.Piece (Elt F) S64x128 .f32)), { LS0 : List (View.Piece (Elt F) S64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc1__reduce_z_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__reduce_z_kernel_eq_skeleton]; unfold cc1__reduce_z_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

end Cert.Kernel.Hand

end
-- ==== Proof.K.Region1.lean ====
import proofs.«151578_j65635690217487_1_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the masked reduction over z): the frame half at the region's entry contents -/

/-! ## What each case leaves in output 8's staging buffer and in the accumulator -/

/-- Case A stores nothing into output 8 (idle and not written back at its points): a placeholder nothing consults. -/
def out1_A_8 (c : Dev nD) (i : grid1.Coords) (arg2 : Memref sig .tc .vmem S64x128x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (hc0 : cond1_0 i) (hc1 : ¬cond1_1 i)
    (x0 : Vec F S64x128x128 .f32) (x1 : Vec F S64x128 .f32) (x2 : Vec F S128 .f32) (x3 : Vec F S128 .f32) (x4 : Vec F S128x128 .f32) (x5 : Vec F S128 .f32) (x6 : Vec F S128x128 .f32) (x7 : Vec F S128 .f32) : Vec F S64x128 .f32 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 hc0 hc1 x0 x1 x2 x3 x4 x5 x6 x7).1)

/-- Case A's pieces for the accumulator tile it, so they cover it. -/
theorem scover1_A_0 (c : Dev nD) (i : grid1.Coords) (arg2 : Memref sig .tc .vmem S64x128x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (hc0 : cond1_0 i) (hc1 : ¬cond1_1 i)
    (x0 : Vec F S64x128x128 .f32) (x1 : Vec F S64x128 .f32) (x2 : Vec F S128 .f32) (x3 : Vec F S128 .f32) (x4 : Vec F S128x128 .f32) (x5 : Vec F S128 .f32) (x6 : Vec F S128x128 .f32) (x7 : Vec F S128 .f32) (y : S64x128.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1 S64x128.size (by sl_kernel_rfl) y

/-- What case A leaves in the accumulator: its pieces read back over junk. -/
def sout1_A_0 (c : Dev nD) (i : grid1.Coords) (arg2 : Memref sig .tc .vmem S64x128x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (hc0 : cond1_0 i) (hc1 : ¬cond1_1 i)
    (x0 : Vec F S64x128x128 .f32) (x1 : Vec F S64x128 .f32) (x2 : Vec F S128 .f32) (x3 : Vec F S128 .f32) (x4 : Vec F S128x128 .f32) (x5 : Vec F S128 .f32) (x6 : Vec F S128x128 .f32) (x7 : Vec F S128 .f32) : Vec F S64x128 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1)

/-- Case B stores nothing into output 8 (idle and not written back at its points): a placeholder nothing consults. -/
def out1_B_8 (c : Dev nD) (i : grid1.Coords) (arg2 : Memref sig .tc .vmem S64x128x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : ¬cond1_1 i)
    (x0 : Vec F S64x128x128 .f32) (x1 : Vec F S64x128 .f32) (x2 : Vec F S128 .f32) (x3 : Vec F S128 .f32) (x4 : Vec F S128x128 .f32) (x5 : Vec F S128 .f32) (x6 : Vec F S128x128 .f32) (x7 : Vec F S128 .f32) (xs0 : Vec F S64x128 .f32) : Vec F S64x128 .f32 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs0).1)

/-- Case B's pieces for the accumulator tile it, so they cover it. -/
theorem scover1_B_0 (c : Dev nD) (i : grid1.Coords) (arg2 : Memref sig .tc .vmem S64x128x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : ¬cond1_1 i)
    (x0 : Vec F S64x128x128 .f32) (x1 : Vec F S64x128 .f32) (x2 : Vec F S128 .f32) (x3 : Vec F S128 .f32) (x4 : Vec F S128x128 .f32) (x5 : Vec F S128 .f32) (x6 : Vec F S128x128 .f32) (x7 : Vec F S128 .f32) (xs0 : Vec F S64x128 .f32) (y : S64x128.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs0).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs0).2.1 S64x128.size (by sl_kernel_rfl) y

/-- What case B leaves in the accumulator: its pieces read back over junk. -/
def sout1_B_0 (c : Dev nD) (i : grid1.Coords) (arg2 : Memref sig .tc .vmem S64x128x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : ¬cond1_1 i)
    (x0 : Vec F S64x128x128 .f32) (x1 : Vec F S64x128 .f32) (x2 : Vec F S128 .f32) (x3 : Vec F S128 .f32) (x4 : Vec F S128x128 .f32) (x5 : Vec F S128 .f32) (x6 : Vec F S128x128 .f32) (x7 : Vec F S128 .f32) (xs0 : Vec F S64x128 .f32) : Vec F S64x128 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs0).2.1)

/-- Case C's one store into output 8 tiles its block, so its pieces cover it. -/
theorem cover1_C_8 (c : Dev nD) (i : grid1.Coords) (arg2 : Memref sig .tc .vmem S64x128x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : cond1_1 i)
    (x0 : Vec F S64x128x128 .f32) (x1 : Vec F S64x128 .f32) (x2 : Vec F S128 .f32) (x3 : Vec F S128 .f32) (x4 : Vec F S128x128 .f32) (x5 : Vec F S128 .f32) (x6 : Vec F S128x128 .f32) (x7 : Vec F S128 .f32) (xs0 : Vec F S64x128 .f32) (y : S64x128.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).1 S64x128.size (by sl_kernel_rfl) y

/-- What case C leaves in output 8's staging buffer: its pieces read back over junk. -/
def out1_C_8 (c : Dev nD) (i : grid1.Coords) (arg2 : Memref sig .tc .vmem S64x128x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : cond1_1 i)
    (x0 : Vec F S64x128x128 .f32) (x1 : Vec F S64x128 .f32) (x2 : Vec F S128 .f32) (x3 : Vec F S128 .f32) (x4 : Vec F S128x128 .f32) (x5 : Vec F S128 .f32) (x6 : Vec F S128x128 .f32) (x7 : Vec F S128 .f32) (xs0 : Vec F S64x128 .f32) : Vec F S64x128 .f32 :=
  VO1_8.read (Elt F) (VO1_8.writes (Elt F) VO1_8.junk (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).1)

/-- Case C's pieces for the accumulator tile it, so they cover it. -/
theorem scover1_C_0 (c : Dev nD) (i : grid1.Coords) (arg2 : Memref sig .tc .vmem S64x128x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : cond1_1 i)
    (x0 : Vec F S64x128x128 .f32) (x1 : Vec F S64x128 .f32) (x2 : Vec F S128 .f32) (x3 : Vec F S128 .f32) (x4 : Vec F S128x128 .f32) (x5 : Vec F S128 .f32) (x6 : Vec F S128x128 .f32) (x7 : Vec F S128 .f32) (xs0 : Vec F S64x128 .f32) (y : S64x128.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).2.1 S64x128.size (by sl_kernel_rfl) y

/-- What case C leaves in the accumulator: its pieces read back over junk. -/
def sout1_C_0 (c : Dev nD) (i : grid1.Coords) (arg2 : Memref sig .tc .vmem S64x128x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : cond1_1 i)
    (x0 : Vec F S64x128x128 .f32) (x1 : Vec F S64x128 .f32) (x2 : Vec F S128 .f32) (x3 : Vec F S128 .f32) (x4 : Vec F S128x128 .f32) (x5 : Vec F S128 .f32) (x6 : Vec F S128x128 .f32) (x7 : Vec F S128 .f32) (xs0 : Vec F S64x128 .f32) : Vec F S64x128 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).2.1)

section Region1
variable (V : (c : Dev nD) → (b : Ref sig .tc) → Buf (Elt F) ((c : Thread nD τ).loc b))

/-! ## What output 8's staging buffer and the accumulator hold after each point -/

/-- After the body at position `n`: output 8's staging buffer, then the accumulator — the case the closed forms
    select at `n`, run at the point's memrefs and input blocks, the accumulator at what the point before left. -/
def outsAt1 (c : Dev nD) : (n : ℕ) → n < cfg1.N → Vec F S64x128 .f32 × Vec F S64x128 .f32
  | 0, hn => (out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩))
  | n + 1, hn =>
    if h0 : (n + 1) % 4 = 0 then
      if h1 : (n + 1) % 4 = 3 then
        False.elim (by omega)
      else
        (out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩))
    else
      if h1 : (n + 1) % 4 = 3 then
        (out1_C_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)
      else
        (out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant tracking the accumulator -/

/-- Before position `n`: at the first point the region's base invariant (every scoped buffer at anything); afterwards
    the accumulator owned at what the point before left, the other scoped buffers at anything, the generator register
    at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg6_1), ((c : Thread nD τ).loc cc2_stg6_1) ↦{fullShare} f)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg6_1), ((c : Thread nD τ).loc cc2_stg6_1) ↦{fullShare} f)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg6_1), ((c : Thread nD τ).loc cc2_stg6_1) ↦{fullShare} f)) ∗ (∃ r, prngReg c r)) := by
  cases n with
  | zero => exact absurd rfl hz
  | succ n => rfl

/-! ## The pipeline's proof data -/

/-- The proof data of the region on core `c`: the arrays as the region finds them; after the body at point `t` each
    input's buffer at its block and output 8's at `outsAt1`'s first component; the tracking invariant; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 16000000 in
/-- The body at any point: the inputs' memrefs hold their blocks; the closed forms say which case the point is in; that
    case's run applies; the invariant hands the body the accumulator at what the point before left (at anything at the
    first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [Dat.leavesExact_idle (dat1 V c) 8 t (idleAt1_8_A t ((hcond1_0 t).mpr h0) (fun h => h1 ((hcond1_1 t).mp h))) (noFlush1_8_A t ((hcond1_0 t).mpr h0) (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]
        iintro ⟨⟨⟨HR0, HR1, HR2, HR3, HR4, HR5, HR6, HR7, HR8, HR9, HR10, HS0, HR12, HR13, HR14, HR15, HR16, HR17, HR18, HR19, HR20, HR21⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HR0 HR1 HR2 HR3 HR4 HR5 HR6 HR7 HR8 HR9 HR10 HS0 HR12 HR13 HR14 HR15 HR16 HR17 HR18 HR19 HR20 HR21 Hg]
        · isplitl [HR0 HR1 HR2 HR3 HR4 HR5 HR6 HR7 HR8 HR9 HR10 HS0 HR12 HR13 HR14 HR15 HR16 HR17 HR18 HR19 HR20 HR21]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _)
            isplitl [HR12]; · iexact HR12
            isplitl [HR13]; · iexact HR13
            isplitl [HR14]; · iexact HR14
            isplitl [HR15]; · iexact HR15
            isplitl [HR16]; · iexact HR16
            isplitl [HR17]; · iexact HR17
            isplitl [HR18]; · iexact HR18
            isplitl [HR19]; · iexact HR19
            isplitl [HR20]; · iexact HR20
            iexact HR21
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      ·
        rw [PhiS1_castSucc V c t, PhiS1_pos V c _ _ hz]
        iintro ⟨⟨⟨HR0, HR1, HR2, HR3, HR4, HR5, HR6, HR7, HR8, HR9, HR10, HS0, HR12, HR13, HR14, HR15, HR16, HR17, HR18, HR19, HR20, HR21⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        iintro ⟨H0, H1, H2, H3, H4, H5, H6, H7, H8, ⟨%es0, HS0⟩⟩
        isplitl [HR0 HR1 HR2 HR3 HR4 HR5 HR6 HR7 HR8 HR9 HR10 HS0 HR12 HR13 HR14 HR15 HR16 HR17 HR18 HR19 HR20 HR21 Hg]
        · isplitl [HR0 HR1 HR2 HR3 HR4 HR5 HR6 HR7 HR8 HR9 HR10 HS0 HR12 HR13 HR14 HR15 HR16 HR17 HR18 HR19 HR20 HR21]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _)
            isplitl [HR12]; · iexact HR12
            isplitl [HR13]; · iexact HR13
            isplitl [HR14]; · iexact HR14
            isplitl [HR15]; · iexact HR15
            isplitl [HR16]; · iexact HR16
            isplitl [HR17]; · iexact HR17
            isplitl [HR18]; · iexact HR18
            isplitl [HR19]; · iexact HR19
            isplitl [HR20]; · iexact HR20
            iexact HR21
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8_C t (fun h => h0 ((hcond1_0 t).mp h)) ((hcond1_1 t).mpr h1)], after1_8]
      rw [outsAt1_C V c t h0 h1]
      unfold out1_C_8 sout1_C_0; (try dsimp only)
      by_cases hz : t.val = 0
      · exfalso; omega
      ·
        rw [PhiS1_castSucc V c t, PhiS1_pos V c _ _ hz]
        iintro ⟨⟨⟨HR0, HR1, HR2, HR3, HR4, HR5, HR6, HR7, HR8, HR9, HR10, HS0, HR12, HR13, HR14, HR15, HR16, HR17, HR18, HR19, HR20, HR21⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [HS0]; · iexact HS0
        iintro ⟨H0, H1, H2, H3, H4, H5, H6, H7, ⟨%e8, H8⟩, ⟨%es0, HS0⟩⟩
        isplitl [HR0 HR1 HR2 HR3 HR4 HR5 HR6 HR7 HR8 HR9 HR10 HS0 HR12 HR13 HR14 HR15 HR16 HR17 HR18 HR19 HR20 HR21 Hg]
        · isplitl [HR0 HR1 HR2 HR3 HR4 HR5 HR6 HR7 HR8 HR9 HR10 HS0 HR12 HR13 HR14 HR15 HR16 HR17 HR18 HR19 HR20 HR21]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _)
            isplitl [HR12]; · iexact HR12
            isplitl [HR13]; · iexact HR13
            isplitl [HR14]; · iexact HR14
            isplitl [HR15]; · iexact HR15
            isplitl [HR16]; · iexact HR16
            isplitl [HR17]; · iexact HR17
            isplitl [HR18]; · iexact HR18
            isplitl [HR19]; · iexact HR19
            isplitl [HR20]; · iexact HR20
            iexact HR21
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (cover1_C_8 c _ _ _ _ _ _ _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [Dat.leavesExact_idle (dat1 V c) 8 t (idleAt1_8_B t (fun h => h0 ((hcond1_0 t).mp h)) (fun h => h1 ((hcond1_1 t).mp h))) (noFlush1_8_B t (fun h => h0 ((hcond1_0 t).mp h)) (fun h => h1 ((hcond1_1 t).mp h)))]
      rw [outsAt1_B V c t h0 h1]
      unfold sout1_B_0; (try dsimp only)
      by_cases hz : t.val = 0
      · exfalso; omega
      ·
        rw [PhiS1_castSucc V c t, PhiS1_pos V c _ _ hz]
        iintro ⟨⟨⟨HR0, HR1, HR2, HR3, HR4, HR5, HR6, HR7, HR8, HR9, HR10, HS0, HR12, HR13, HR14, HR15, HR16, HR17, HR18, HR19, HR20, HR21⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HR0 HR1 HR2 HR3 HR4 HR5 HR6 HR7 HR8 HR9 HR10 HS0 HR12 HR13 HR14 HR15 HR16 HR17 HR18 HR19 HR20 HR21 Hg]
        · isplitl [HR0 HR1 HR2 HR3 HR4 HR5 HR6 HR7 HR8 HR9 HR10 HS0 HR12 HR13 HR14 HR15 HR16 HR17 HR18 HR19 HR20 HR21]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _)
            isplitl [HR12]; · iexact HR12
            isplitl [HR13]; · iexact HR13
            isplitl [HR14]; · iexact HR14
            isplitl [HR15]; · iexact HR15
            isplitl [HR16]; · iexact HR16
            isplitl [HR17]; · iexact HR17
            isplitl [HR18]; · iexact HR18
            isplitl [HR19]; · iexact HR19
            isplitl [HR20]; · iexact HR20
            iexact HR21
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the base invariant back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HR8, HR9, HR10, HS0, HR12, HR13, HR14, HR15, HR16, HR17, HR18, HR19, HR20, HR21⟩, Hg⟩
  isplitl [HR0 HR1 HR2 HR3 HR4 HR5 HR6 HR7 HR8 HR9 HR10 HS0 HR12 HR13 HR14 HR15 HR16 HR17 HR18 HR19 HR20 HR21]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HS0]; · iexists _; iexact HS0
    isplitl [HR12]; · iexact HR12
    isplitl [HR13]; · iexact HR13
    isplitl [HR14]; · iexact HR14
    isplitl [HR15]; · iexact HR15
    isplitl [HR16]; · iexact HR16
    isplitl [HR17]; · iexact HR17
    isplitl [HR18]; · iexact HR18
    isplitl [HR19]; · iexact HR19
    isplitl [HR20]; · iexact HR20
    iexact HR21
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Region1

end Cert.Kernel.Hand

end
-- ==== Proof.K.R2Body.lean ====
/- Region 2 (the outer-product kernel): what the body leaves in the output window's staging buffer, as a function of
   the six input blocks, and the body's triple on whole staging memrefs. The body loads each input whole, once, and
   stores the whole output block once; it has no branch and no scratch. -/
import proofs.«151578_j65635690217487_1_alg».proof.Proof.Gen.Kernel.Launch
import proofs.«151578_j65635690217487_1_alg».proof.Proof.Gen.Kernel.Skeleton
import proofs.«151578_j65635690217487_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each memref whole -/

abbrev r2_a : Rect S64x128 := Rect.unit (s := S64x128) ![0, 0] S64x128.size inb_S64x128_S64x128_0_0
abbrev r2_b : Rect S128x128 := Rect.unit (s := S128x128) ![0, 0] S128x128.size inb_S128x128_S128x128_0_0
abbrev r2_c : Rect S128 := Rect.unit (s := S128) ![0] S128.size inb_S128_S128_0
abbrev r2_o : Rect S64x128x128 := Rect.unit (s := S64x128x128) ![0, 0, 0] S64x128x128.size inb_S64x128x128_S64x128x128_0_0_0

/-! ## What the body leaves in the output window's buffer -/

/-- Window 6's staging buffer after the body, from the input windows' blocks: its one store as a piece, the payload
    the skeleton's (the linear layer's bias `x5`, the normalised outer product of `x0` and `x1` under the layer
    norm's weight `x2` and bias `x3` rounded to bf16, the weight `x4` rounded to bf16, a zero accumulator). -/
def out2_6 (x0 : Vec F S64x128 .f32) (x1 : Vec F S128x128 .f32) (x2 : Vec F S128 .f32) (x3 : Vec F S128 .f32) (x4 : Vec F S128x128 .f32) (x5 : Vec F S128 .f32) : Vec F S64x128x128 .f32 :=
  View.canon [⟨r2_o, k2_pay1 (View.ld x5 r2_c) (k2_pay2 (View.ld x0 r2_a) (View.ld x1 r2_b) (View.ld x2 r2_c) (View.ld x3 r2_c)) (k2_pay3 (View.ld x4 r2_b)) (constant S8192x128 .f32 0x00000000#32)⟩]

/-- The one store is the whole block, so it covers it. -/
theorem cover2_6 (p0 : Vec F S64x128x128 .f32) (y : S64x128x128.Idx) :
    ∃ pc ∈ ([⟨r2_o, p0⟩] : List (View.Piece (Elt F) S64x128x128 .f32)), y ∈ pc.1.set :=
  View.cover_of_tiled [⟨r2_o, p0⟩] S64x128x128.size (by rfl) y

/-! ## The body's triple -/

set_option maxHeartbeats 1000000 in
/-- The kernel body on whole staging memrefs, the inputs' at read contents `x0 … x5` and the output's at anything, runs
    to the continuation holding the inputs' as they were and the output's at `out2_6` of the inputs': the printed
    functions are their skeletons, whose memory operations are run one by one. -/
theorem sound_kernel2 (c : Dev nD) (E : Set ℕ) (i : grid2.Coords) (arg2 : Memref sig .tc .vmem S64x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S64x128x128 .f32) (harg8 : arg8.IsWhole)
    (x0 : Vec F S64x128 .f32) (x1 : Vec F S128x128 .f32) (x2 : Vec F S128 .f32) (x3 : Vec F S128 .f32) (x4 : Vec F S128x128 .f32) (x5 : Vec F S128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out2_6 x0 x1 x2 x3 x4 x5)) -∗ K ⟨⟩))
      ⊢ wp frame (wpE (defs₀ (F := F)) Variants.none c none) E (cc2__outer_kernel i arg2 harg2 arg3 harg3 arg4 harg4 arg5 harg5 arg6 harg6 arg7 harg7 arg8 harg8) K := by
  simp only [cc2__outer_kernel_eq_skeleton]; unfold cc2__outer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

end Cert.Kernel.Hand

end
-- ==== Proof.K.Region2.lean ====
/- Region 2 (the outer-product kernel) at a parameter `V` — the TensorCore's buffer contents when the region is
   entered: each window's block at a point, the proof data (after the body each input's buffer at its
   block, the output's at `out2_6` of the input blocks; the invariant the untouched rest), and the body obligation
   at every point. -/
import proofs.«151578_j65635690217487_1_alg».proof.Proof.K.R2Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block
    index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): unfetched, the block
    index has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): unfetched, the block
    index has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s (`hA`) and whose body leaves the block in place (`hafter`): unfetched, the block
    index has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s (`hA`) and whose body leaves the block in place (`hafter`): unfetched, the block
    index has not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s (`hA`) and whose body leaves the block in place (`hafter`): unfetched, the block
    index has not moved; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The pipeline's proof data -/

/-- The proof data of pipeline 2 on core `c`: the arrays as the region finds them (`V`); after the body at point `t`
    each input's buffer at its block and the output's at `out2_6` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's two ends -/

/-- The invariant is the untouched rest at every point: it is what the region is entered with, -/
theorem hin2 (c : Dev nD) : Pipeline.ΦA spec2 c ⊢ (dat2 V c).Φ 0 := by
  rw [show (dat2 V c).Φ 0 = Pipeline.ΦA spec2 c from rfl]

/-- and what it leaves. -/
theorem hout2 (c : Dev nD) : (dat2 V c).Φ (Fin.last cfg2.N) ⊢ Pipeline.ΦA spec2 c := by
  rw [show (dat2 V c).Φ (Fin.last cfg2.N) = Pipeline.ΦA spec2 c from rfl]

end Region

end Cert.Kernel.Hand

end
-- ==== Proof.K.Run.lean ====
/-
  The run of the whole program: the host's five weight transposes, then the three kernel regions, composed in
  order. Between two items every unscoped buffer is held at a known valuation: the launch memory, then the host
  operations applied, then each region's arrays replaced by what its write-backs leave. Each argument array is read
  by the regions through input windows only and written by no host operation, so it ends as launched; the result's
  buffer ends at the third region's output array.
-/
import proofs.«151578_j65635690217487_1_alg».proof.Proof.Gen.Kernel.Launch
import proofs.«151578_j65635690217487_1_alg».proof.Proof.Gen.Kernel.Skeleton
import proofs.«151578_j65635690217487_1_alg».proof.Proof.Gen.Kernel.Points
import proofs.«151578_j65635690217487_1_alg».proof.Proof.Gen.Kernel.Regions
import proofs.«151578_j65635690217487_1_alg».proof.Proof.K.Region0
import proofs.«151578_j65635690217487_1_alg».proof.Proof.K.Region1
import proofs.«151578_j65635690217487_1_alg».proof.Proof.K.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's segments from the launch to the return

## The buffer contents at each segment boundary: a fold through @main -/

/-- Core `c`'s buffers at launch. -/
abbrev W0 : Dev nD → Valuation τ sig (Elt F) := fun c b => (s₀ m ρ).mem ((c : Dev nD), b)
/-- After the host operations before the first region (the five weight transposes). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b

/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- An input window's array leaves region 0 as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-- At region 1's exit: its arrays at what the pipeline leaves (the inputs as entered, the output's write-backs
    folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- An input window's array leaves region 1 as it entered. -/
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))

/-- At region 2's exit: its arrays at what the pipeline leaves (the inputs as entered, the output's write-backs
    folded), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)
/-- An input window's array leaves region 2 as it entered. -/
theorem W4_in (c : Dev nD) (w : Fin cfg2.W) (hw : (cfg2.win w).isOut = false) :
    W4 m ρ c (Proc.devRef .tc (Pipeline.arrRef spec2 w)) = W3 m ρ c (Proc.devRef .tc (Pipeline.arrRef spec2 w)) :=
  (W4_arr m ρ c w).trans (((dat2 (V3 m ρ) c).arrAt_in w hw _).trans (A_eq2 (V3 m ρ) c w))

/-! ### The arguments end as launched: no host operation and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_in m ρ c 0 rfl
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_in m ρ c 0 rfl
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_in m ρ c 1 rfl
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_in m ρ c 4 rfl
    _ = W0 m ρ c (Proc.devRef .tc main_arg4) := StableHlo.after_of_writes_sub hostOps0 _ hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_in m ρ c 5 rfl
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := W2_in m ρ c 6 rfl
    _ = W0 m ρ c (Proc.devRef .tc main_arg8) := StableHlo.after_of_writes_sub hostOps0 _ hostOps0_writes (by decide)
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := W3_in m ρ c 7 rfl
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_in m ρ c 5 rfl
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := W3_of_ne m ρ c main_arg13 (by decide)
    _ = W1 m ρ c (Proc.devRef .tc main_arg13) := W2_in m ρ c 1 rfl
    _ = W0 m ρ c (Proc.devRef .tc main_arg13) := StableHlo.after_of_writes_sub hostOps0 _ hostOps0_writes (by decide)
    _ = m ((c : Thread nD τ).loc main_arg13) := rfl

theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := W3_of_ne m ρ c main_arg14 (by decide)
    _ = W1 m ρ c (Proc.devRef .tc main_arg14) := W2_in m ρ c 2 rfl
    _ = W0 m ρ c (Proc.devRef .tc main_arg14) := StableHlo.after_of_writes_sub hostOps0 _ hostOps0_writes (by decide)
    _ = m ((c : Thread nD τ).loc main_arg14) := rfl

theorem W4_main_arg15 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := W3_in m ρ c 2 rfl
    _ = W1 m ρ c (Proc.devRef .tc main_arg15) := W2_of_ne m ρ c main_arg15 (by decide)
    _ = W0 m ρ c (Proc.devRef .tc main_arg15) := StableHlo.after_of_writes_sub hostOps0 _ hostOps0_writes (by decide)
    _ = m ((c : Thread nD τ).loc main_arg15) := rfl

theorem W4_main_arg16 (c : Dev nD) : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = W2 m ρ c (Proc.devRef .tc main_arg16) := W3_in m ρ c 3 rfl
    _ = W1 m ρ c (Proc.devRef .tc main_arg16) := W2_of_ne m ρ c main_arg16 (by decide)
    _ = W0 m ρ c (Proc.devRef .tc main_arg16) := StableHlo.after_of_writes_sub hostOps0 _ hostOps0_writes (by decide)
    _ = m ((c : Thread nD τ).loc main_arg16) := rfl

theorem W4_main_arg17 (c : Dev nD) : W4 m ρ c (Proc.devRef .tc main_arg17) = m ((c : Thread nD τ).loc main_arg17) :=
  calc W4 m ρ c (Proc.devRef .tc main_arg17)
    _ = W3 m ρ c (Proc.devRef .tc main_arg17) := W4_in m ρ c 2 rfl
    _ = W2 m ρ c (Proc.devRef .tc main_arg17) := W3_of_ne m ρ c main_arg17 (by decide)
    _ = W1 m ρ c (Proc.devRef .tc main_arg17) := W2_of_ne m ρ c main_arg17 (by decide)
    _ = W0 m ρ c (Proc.devRef .tc main_arg17) := StableHlo.after_of_writes_sub hostOps0 _ hostOps0_writes (by decide)
    _ = m ((c : Thread nD τ).loc main_arg17) := rfl

theorem W4_main_arg18 (c : Dev nD) : W4 m ρ c (Proc.devRef .tc main_arg18) = m ((c : Thread nD τ).loc main_arg18) :=
  calc W4 m ρ c (Proc.devRef .tc main_arg18)
    _ = W3 m ρ c (Proc.devRef .tc main_arg18) := W4_in m ρ c 3 rfl
    _ = W2 m ρ c (Proc.devRef .tc main_arg18) := W3_of_ne m ρ c main_arg18 (by decide)
    _ = W1 m ρ c (Proc.devRef .tc main_arg18) := W2_of_ne m ρ c main_arg18 (by decide)
    _ = W0 m ρ c (Proc.devRef .tc main_arg18) := StableHlo.after_of_writes_sub hostOps0 _ hostOps0_writes (by decide)
    _ = m ((c : Thread nD τ).loc main_arg18) := rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 over the thread state "every unscoped buffer at the boundary's contents, the generator register at some
    state, nothing owed": entered at `W1`, left at `W2`. Its arrays are split out of the unscoped buffers and
    put back at the exit contents; the generator register goes into the region's invariant and comes back; nothing is
    owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hh : Pipeline.ΦA spec0 c ⊢ (pdats m ρ 0 c).Φ 0 := hin0 (V1 m ρ) c
    iintro ⟨Hp, -, Hr⟩
    iapply hh
    unfold Pipeline.ΦA
    isplitl [Hr]; · iexact Hr
    iexact Hp
  hout c := by
    rw [Pipeline.ownSems0_none]
    have hh : (pdats m ρ 0 c).Φ (Fin.last _) ⊢ Pipeline.ΦA spec0 c := hout0 (V1 m ρ) c
    iintro H
    ihave H' := hh $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state "every unscoped buffer at the boundary's contents, the generator register at some
    state, nothing owed": entered at `W2`, left at `W3`. Its arrays are split out of the unscoped buffers and
    put back at the exit contents; the generator register goes into the region's invariant and comes back; nothing is
    owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hh : Pipeline.ΦA spec1 c ⊢ (pdats m ρ 1 c).Φ 0 := hin1 (V2 m ρ) c
    iintro ⟨Hp, -, Hr⟩
    iapply hh
    unfold Pipeline.ΦA
    isplitl [Hr]; · iexact Hr
    iexact Hp
  hout c := by
    rw [Pipeline.ownSems0_none]
    have hh : (pdats m ρ 1 c).Φ (Fin.last _) ⊢ Pipeline.ΦA spec1 c := hout1 (V2 m ρ) c
    iintro H
    ihave H' := hh $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state "every unscoped buffer at the boundary's contents, the generator register at some
    state, nothing owed": entered at `W3`, left at `W4`. Its arrays are split out of the unscoped buffers and
    put back at the exit contents; the generator register goes into the region's invariant and comes back; nothing is
    owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hh : Pipeline.ΦA spec2 c ⊢ (pdats m ρ 2 c).Φ 0 := hin2 (V3 m ρ) c
    iintro ⟨Hp, -, Hr⟩
    iapply hh
    unfold Pipeline.ΦA
    isplitl [Hr]; · iexact Hr
    iexact Hp
  hout c := by
    rw [Pipeline.ownSems0_none]
    have hh : (pdats m ρ 2 c).Φ (Fin.last _) ⊢ Pipeline.ΦA spec2 c := hout2 (V3 m ρ) c
    iintro H
    ihave H' := hh $$ H
    unfold Pipeline.ΦA
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's items as segments: the host stretch, then the three regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
/-- @main IS the run of the segments. -/
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    every final state has every unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c),
    (h c _ (mem_uc main_arg14 (by decide))).trans (W4_main_arg14 m ρ c),
    (h c _ (mem_uc main_arg15 (by decide))).trans (W4_main_arg15 m ρ c),
    (h c _ (mem_uc main_arg16 (by decide))).trans (W4_main_arg16 m ρ c),
    (h c _ (mem_uc main_arg17 (by decide))).trans (W4_main_arg17 m ρ c),
    (h c _ (mem_uc main_arg18 (by decide))).trans (W4_main_arg18 m ρ c)⟩) (run_all m ρ)

/-- The run with the result's buffer named: it ends at region 2's output array as the pipeline leaves it. -/
theorem run_value : θ_run defs (onTc (τ := τ) (main (F := F))) ⟨m, fun _ => 0, ρ⟩ (fun r => ∀ c : Dev nD,
      r.2.mem ((c.tc : Thread nD τ).loc main_v7) = (dat2 (V3 m ρ) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c _ (mem_uc main_v7 (by decide))).trans (W4_arr m ρ c 6),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c),
    (h c _ (mem_uc main_arg14 (by decide))).trans (W4_main_arg14 m ρ c),
    (h c _ (mem_uc main_arg15 (by decide))).trans (W4_main_arg15 m ρ c),
    (h c _ (mem_uc main_arg16 (by decide))).trans (W4_main_arg16 m ρ c),
    (h c _ (mem_uc main_arg17 (by decide))).trans (W4_main_arg17 m ρ c),
    (h c _ (mem_uc main_arg18 (by decide))).trans (W4_main_arg18 m ρ c)⟩) (run_all m ρ)

end Cert.Kernel.Hand

end
-- ==== Proof.KI.R0Defs.lean ====
import proofs.«151578_j65635690217487_1_alg».proof.Proof.Gen.KernelIdeal.Launch
import proofs.«151578_j65635690217487_1_alg».proof.Proof.Gen.KernelIdeal.Skeleton
import proofs.«151578_j65635690217487_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the reduction of `p` over its second axis), shared definitions

The region is entered with the TensorCore's buffers at contents `V`. Its grid is 8 × 4; the point
`t = 4 i + j` adds the block's partial sums into a scratch accumulator that is reset at `j = 0` and
copied into the output window at `j = 3`. -/

variable (V : (c : Dev nD) → (b : Ref sig .tc) → Buf (Elt F) ((c : Thread nD τ).loc b))

/-! ## The windows' blocks -/

/-- Window `w`'s block at point `t`, read off its array at the region's entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is
    not fetched the block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is
    not fetched the block index has not moved since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is
    not fetched the block index has not moved since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: where it is
    not fetched the block index has not moved since the last fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: where it is
    not fetched the block index has not moved since the last fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not: where it is
    not fetched the block index has not moved since the last fetch. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not: where it is
    not fetched the block index has not moved since the last fetch. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, in closed form -/

/-- The first conditional's condition (`j = 0`), from the grid coordinates. -/
abbrev cond0_0 (i : grid0.Coords) : Prop := (Scalar.cmpi .ne (Scalar.extui (Scalar.cmpi .eq (BitVec.ofNat 32 (i 1).val) 0#32)) 0#32) = 1#1
/-- It holds exactly at the points `t ≡ 0 (mod 4)`. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's condition (`j = 3`), from the grid coordinates. -/
abbrev cond0_1 (i : grid0.Coords) : Prop := k0_cond2 i = 1#1
/-- It holds exactly at the points `t ≡ 3 (mod 4)`. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/
/-- Input window 0 is never idle. -/
theorem liveAt0_0 : ∀ t : Fin cfg0.N, cfg0.idle 0 (grid0.coords t) = false := by decide +kernel
/-- Input window 1 is never idle. -/
theorem liveAt0_1 : ∀ t : Fin cfg0.N, cfg0.idle 1 (grid0.coords t) = false := by decide +kernel
/-- Input window 2 is never idle. -/
theorem liveAt0_2 : ∀ t : Fin cfg0.N, cfg0.idle 2 (grid0.coords t) = false := by decide +kernel
/-- Input window 3 is never idle. -/
theorem liveAt0_3 : ∀ t : Fin cfg0.N, cfg0.idle 3 (grid0.coords t) = false := by decide +kernel
/-- Input window 4 is never idle. -/
theorem liveAt0_4 : ∀ t : Fin cfg0.N, cfg0.idle 4 (grid0.coords t) = false := by decide +kernel
/-- Input window 5 is never idle. -/
theorem liveAt0_5 : ∀ t : Fin cfg0.N, cfg0.idle 5 (grid0.coords t) = false := by decide +kernel
/-- Input window 6 is never idle. -/
theorem liveAt0_6 : ∀ t : Fin cfg0.N, cfg0.idle 6 (grid0.coords t) = false := by decide +kernel
/-- Where `j = 0` (and `j ≠ 3`) the output window is idle: nothing is stored into it. -/
theorem idleAt0_7_A : ∀ t : Fin cfg0.N, cond0_0 (grid0.coords t) → ¬cond0_1 (grid0.coords t) → cfg0.idle 7 (grid0.coords t) = true := by decide +kernel
/-- There the output's block is not written back. -/
theorem noFlush0_7_A : ∀ t : Fin cfg0.N, cond0_0 (grid0.coords t) → ¬cond0_1 (grid0.coords t) → (cfg0.win 7).flush t = false := by decide +kernel
/-- Where `j ≠ 0` and `j ≠ 3` the output window is idle. -/
theorem idleAt0_7_B : ∀ t : Fin cfg0.N, ¬cond0_0 (grid0.coords t) → ¬cond0_1 (grid0.coords t) → cfg0.idle 7 (grid0.coords t) = true := by decide +kernel
/-- There the output's block is not written back. -/
theorem noFlush0_7_B : ∀ t : Fin cfg0.N, ¬cond0_0 (grid0.coords t) → ¬cond0_1 (grid0.coords t) → (cfg0.win 7).flush t = false := by decide +kernel
/-- Where `j = 3` the output window is live: the accumulator is copied into it. -/
theorem liveAt0_7_C : ∀ t : Fin cfg0.N, ¬cond0_0 (grid0.coords t) → cond0_1 (grid0.coords t) → cfg0.idle 7 (grid0.coords t) = false := by decide +kernel

/-! ## The staging and scratch memrefs -/

/-- One staging buffer of the output window, through which its contents are stated (a covering list of pieces reads
    back the same through any whole view). -/
abbrev VO0_7 : View sig .tc .vmem S64x128 .f32 := (Memref.whole cc0_stg7_0 : Memref sig .tc .vmem S64x128 .f32).view
abbrev ms0_0 (t : Fin cfg0.N) : Memref sig .tc .vmem S64x128x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x128 .f32 := win0_7.stage (cfg0.slots t 7)
abbrev hs0_7 (t : Fin cfg0.N) : (ms0_7 t).IsWhole := hstage0_7 ((cfg0.slots t 7).cast nbuf0_7)
/-- The scratch accumulator: a whole scoped buffer of the kernel's own, passed beside the windows. -/
abbrev scM0_0 : Memref sig .tc .vmem S64x128 .f32 := Memref.whole cc0_scratch0
/-- The accumulator as a view: what it holds is stated through it. -/
abbrev VS0_0 : View sig .tc .vmem S64x128 .f32 := scM0_0.view

/-- The core's scoped buffers that are no staging buffer of this region, split at the accumulator: it at some
    contents, and every other one (the other regions' staging buffers and scratch) unopened. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The rest of the region's invariant beside the accumulator: the other scoped buffers, unopened. -/
abbrev rest0 (c : Dev nD) : sProp 𝕄 :=
  Pipeline.scopedRestBut (Ix := Unit) (Name := ℕ) (U := UR sig nD τ) (Lvl := ℕ) (Val := Elt F) spec0 c [cc0_scratch0]

/-- The invariant the launch hands the region, with the accumulator as a memref owned at some contents. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA; rw [scopedRest0_split]; simp only [scM0_0, owns_whole]; try rfl

end Cert.KernelIdeal.Hand

end
-- ==== Proof.KI.R0RunA.lean ====
import proofs.«151578_j65635690217487_1_alg».proof.Proof.KI.R0Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's run where `j = 0`: the accumulator is reset (whatever it held) and this block's partial sums are added; nothing is stored into the output window, which is handed back as found.
    On whole memrefs — the inputs' at their contents — the body runs to a continuation holding the inputs as they were
    and each buffer it stored into with its pieces written; the lists of pieces are the witness the run finds. -/
noncomputable def kernelRun0_A (c : Dev nD) (i : grid0.Coords) (arg2 : Memref sig .tc .vmem S64x128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S64x128 .f32) (harg9 : arg9.IsWhole) (arg10 : Memref sig .tc .vmem S64x128 .f32) (harg10 : arg10.IsWhole) (hc0 : cond0_0 i) (hc1 : ¬cond0_1 i)
    (x0 : Vec F S64x128x128 .f32) (x1 : Vec F S128 .f32) (x2 : Vec F S128 .f32) (x3 : Vec F S128x128 .f32) (x4 : Vec F S128 .f32) (x5 : Vec F S128x128 .f32) (x6 : Vec F S128 .f32) :
    Σ' (L7 : List (View.Piece (Elt F) S64x128 .f32)), { LS0 : List (View.Piece (Elt F) S64x128 .f32) //
      ∀ (xi7 : Vec F S64x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__reduce_p_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__reduce_p_kernel_eq_skeleton]; unfold cc0__reduce_p_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.KernelIdeal.Hand

end
-- ==== Proof.KI.R0RunB.lean ====
import proofs.«151578_j65635690217487_1_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's run where `j ≠ 0` and `j ≠ 3`: this block's partial sums are added to the accumulator left by the point before; nothing is stored into the output window, which is handed back as found.
    On whole memrefs — the inputs' at their contents — the body runs to a continuation holding the inputs as they were
    and each buffer it stored into with its pieces written; the lists of pieces are the witness the run finds. -/
noncomputable def kernelRun0_B (c : Dev nD) (i : grid0.Coords) (arg2 : Memref sig .tc .vmem S64x128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S64x128 .f32) (harg9 : arg9.IsWhole) (arg10 : Memref sig .tc .vmem S64x128 .f32) (harg10 : arg10.IsWhole) (hc0 : ¬cond0_0 i) (hc1 : ¬cond0_1 i)
    (x0 : Vec F S64x128x128 .f32) (x1 : Vec F S128 .f32) (x2 : Vec F S128 .f32) (x3 : Vec F S128x128 .f32) (x4 : Vec F S128 .f32) (x5 : Vec F S128x128 .f32) (x6 : Vec F S128 .f32) (xs0 : Vec F S64x128 .f32) :
    Σ' (L7 : List (View.Piece (Elt F) S64x128 .f32)), { LS0 : List (View.Piece (Elt F) S64x128 .f32) //
      ∀ (xi7 : Vec F S64x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__reduce_p_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__reduce_p_kernel_eq_skeleton]; unfold cc0__reduce_p_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

end Cert.KernelIdeal.Hand

end
-- ==== Proof.KI.R0RunC.lean ====
import proofs.«151578_j65635690217487_1_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's run where `j = 3`: this block's partial sums are added to the accumulator left by the point before, and the accumulator is copied into the output window.
    On whole memrefs — the inputs' at their contents — the body runs to a continuation holding the inputs as they were
    and each buffer it stored into with its pieces written; the lists of pieces are the witness the run finds. -/
noncomputable def kernelRun0_C (c : Dev nD) (i : grid0.Coords) (arg2 : Memref sig .tc .vmem S64x128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S64x128 .f32) (harg9 : arg9.IsWhole) (arg10 : Memref sig .tc .vmem S64x128 .f32) (harg10 : arg10.IsWhole) (hc0 : ¬cond0_0 i) (hc1 : cond0_1 i)
    (x0 : Vec F S64x128x128 .f32) (x1 : Vec F S128 .f32) (x2 : Vec F S128 .f32) (x3 : Vec F S128x128 .f32) (x4 : Vec F S128 .f32) (x5 : Vec F S128x128 .f32) (x6 : Vec F S128 .f32) (xs0 : Vec F S64x128 .f32) :
    Σ' (L7 : List (View.Piece (Elt F) S64x128 .f32)), { LS0 : List (View.Piece (Elt F) S64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__reduce_p_kernel i arg2 harg2 arg3 harg3 arg4 harg4 arg5 harg5 arg6 harg6 arg7 harg7 arg8 harg8 arg9 harg9 arg10 harg10) K } := by
  refine ⟨?_, ?_, fun E K => ?run⟩
  case run =>
    simp only [cc0__reduce_p_kernel_eq_skeleton]; unfold cc0__reduce_p_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS0

end Cert.KernelIdeal.Hand

end
-- ==== Proof.KI.Region0.lean ====
import proofs.«151578_j65635690217487_1_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the reduction of `p` over its second axis): the proof data and the body obligation

What the output window's staging buffer and the scratch accumulator hold after each point, by recursion on
the point; the invariant that tracks the accumulator between points; the body obligation by cases on the two branch
conditions. -/

variable (V : (c : Dev nD) → (b : Ref sig .tc) → Buf (Elt F) ((c : Thread nD τ).loc b))

/-! ## What each case leaves -/

/-- Case A stores nothing into the output window: no pieces (a placeholder nothing consults, the window being neither
    written back nor read at the next point). -/
def out0_A_7 (c : Dev nD) (i : grid0.Coords) (arg2 : Memref sig .tc .vmem S64x128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S64x128 .f32) (harg9 : arg9.IsWhole) (arg10 : Memref sig .tc .vmem S64x128 .f32) (harg10 : arg10.IsWhole) (hc0 : cond0_0 i) (hc1 : ¬cond0_1 i)
    (x0 : Vec F S64x128x128 .f32) (x1 : Vec F S128 .f32) (x2 : Vec F S128 .f32) (x3 : Vec F S128x128 .f32) (x4 : Vec F S128 .f32) (x5 : Vec F S128x128 .f32) (x6 : Vec F S128 .f32) : Vec F S64x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 hc1 x0 x1 x2 x3 x4 x5 x6).1)

/-- Case A's stores into the accumulator cover it. -/
theorem scover0_A_0 (c : Dev nD) (i : grid0.Coords) (arg2 : Memref sig .tc .vmem S64x128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S64x128 .f32) (harg9 : arg9.IsWhole) (arg10 : Memref sig .tc .vmem S64x128 .f32) (harg10 : arg10.IsWhole) (hc0 : cond0_0 i) (hc1 : ¬cond0_1 i)
    (x0 : Vec F S64x128x128 .f32) (x1 : Vec F S128 .f32) (x2 : Vec F S128 .f32) (x3 : Vec F S128x128 .f32) (x4 : Vec F S128 .f32) (x5 : Vec F S128x128 .f32) (x6 : Vec F S128 .f32) (y : S64x128.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5 x6).2.1 S64x128.size (by sl_kernel_rfl) y

/-- What case A leaves in the accumulator: its pieces read back. -/
def sout0_A_0 (c : Dev nD) (i : grid0.Coords) (arg2 : Memref sig .tc .vmem S64x128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S64x128 .f32) (harg9 : arg9.IsWhole) (arg10 : Memref sig .tc .vmem S64x128 .f32) (harg10 : arg10.IsWhole) (hc0 : cond0_0 i) (hc1 : ¬cond0_1 i)
    (x0 : Vec F S64x128x128 .f32) (x1 : Vec F S128 .f32) (x2 : Vec F S128 .f32) (x3 : Vec F S128x128 .f32) (x4 : Vec F S128 .f32) (x5 : Vec F S128x128 .f32) (x6 : Vec F S128 .f32) : Vec F S64x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5 x6).2.1)

/-- Case B stores nothing into the output window: no pieces (a placeholder nothing consults, the window being neither
    written back nor read at the next point). -/
def out0_B_7 (c : Dev nD) (i : grid0.Coords) (arg2 : Memref sig .tc .vmem S64x128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S64x128 .f32) (harg9 : arg9.IsWhole) (arg10 : Memref sig .tc .vmem S64x128 .f32) (harg10 : arg10.IsWhole) (hc0 : ¬cond0_0 i) (hc1 : ¬cond0_1 i)
    (x0 : Vec F S64x128x128 .f32) (x1 : Vec F S128 .f32) (x2 : Vec F S128 .f32) (x3 : Vec F S128x128 .f32) (x4 : Vec F S128 .f32) (x5 : Vec F S128x128 .f32) (x6 : Vec F S128 .f32) (xs0 : Vec F S64x128 .f32) : Vec F S64x128 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 hc1 x0 x1 x2 x3 x4 x5 x6 xs0).1)

/-- Case B's stores into the accumulator cover it. -/
theorem scover0_B_0 (c : Dev nD) (i : grid0.Coords) (arg2 : Memref sig .tc .vmem S64x128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S64x128 .f32) (harg9 : arg9.IsWhole) (arg10 : Memref sig .tc .vmem S64x128 .f32) (harg10 : arg10.IsWhole) (hc0 : ¬cond0_0 i) (hc1 : ¬cond0_1 i)
    (x0 : Vec F S64x128x128 .f32) (x1 : Vec F S128 .f32) (x2 : Vec F S128 .f32) (x3 : Vec F S128x128 .f32) (x4 : Vec F S128 .f32) (x5 : Vec F S128x128 .f32) (x6 : Vec F S128 .f32) (xs0 : Vec F S64x128 .f32) (y : S64x128.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 x6 xs0).2.1 S64x128.size (by sl_kernel_rfl) y

/-- What case B leaves in the accumulator: its pieces read back. -/
def sout0_B_0 (c : Dev nD) (i : grid0.Coords) (arg2 : Memref sig .tc .vmem S64x128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S64x128 .f32) (harg9 : arg9.IsWhole) (arg10 : Memref sig .tc .vmem S64x128 .f32) (harg10 : arg10.IsWhole) (hc0 : ¬cond0_0 i) (hc1 : ¬cond0_1 i)
    (x0 : Vec F S64x128x128 .f32) (x1 : Vec F S128 .f32) (x2 : Vec F S128 .f32) (x3 : Vec F S128x128 .f32) (x4 : Vec F S128 .f32) (x5 : Vec F S128x128 .f32) (x6 : Vec F S128 .f32) (xs0 : Vec F S64x128 .f32) : Vec F S64x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 x5 x6 xs0).2.1)

/-- Case C's one store into the output window covers its block. -/
theorem cover0_C_7 (c : Dev nD) (i : grid0.Coords) (arg2 : Memref sig .tc .vmem S64x128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S64x128 .f32) (harg9 : arg9.IsWhole) (arg10 : Memref sig .tc .vmem S64x128 .f32) (harg10 : arg10.IsWhole) (hc0 : ¬cond0_0 i) (hc1 : cond0_1 i)
    (x0 : Vec F S64x128x128 .f32) (x1 : Vec F S128 .f32) (x2 : Vec F S128 .f32) (x3 : Vec F S128x128 .f32) (x4 : Vec F S128 .f32) (x5 : Vec F S128x128 .f32) (x6 : Vec F S128 .f32) (xs0 : Vec F S64x128 .f32) (y : S64x128.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).1 S64x128.size (by sl_kernel_rfl) y

/-- What case C leaves in the output window's staging buffer: its pieces read back. -/
def out0_C_7 (c : Dev nD) (i : grid0.Coords) (arg2 : Memref sig .tc .vmem S64x128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S64x128 .f32) (harg9 : arg9.IsWhole) (arg10 : Memref sig .tc .vmem S64x128 .f32) (harg10 : arg10.IsWhole) (hc0 : ¬cond0_0 i) (hc1 : cond0_1 i)
    (x0 : Vec F S64x128x128 .f32) (x1 : Vec F S128 .f32) (x2 : Vec F S128 .f32) (x3 : Vec F S128x128 .f32) (x4 : Vec F S128 .f32) (x5 : Vec F S128x128 .f32) (x6 : Vec F S128 .f32) (xs0 : Vec F S64x128 .f32) : Vec F S64x128 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 x4 x5 x6 xs0).1)

/-- Case C's stores into the accumulator cover it. -/
theorem scover0_C_0 (c : Dev nD) (i : grid0.Coords) (arg2 : Memref sig .tc .vmem S64x128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S64x128 .f32) (harg9 : arg9.IsWhole) (arg10 : Memref sig .tc .vmem S64x128 .f32) (harg10 : arg10.IsWhole) (hc0 : ¬cond0_0 i) (hc1 : cond0_1 i)
    (x0 : Vec F S64x128x128 .f32) (x1 : Vec F S128 .f32) (x2 : Vec F S128 .f32) (x3 : Vec F S128x128 .f32) (x4 : Vec F S128 .f32) (x5 : Vec F S128x128 .f32) (x6 : Vec F S128 .f32) (xs0 : Vec F S64x128 .f32) (y : S64x128.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs0).2.1 S64x128.size (by sl_kernel_rfl) y

/-- What case C leaves in the accumulator: its pieces read back. -/
def sout0_C_0 (c : Dev nD) (i : grid0.Coords) (arg2 : Memref sig .tc .vmem S64x128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S64x128 .f32) (harg9 : arg9.IsWhole) (arg10 : Memref sig .tc .vmem S64x128 .f32) (harg10 : arg10.IsWhole) (hc0 : ¬cond0_0 i) (hc1 : cond0_1 i)
    (x0 : Vec F S64x128x128 .f32) (x1 : Vec F S128 .f32) (x2 : Vec F S128 .f32) (x3 : Vec F S128x128 .f32) (x4 : Vec F S128 .f32) (x5 : Vec F S128x128 .f32) (x6 : Vec F S128 .f32) (xs0 : Vec F S64x128 .f32) : Vec F S64x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 x5 x6 xs0).2.1)

/-! ## What the output window and the accumulator hold after each point -/

/-- The accumulation. What the output window's staging buffer (first) and the accumulator (second) hold after the body
    at position `n`: the case the closed forms select at `n`, run at the point's memrefs and input blocks, the
    accumulator read at what the point before left. -/
def outsAt0 (c : Dev nD) : (n : ℕ) → n < cfg0.N → Vec F S64x128 .f32 × Vec F S64x128 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h0 : (n + 1) % 4 = 0 then
      if h1 : (n + 1) % 4 = 3 then
        False.elim (by omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩))
    else
      if h1 : (n + 1) % 4 = 3 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2)
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2)

/-- `outsAt0` at a point of case A: that case's contents. -/
theorem outsAt0_A (c : Dev nD) (t : Fin cfg0.N) (h0 : t.val % 4 = 0) (h1 : ¬t.val % 4 = 3) :
    outsAt0 V c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 4 = 0) (h1 : ¬t.val % 4 = 3) :
    outsAt0 V c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 4 = 0) (h1 : t.val % 4 = 3) :
    outsAt0 V c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that tracks the accumulator -/

/-- The region's invariant before position `n`: before the first point what the launch hands over (every scoped
    buffer that is no staging buffer at some contents, the generator register at some state); afterwards the same with
    the accumulator at what the point before left in it. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The pipeline's proof data -/

/-- The proof data of the region's pipeline on core `c`: the arrays as the region finds them; after the body at point
    `t` each input's buffer at its block and the output's at `outsAt0`; the tracking invariant; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- An input's buffer is handed back at its block. -/
theorem leaves0_0 (c : Dev nD) (t : Fin cfg0.N) :
    (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (c : Dev nD) (t : Fin cfg0.N) :
    (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
theorem leaves0_2 (c : Dev nD) (t : Fin cfg0.N) :
    (dat0 V c).leavesExact 2 t = owns (c : Thread nD τ) (ms0_2 t) fullShare (iblk0 V c 2 t) := by
  rw [show (dat0 V c).leavesExact 2 t = owns (c : Thread nD τ) (ms0_2 t) fullShare ((dat0 V c).after 2 t) from by
    unfold Dat.leavesExact; rw [liveAt0_2 t], after0_2]
theorem leaves0_3 (c : Dev nD) (t : Fin cfg0.N) :
    (dat0 V c).leavesExact 3 t = owns (c : Thread nD τ) (ms0_3 t) fullShare (iblk0 V c 3 t) := by
  rw [show (dat0 V c).leavesExact 3 t = owns (c : Thread nD τ) (ms0_3 t) fullShare ((dat0 V c).after 3 t) from by
    unfold Dat.leavesExact; rw [liveAt0_3 t], after0_3]
theorem leaves0_4 (c : Dev nD) (t : Fin cfg0.N) :
    (dat0 V c).leavesExact 4 t = owns (c : Thread nD τ) (ms0_4 t) fullShare (iblk0 V c 4 t) := by
  rw [show (dat0 V c).leavesExact 4 t = owns (c : Thread nD τ) (ms0_4 t) fullShare ((dat0 V c).after 4 t) from by
    unfold Dat.leavesExact; rw [liveAt0_4 t], after0_4]
theorem leaves0_5 (c : Dev nD) (t : Fin cfg0.N) :
    (dat0 V c).leavesExact 5 t = owns (c : Thread nD τ) (ms0_5 t) fullShare (iblk0 V c 5 t) := by
  rw [show (dat0 V c).leavesExact 5 t = owns (c : Thread nD τ) (ms0_5 t) fullShare ((dat0 V c).after 5 t) from by
    unfold Dat.leavesExact; rw [liveAt0_5 t], after0_5]
theorem leaves0_6 (c : Dev nD) (t : Fin cfg0.N) :
    (dat0 V c).leavesExact 6 t = owns (c : Thread nD τ) (ms0_6 t) fullShare (iblk0 V c 6 t) := by
  rw [show (dat0 V c).leavesExact 6 t = owns (c : Thread nD τ) (ms0_6 t) fullShare ((dat0 V c).after 6 t) from by
    unfold Dat.leavesExact; rw [liveAt0_6 t], after0_6]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 1000000 in
/-- The body at any point: the inputs' memrefs hold their blocks; the closed forms say which case the point is in; the
    invariant hands the body the accumulator at what the point before left (at anything at the first point) and takes it
    back at this point's contents; the other scoped buffers, the generator register and the core's debts pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 4 = 0
  · by_cases h1 : t.val % 4 = 3
    · exfalso; omega
    · rw [leaves0_0, leaves0_1, leaves0_2, leaves0_3, leaves0_4, leaves0_5, leaves0_6]
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        iintro ⟨H0, H1, H2, H3, H4, H5, H6, H7, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · by_cases h1 : t.val % 4 = 3
    · rw [leaves0_0, leaves0_1, leaves0_2, leaves0_3, leaves0_4, leaves0_5, leaves0_6]
      rw [show (dat0 V c).leavesExact 7 t = owns (c : Thread nD τ) (ms0_7 t) fullShare ((dat0 V c).after 7 t) from by
        unfold Dat.leavesExact; rw [liveAt0_7_C t (fun h => h0 ((hcond0_0 t).mp h)) ((hcond0_1 t).mpr h1)], after0_7]
      rw [outsAt0_C V c t h0 h1]
      unfold out0_C_7 sout0_C_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        iintro ⟨H0, H1, H2, H3, H4, H5, H6, ⟨%e7, H7⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _)
    · rw [leaves0_0, leaves0_1, leaves0_2, leaves0_3, leaves0_4, leaves0_5, leaves0_6]
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.KernelIdeal.Hand

end
-- ==== Proof.KI.R1Defs.lean ====
import proofs.«151578_j65635690217487_1_alg».proof.Proof.Gen.KernelIdeal.Launch
import proofs.«151578_j65635690217487_1_alg».proof.Proof.Gen.KernelIdeal.Skeleton
import proofs.«151578_j65635690217487_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the masked reduction over z): what its case runs share -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is
    not fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is
    not fetched its block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is
    not fetched its block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is
    not fetched its block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where it is
    not fetched its block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: where it is
    not fetched its block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not: where it is
    not fetched its block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not: where it is
    not fetched its block index has not moved. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two branch conditions -/

/-- The condition of the first conditional (the accumulator is reset): the second grid coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the second conditional (the accumulator is copied out): the second grid coordinate is 3. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
/-- In case A (reset, no copy) output 8 is idle and not written back. -/
theorem idleAt1_8_A : ∀ t : Fin cfg1.N, cond1_0 (grid1.coords t) → ¬cond1_1 (grid1.coords t) → cfg1.idle 8 (grid1.coords t) = true := by decide +kernel
theorem noFlush1_8_A : ∀ t : Fin cfg1.N, cond1_0 (grid1.coords t) → ¬cond1_1 (grid1.coords t) → (cfg1.win 8).flush t = false := by decide +kernel
/-- In case B (neither) output 8 is idle and not written back. -/
theorem idleAt1_8_B : ∀ t : Fin cfg1.N, ¬cond1_0 (grid1.coords t) → ¬cond1_1 (grid1.coords t) → cfg1.idle 8 (grid1.coords t) = true := by decide +kernel
theorem noFlush1_8_B : ∀ t : Fin cfg1.N, ¬cond1_0 (grid1.coords t) → ¬cond1_1 (grid1.coords t) → (cfg1.win 8).flush t = false := by decide +kernel
/-- In case C (copy, no reset) output 8 is live. -/
theorem liveAt1_8_C : ∀ t : Fin cfg1.N, ¬cond1_0 (grid1.coords t) → cond1_1 (grid1.coords t) → cfg1.idle 8 (grid1.coords t) = false := by decide +kernel

/-! ## The memrefs the body is called with -/

/-- One staging buffer of output window 8, through which its contents are stated. -/
abbrev VO1_8 : View sig .tc .vmem S64x128 .f32 := (Memref.whole cc1_stg8_0 : Memref sig .tc .vmem S64x128 .f32).view
abbrev ms1_0 (t : Fin cfg1.N) : Memref sig .tc .vmem S64x128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S64x128 .f32 := win1_8.stage (cfg1.slots t 8)
abbrev hs1_8 (t : Fin cfg1.N) : (ms1_8 t).IsWhole := hstage1_8 ((cfg1.slots t 8).cast nbuf1_8)
/-- The scratch accumulator: a whole scoped buffer of the kernel's own, carried between points. -/
abbrev scM1_0 : Memref sig .tc .vmem S64x128 .f32 := Memref.whole cc1_scratch0
abbrev VS1_0 : View sig .tc .vmem S64x128 .f32 := scM1_0.view

/-- The region's base invariant with the accumulator as a memref owned at some contents, the other scoped buffers
    and the generator register beside it. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg6_1), ((c : Thread nD τ).loc cc2_stg6_1) ↦{fullShare} f)) ∗ (∃ r, prngReg c r)) := by
  unfold Pipeline.ΦA; rw [scopedRest1_eq]; simp only [scM1_0, owns_whole]; try rfl

end Cert.KernelIdeal.Hand

end
-- ==== Proof.KI.R1RunA.lean ====
import proofs.«151578_j65635690217487_1_alg».proof.Proof.KI.R1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The whole body in case A (the accumulator is reset, then added to; output 8 is left untouched), on whole memrefs: the inputs at their contents are handed back as they
    were; the pieces each written buffer ends with (last first) are the witness the run finds. -/
noncomputable def kernelRun1_A (c : Dev nD) (i : grid1.Coords) (arg2 : Memref sig .tc .vmem S64x128x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (hc0 : cond1_0 i) (hc1 : ¬cond1_1 i)
    (x0 : Vec F S64x128x128 .f32) (x1 : Vec F S64x128 .f32) (x2 : Vec F S128 .f32) (x3 : Vec F S128 .f32) (x4 : Vec F S128x128 .f32) (x5 : Vec F S128 .f32) (x6 : Vec F S128x128 .f32) (x7 : Vec F S128 .f32) :
    Σ' (L8 : List (View.Piece (Elt F) S64x128 .f32)), { LS0 : List (View.Piece (Elt F) S64x128 .f32) //
      ∀ (xi8 : Vec F S64x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc1__reduce_z_kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc1__reduce_z_kernel_eq_skeleton]; unfold cc1__reduce_z_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.KernelIdeal.Hand

end
-- ==== Proof.KI.R1RunB.lean ====
import proofs.«151578_j65635690217487_1_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The whole body in case B (the accumulator is added to; output 8 is left untouched), on whole memrefs: the inputs at their contents are handed back as they
    were; the pieces each written buffer ends with (last first) are the witness the run finds. -/
noncomputable def kernelRun1_B (c : Dev nD) (i : grid1.Coords) (arg2 : Memref sig .tc .vmem S64x128x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : ¬cond1_1 i)
    (x0 : Vec F S64x128x128 .f32) (x1 : Vec F S64x128 .f32) (x2 : Vec F S128 .f32) (x3 : Vec F S128 .f32) (x4 : Vec F S128x128 .f32) (x5 : Vec F S128 .f32) (x6 : Vec F S128x128 .f32) (x7 : Vec F S128 .f32) (xs0 : Vec F S64x128 .f32) :
    Σ' (L8 : List (View.Piece (Elt F) S64x128 .f32)), { LS0 : List (View.Piece (Elt F) S64x128 .f32) //
      ∀ (xi8 : Vec F S64x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc1__reduce_z_kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc1__reduce_z_kernel_eq_skeleton]; unfold cc1__reduce_z_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.KernelIdeal.Hand

end
-- ==== Proof.KI.R1RunC.lean ====
import proofs.«151578_j65635690217487_1_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The whole body in case C (the accumulator is added to, then copied into output 8), on whole memrefs: the inputs at their contents are handed back as they
    were; the pieces each written buffer ends with (last first) are the witness the run finds. -/
noncomputable def kernelRun1_C (c : Dev nD) (i : grid1.Coords) (arg2 : Memref sig .tc .vmem S64x128x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : cond1_1 i)
    (x0 : Vec F S64x128x128 .f32) (x1 : Vec F S64x128 .f32) (x2 : Vec F S128 .f32) (x3 : Vec F S128 .f32) (x4 : Vec F S128x128 .f32) (x5 : Vec F S128 .f32) (x6 : Vec F S128x128 .f32) (x7 : Vec F S128 .f32) (xs0 : Vec F S64x128 .f32) :
    Σ' (L8 : List (View.Piece (Elt F) S64x128 .f32)), { LS0 : List (View.Piece (Elt F) S64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc1__reduce_z_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__reduce_z_kernel_eq_skeleton]; unfold cc1__reduce_z_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

end Cert.KernelIdeal.Hand

end
-- ==== Proof.KI.Region1.lean ====
import proofs.«151578_j65635690217487_1_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the masked reduction over z): the frame half at the region's entry contents -/

/-! ## What each case leaves in output 8's staging buffer and in the accumulator -/

/-- Case A stores nothing into output 8 (idle and not written back at its points): a placeholder nothing consults. -/
def out1_A_8 (c : Dev nD) (i : grid1.Coords) (arg2 : Memref sig .tc .vmem S64x128x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (hc0 : cond1_0 i) (hc1 : ¬cond1_1 i)
    (x0 : Vec F S64x128x128 .f32) (x1 : Vec F S64x128 .f32) (x2 : Vec F S128 .f32) (x3 : Vec F S128 .f32) (x4 : Vec F S128x128 .f32) (x5 : Vec F S128 .f32) (x6 : Vec F S128x128 .f32) (x7 : Vec F S128 .f32) : Vec F S64x128 .f32 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 hc0 hc1 x0 x1 x2 x3 x4 x5 x6 x7).1)

/-- Case A's pieces for the accumulator tile it, so they cover it. -/
theorem scover1_A_0 (c : Dev nD) (i : grid1.Coords) (arg2 : Memref sig .tc .vmem S64x128x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (hc0 : cond1_0 i) (hc1 : ¬cond1_1 i)
    (x0 : Vec F S64x128x128 .f32) (x1 : Vec F S64x128 .f32) (x2 : Vec F S128 .f32) (x3 : Vec F S128 .f32) (x4 : Vec F S128x128 .f32) (x5 : Vec F S128 .f32) (x6 : Vec F S128x128 .f32) (x7 : Vec F S128 .f32) (y : S64x128.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1 S64x128.size (by sl_kernel_rfl) y

/-- What case A leaves in the accumulator: its pieces read back over junk. -/
def sout1_A_0 (c : Dev nD) (i : grid1.Coords) (arg2 : Memref sig .tc .vmem S64x128x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (hc0 : cond1_0 i) (hc1 : ¬cond1_1 i)
    (x0 : Vec F S64x128x128 .f32) (x1 : Vec F S64x128 .f32) (x2 : Vec F S128 .f32) (x3 : Vec F S128 .f32) (x4 : Vec F S128x128 .f32) (x5 : Vec F S128 .f32) (x6 : Vec F S128x128 .f32) (x7 : Vec F S128 .f32) : Vec F S64x128 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1)

/-- Case B stores nothing into output 8 (idle and not written back at its points): a placeholder nothing consults. -/
def out1_B_8 (c : Dev nD) (i : grid1.Coords) (arg2 : Memref sig .tc .vmem S64x128x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : ¬cond1_1 i)
    (x0 : Vec F S64x128x128 .f32) (x1 : Vec F S64x128 .f32) (x2 : Vec F S128 .f32) (x3 : Vec F S128 .f32) (x4 : Vec F S128x128 .f32) (x5 : Vec F S128 .f32) (x6 : Vec F S128x128 .f32) (x7 : Vec F S128 .f32) (xs0 : Vec F S64x128 .f32) : Vec F S64x128 .f32 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs0).1)

/-- Case B's pieces for the accumulator tile it, so they cover it. -/
theorem scover1_B_0 (c : Dev nD) (i : grid1.Coords) (arg2 : Memref sig .tc .vmem S64x128x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : ¬cond1_1 i)
    (x0 : Vec F S64x128x128 .f32) (x1 : Vec F S64x128 .f32) (x2 : Vec F S128 .f32) (x3 : Vec F S128 .f32) (x4 : Vec F S128x128 .f32) (x5 : Vec F S128 .f32) (x6 : Vec F S128x128 .f32) (x7 : Vec F S128 .f32) (xs0 : Vec F S64x128 .f32) (y : S64x128.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs0).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs0).2.1 S64x128.size (by sl_kernel_rfl) y

/-- What case B leaves in the accumulator: its pieces read back over junk. -/
def sout1_B_0 (c : Dev nD) (i : grid1.Coords) (arg2 : Memref sig .tc .vmem S64x128x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : ¬cond1_1 i)
    (x0 : Vec F S64x128x128 .f32) (x1 : Vec F S64x128 .f32) (x2 : Vec F S128 .f32) (x3 : Vec F S128 .f32) (x4 : Vec F S128x128 .f32) (x5 : Vec F S128 .f32) (x6 : Vec F S128x128 .f32) (x7 : Vec F S128 .f32) (xs0 : Vec F S64x128 .f32) : Vec F S64x128 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs0).2.1)

/-- Case C's one store into output 8 tiles its block, so its pieces cover it. -/
theorem cover1_C_8 (c : Dev nD) (i : grid1.Coords) (arg2 : Memref sig .tc .vmem S64x128x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : cond1_1 i)
    (x0 : Vec F S64x128x128 .f32) (x1 : Vec F S64x128 .f32) (x2 : Vec F S128 .f32) (x3 : Vec F S128 .f32) (x4 : Vec F S128x128 .f32) (x5 : Vec F S128 .f32) (x6 : Vec F S128x128 .f32) (x7 : Vec F S128 .f32) (xs0 : Vec F S64x128 .f32) (y : S64x128.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).1 S64x128.size (by sl_kernel_rfl) y

/-- What case C leaves in output 8's staging buffer: its pieces read back over junk. -/
def out1_C_8 (c : Dev nD) (i : grid1.Coords) (arg2 : Memref sig .tc .vmem S64x128x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : cond1_1 i)
    (x0 : Vec F S64x128x128 .f32) (x1 : Vec F S64x128 .f32) (x2 : Vec F S128 .f32) (x3 : Vec F S128 .f32) (x4 : Vec F S128x128 .f32) (x5 : Vec F S128 .f32) (x6 : Vec F S128x128 .f32) (x7 : Vec F S128 .f32) (xs0 : Vec F S64x128 .f32) : Vec F S64x128 .f32 :=
  VO1_8.read (Elt F) (VO1_8.writes (Elt F) VO1_8.junk (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).1)

/-- Case C's pieces for the accumulator tile it, so they cover it. -/
theorem scover1_C_0 (c : Dev nD) (i : grid1.Coords) (arg2 : Memref sig .tc .vmem S64x128x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : cond1_1 i)
    (x0 : Vec F S64x128x128 .f32) (x1 : Vec F S64x128 .f32) (x2 : Vec F S128 .f32) (x3 : Vec F S128 .f32) (x4 : Vec F S128x128 .f32) (x5 : Vec F S128 .f32) (x6 : Vec F S128x128 .f32) (x7 : Vec F S128 .f32) (xs0 : Vec F S64x128 .f32) (y : S64x128.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).2.1 S64x128.size (by sl_kernel_rfl) y

/-- What case C leaves in the accumulator: its pieces read back over junk. -/
def sout1_C_0 (c : Dev nD) (i : grid1.Coords) (arg2 : Memref sig .tc .vmem S64x128x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : cond1_1 i)
    (x0 : Vec F S64x128x128 .f32) (x1 : Vec F S64x128 .f32) (x2 : Vec F S128 .f32) (x3 : Vec F S128 .f32) (x4 : Vec F S128x128 .f32) (x5 : Vec F S128 .f32) (x6 : Vec F S128x128 .f32) (x7 : Vec F S128 .f32) (xs0 : Vec F S64x128 .f32) : Vec F S64x128 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs0).2.1)

section Region1
variable (V : (c : Dev nD) → (b : Ref sig .tc) → Buf (Elt F) ((c : Thread nD τ).loc b))

/-! ## What output 8's staging buffer and the accumulator hold after each point -/

/-- After the body at position `n`: output 8's staging buffer, then the accumulator — the case the closed forms
    select at `n`, run at the point's memrefs and input blocks, the accumulator at what the point before left. -/
def outsAt1 (c : Dev nD) : (n : ℕ) → n < cfg1.N → Vec F S64x128 .f32 × Vec F S64x128 .f32
  | 0, hn => (out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩))
  | n + 1, hn =>
    if h0 : (n + 1) % 4 = 0 then
      if h1 : (n + 1) % 4 = 3 then
        False.elim (by omega)
      else
        (out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩))
    else
      if h1 : (n + 1) % 4 = 3 then
        (out1_C_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)
      else
        (out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant tracking the accumulator -/

/-- Before position `n`: at the first point the region's base invariant (every scoped buffer at anything); afterwards
    the accumulator owned at what the point before left, the other scoped buffers at anything, the generator register
    at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg6_1), ((c : Thread nD τ).loc cc2_stg6_1) ↦{fullShare} f)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg6_1), ((c : Thread nD τ).loc cc2_stg6_1) ↦{fullShare} f)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg6_1), ((c : Thread nD τ).loc cc2_stg6_1) ↦{fullShare} f)) ∗ (∃ r, prngReg c r)) := by
  cases n with
  | zero => exact absurd rfl hz
  | succ n => rfl

/-! ## The pipeline's proof data -/

/-- The proof data of the region on core `c`: the arrays as the region finds them; after the body at point `t` each
    input's buffer at its block and output 8's at `outsAt1`'s first component; the tracking invariant; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 16000000 in
/-- The body at any point: the inputs' memrefs hold their blocks; the closed forms say which case the point is in; that
    case's run applies; the invariant hands the body the accumulator at what the point before left (at anything at the
    first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [Dat.leavesExact_idle (dat1 V c) 8 t (idleAt1_8_A t ((hcond1_0 t).mpr h0) (fun h => h1 ((hcond1_1 t).mp h))) (noFlush1_8_A t ((hcond1_0 t).mpr h0) (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]
        iintro ⟨⟨⟨HR0, HR1, HR2, HR3, HR4, HR5, HR6, HR7, HR8, HR9, HR10, HS0, HR12, HR13, HR14, HR15, HR16, HR17, HR18, HR19, HR20, HR21⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HR0 HR1 HR2 HR3 HR4 HR5 HR6 HR7 HR8 HR9 HR10 HS0 HR12 HR13 HR14 HR15 HR16 HR17 HR18 HR19 HR20 HR21 Hg]
        · isplitl [HR0 HR1 HR2 HR3 HR4 HR5 HR6 HR7 HR8 HR9 HR10 HS0 HR12 HR13 HR14 HR15 HR16 HR17 HR18 HR19 HR20 HR21]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _)
            isplitl [HR12]; · iexact HR12
            isplitl [HR13]; · iexact HR13
            isplitl [HR14]; · iexact HR14
            isplitl [HR15]; · iexact HR15
            isplitl [HR16]; · iexact HR16
            isplitl [HR17]; · iexact HR17
            isplitl [HR18]; · iexact HR18
            isplitl [HR19]; · iexact HR19
            isplitl [HR20]; · iexact HR20
            iexact HR21
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      ·
        rw [PhiS1_castSucc V c t, PhiS1_pos V c _ _ hz]
        iintro ⟨⟨⟨HR0, HR1, HR2, HR3, HR4, HR5, HR6, HR7, HR8, HR9, HR10, HS0, HR12, HR13, HR14, HR15, HR16, HR17, HR18, HR19, HR20, HR21⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        iintro ⟨H0, H1, H2, H3, H4, H5, H6, H7, H8, ⟨%es0, HS0⟩⟩
        isplitl [HR0 HR1 HR2 HR3 HR4 HR5 HR6 HR7 HR8 HR9 HR10 HS0 HR12 HR13 HR14 HR15 HR16 HR17 HR18 HR19 HR20 HR21 Hg]
        · isplitl [HR0 HR1 HR2 HR3 HR4 HR5 HR6 HR7 HR8 HR9 HR10 HS0 HR12 HR13 HR14 HR15 HR16 HR17 HR18 HR19 HR20 HR21]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _)
            isplitl [HR12]; · iexact HR12
            isplitl [HR13]; · iexact HR13
            isplitl [HR14]; · iexact HR14
            isplitl [HR15]; · iexact HR15
            isplitl [HR16]; · iexact HR16
            isplitl [HR17]; · iexact HR17
            isplitl [HR18]; · iexact HR18
            isplitl [HR19]; · iexact HR19
            isplitl [HR20]; · iexact HR20
            iexact HR21
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [show (dat1 V c).leavesExact 8 t = owns (c : Thread nD τ) (ms1_8 t) fullShare ((dat1 V c).after 8 t) from by
        unfold Dat.leavesExact; rw [liveAt1_8_C t (fun h => h0 ((hcond1_0 t).mp h)) ((hcond1_1 t).mpr h1)], after1_8]
      rw [outsAt1_C V c t h0 h1]
      unfold out1_C_8 sout1_C_0; (try dsimp only)
      by_cases hz : t.val = 0
      · exfalso; omega
      ·
        rw [PhiS1_castSucc V c t, PhiS1_pos V c _ _ hz]
        iintro ⟨⟨⟨HR0, HR1, HR2, HR3, HR4, HR5, HR6, HR7, HR8, HR9, HR10, HS0, HR12, HR13, HR14, HR15, HR16, HR17, HR18, HR19, HR20, HR21⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [HS0]; · iexact HS0
        iintro ⟨H0, H1, H2, H3, H4, H5, H6, H7, ⟨%e8, H8⟩, ⟨%es0, HS0⟩⟩
        isplitl [HR0 HR1 HR2 HR3 HR4 HR5 HR6 HR7 HR8 HR9 HR10 HS0 HR12 HR13 HR14 HR15 HR16 HR17 HR18 HR19 HR20 HR21 Hg]
        · isplitl [HR0 HR1 HR2 HR3 HR4 HR5 HR6 HR7 HR8 HR9 HR10 HS0 HR12 HR13 HR14 HR15 HR16 HR17 HR18 HR19 HR20 HR21]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _)
            isplitl [HR12]; · iexact HR12
            isplitl [HR13]; · iexact HR13
            isplitl [HR14]; · iexact HR14
            isplitl [HR15]; · iexact HR15
            isplitl [HR16]; · iexact HR16
            isplitl [HR17]; · iexact HR17
            isplitl [HR18]; · iexact HR18
            isplitl [HR19]; · iexact HR19
            isplitl [HR20]; · iexact HR20
            iexact HR21
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (cover1_C_8 c _ _ _ _ _ _ _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [Dat.leavesExact_idle (dat1 V c) 8 t (idleAt1_8_B t (fun h => h0 ((hcond1_0 t).mp h)) (fun h => h1 ((hcond1_1 t).mp h))) (noFlush1_8_B t (fun h => h0 ((hcond1_0 t).mp h)) (fun h => h1 ((hcond1_1 t).mp h)))]
      rw [outsAt1_B V c t h0 h1]
      unfold sout1_B_0; (try dsimp only)
      by_cases hz : t.val = 0
      · exfalso; omega
      ·
        rw [PhiS1_castSucc V c t, PhiS1_pos V c _ _ hz]
        iintro ⟨⟨⟨HR0, HR1, HR2, HR3, HR4, HR5, HR6, HR7, HR8, HR9, HR10, HS0, HR12, HR13, HR14, HR15, HR16, HR17, HR18, HR19, HR20, HR21⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HR0 HR1 HR2 HR3 HR4 HR5 HR6 HR7 HR8 HR9 HR10 HS0 HR12 HR13 HR14 HR15 HR16 HR17 HR18 HR19 HR20 HR21 Hg]
        · isplitl [HR0 HR1 HR2 HR3 HR4 HR5 HR6 HR7 HR8 HR9 HR10 HS0 HR12 HR13 HR14 HR15 HR16 HR17 HR18 HR19 HR20 HR21]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _)
            isplitl [HR12]; · iexact HR12
            isplitl [HR13]; · iexact HR13
            isplitl [HR14]; · iexact HR14
            isplitl [HR15]; · iexact HR15
            isplitl [HR16]; · iexact HR16
            isplitl [HR17]; · iexact HR17
            isplitl [HR18]; · iexact HR18
            isplitl [HR19]; · iexact HR19
            isplitl [HR20]; · iexact HR20
            iexact HR21
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the base invariant back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HR8, HR9, HR10, HS0, HR12, HR13, HR14, HR15, HR16, HR17, HR18, HR19, HR20, HR21⟩, Hg⟩
  isplitl [HR0 HR1 HR2 HR3 HR4 HR5 HR6 HR7 HR8 HR9 HR10 HS0 HR12 HR13 HR14 HR15 HR16 HR17 HR18 HR19 HR20 HR21]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HS0]; · iexists _; iexact HS0
    isplitl [HR12]; · iexact HR12
    isplitl [HR13]; · iexact HR13
    isplitl [HR14]; · iexact HR14
    isplitl [HR15]; · iexact HR15
    isplitl [HR16]; · iexact HR16
    isplitl [HR17]; · iexact HR17
    isplitl [HR18]; · iexact HR18
    isplitl [HR19]; · iexact HR19
    isplitl [HR20]; · iexact HR20
    iexact HR21
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Region1

end Cert.KernelIdeal.Hand

end
-- ==== Proof.KI.R2Body.lean ====
/- Region 2 (the outer-product kernel): what the body leaves in the output window's staging buffer, as a function of
   the six input blocks, and the body's triple on whole staging memrefs. The body loads each input whole, once, and
   stores the whole output block once; it has no branch and no scratch. -/
import proofs.«151578_j65635690217487_1_alg».proof.Proof.Gen.KernelIdeal.Launch
import proofs.«151578_j65635690217487_1_alg».proof.Proof.Gen.KernelIdeal.Skeleton
import proofs.«151578_j65635690217487_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each memref whole -/

abbrev r2_a : Rect S64x128 := Rect.unit (s := S64x128) ![0, 0] S64x128.size inb_S64x128_S64x128_0_0
abbrev r2_b : Rect S128x128 := Rect.unit (s := S128x128) ![0, 0] S128x128.size inb_S128x128_S128x128_0_0
abbrev r2_c : Rect S128 := Rect.unit (s := S128) ![0] S128.size inb_S128_S128_0
abbrev r2_o : Rect S64x128x128 := Rect.unit (s := S64x128x128) ![0, 0, 0] S64x128x128.size inb_S64x128x128_S64x128x128_0_0_0

/-! ## What the body leaves in the output window's buffer -/

/-- Window 6's staging buffer after the body, from the input windows' blocks: its one store as a piece, the payload
    the skeleton's (the linear layer's bias `x5`, the normalised outer product of `x0` and `x1` under the layer
    norm's weight `x2` and bias `x3` rounded to bf16, the weight `x4` rounded to bf16, a zero accumulator). -/
def out2_6 (x0 : Vec F S64x128 .f32) (x1 : Vec F S128x128 .f32) (x2 : Vec F S128 .f32) (x3 : Vec F S128 .f32) (x4 : Vec F S128x128 .f32) (x5 : Vec F S128 .f32) : Vec F S64x128x128 .f32 :=
  View.canon [⟨r2_o, k2_pay1 (View.ld x5 r2_c) (k2_pay2 (View.ld x0 r2_a) (View.ld x1 r2_b) (View.ld x2 r2_c) (View.ld x3 r2_c)) (k2_pay3 (View.ld x4 r2_b)) (constant S8192x128 .f32 0x00000000#32)⟩]

/-- The one store is the whole block, so it covers it. -/
theorem cover2_6 (p0 : Vec F S64x128x128 .f32) (y : S64x128x128.Idx) :
    ∃ pc ∈ ([⟨r2_o, p0⟩] : List (View.Piece (Elt F) S64x128x128 .f32)), y ∈ pc.1.set :=
  View.cover_of_tiled [⟨r2_o, p0⟩] S64x128x128.size (by rfl) y

/-! ## The body's triple -/

set_option maxHeartbeats 1000000 in
/-- The kernel body on whole staging memrefs, the inputs' at read contents `x0 … x5` and the output's at anything, runs
    to the continuation holding the inputs' as they were and the output's at `out2_6` of the inputs': the printed
    functions are their skeletons, whose memory operations are run one by one. -/
theorem sound_kernel2 (c : Dev nD) (E : Set ℕ) (i : grid2.Coords) (arg2 : Memref sig .tc .vmem S64x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S64x128x128 .f32) (harg8 : arg8.IsWhole)
    (x0 : Vec F S64x128 .f32) (x1 : Vec F S128x128 .f32) (x2 : Vec F S128 .f32) (x3 : Vec F S128 .f32) (x4 : Vec F S128x128 .f32) (x5 : Vec F S128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out2_6 x0 x1 x2 x3 x4 x5)) -∗ K ⟨⟩))
      ⊢ wp frame (wpE (defs₀ (F := F)) Variants.none c none) E (cc2__outer_kernel i arg2 harg2 arg3 harg3 arg4 harg4 arg5 harg5 arg6 harg6 arg7 harg7 arg8 harg8) K := by
  simp only [cc2__outer_kernel_eq_skeleton]; unfold cc2__outer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

end Cert.KernelIdeal.Hand

end
-- ==== Proof.KI.Region2.lean ====
/- Region 2 (the outer-product kernel) at a parameter `V` — the TensorCore's buffer contents when the region is
   entered: each window's block at a point, the proof data (after the body each input's buffer at its
   block, the output's at `out2_6` of the input blocks; the invariant the untouched rest), and the body obligation
   at every point. -/
import proofs.«151578_j65635690217487_1_alg».proof.Proof.KI.R2Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block
    index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): unfetched, the block
    index has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): unfetched, the block
    index has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s (`hA`) and whose body leaves the block in place (`hafter`): unfetched, the block
    index has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s (`hA`) and whose body leaves the block in place (`hafter`): unfetched, the block
    index has not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s (`hA`) and whose body leaves the block in place (`hafter`): unfetched, the block
    index has not moved; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The pipeline's proof data -/

/-- The proof data of pipeline 2 on core `c`: the arrays as the region finds them (`V`); after the body at point `t`
    each input's buffer at its block and the output's at `out2_6` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's two ends -/

/-- The invariant is the untouched rest at every point: it is what the region is entered with, -/
theorem hin2 (c : Dev nD) : Pipeline.ΦA spec2 c ⊢ (dat2 V c).Φ 0 := by
  rw [show (dat2 V c).Φ 0 = Pipeline.ΦA spec2 c from rfl]

/-- and what it leaves. -/
theorem hout2 (c : Dev nD) : (dat2 V c).Φ (Fin.last cfg2.N) ⊢ Pipeline.ΦA spec2 c := by
  rw [show (dat2 V c).Φ (Fin.last cfg2.N) = Pipeline.ΦA spec2 c from rfl]

end Region

end Cert.KernelIdeal.Hand

end
-- ==== Proof.KI.Run.lean ====
/-
  The run of the whole program: the host's five weight transposes, then the three kernel regions, composed in
  order. Between two items every unscoped buffer is held at a known valuation: the launch memory, then the host
  operations applied, then each region's arrays replaced by what its write-backs leave. Each argument array is read
  by the regions through input windows only and written by no host operation, so it ends as launched; the result's
  buffer ends at the third region's output array.
-/
import proofs.«151578_j65635690217487_1_alg».proof.Proof.Gen.KernelIdeal.Launch
import proofs.«151578_j65635690217487_1_alg».proof.Proof.Gen.KernelIdeal.Skeleton
import proofs.«151578_j65635690217487_1_alg».proof.Proof.Gen.KernelIdeal.Points
import proofs.«151578_j65635690217487_1_alg».proof.Proof.Gen.KernelIdeal.Regions
import proofs.«151578_j65635690217487_1_alg».proof.Proof.KI.Region0
import proofs.«151578_j65635690217487_1_alg».proof.Proof.KI.Region1
import proofs.«151578_j65635690217487_1_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's segments from the launch to the return

## The buffer contents at each segment boundary: a fold through @main -/

/-- Core `c`'s buffers at launch. -/
abbrev W0 : Dev nD → Valuation τ sig (Elt F) := fun c b => (s₀ m ρ).mem ((c : Dev nD), b)
/-- After the host operations before the first region (the five weight transposes). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b

/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- An input window's array leaves region 0 as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-- At region 1's exit: its arrays at what the pipeline leaves (the inputs as entered, the output's write-backs
    folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- An input window's array leaves region 1 as it entered. -/
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))

/-- At region 2's exit: its arrays at what the pipeline leaves (the inputs as entered, the output's write-backs
    folded), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)
/-- An input window's array leaves region 2 as it entered. -/
theorem W4_in (c : Dev nD) (w : Fin cfg2.W) (hw : (cfg2.win w).isOut = false) :
    W4 m ρ c (Proc.devRef .tc (Pipeline.arrRef spec2 w)) = W3 m ρ c (Proc.devRef .tc (Pipeline.arrRef spec2 w)) :=
  (W4_arr m ρ c w).trans (((dat2 (V3 m ρ) c).arrAt_in w hw _).trans (A_eq2 (V3 m ρ) c w))

/-! ### The arguments end as launched: no host operation and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_in m ρ c 0 rfl
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_in m ρ c 0 rfl
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_in m ρ c 1 rfl
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_in m ρ c 4 rfl
    _ = W0 m ρ c (Proc.devRef .tc main_arg4) := StableHlo.after_of_writes_sub hostOps0 _ hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_in m ρ c 5 rfl
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := W2_in m ρ c 6 rfl
    _ = W0 m ρ c (Proc.devRef .tc main_arg8) := StableHlo.after_of_writes_sub hostOps0 _ hostOps0_writes (by decide)
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := W3_in m ρ c 7 rfl
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_in m ρ c 5 rfl
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := W3_of_ne m ρ c main_arg13 (by decide)
    _ = W1 m ρ c (Proc.devRef .tc main_arg13) := W2_in m ρ c 1 rfl
    _ = W0 m ρ c (Proc.devRef .tc main_arg13) := StableHlo.after_of_writes_sub hostOps0 _ hostOps0_writes (by decide)
    _ = m ((c : Thread nD τ).loc main_arg13) := rfl

theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := W3_of_ne m ρ c main_arg14 (by decide)
    _ = W1 m ρ c (Proc.devRef .tc main_arg14) := W2_in m ρ c 2 rfl
    _ = W0 m ρ c (Proc.devRef .tc main_arg14) := StableHlo.after_of_writes_sub hostOps0 _ hostOps0_writes (by decide)
    _ = m ((c : Thread nD τ).loc main_arg14) := rfl

theorem W4_main_arg15 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := W3_in m ρ c 2 rfl
    _ = W1 m ρ c (Proc.devRef .tc main_arg15) := W2_of_ne m ρ c main_arg15 (by decide)
    _ = W0 m ρ c (Proc.devRef .tc main_arg15) := StableHlo.after_of_writes_sub hostOps0 _ hostOps0_writes (by decide)
    _ = m ((c : Thread nD τ).loc main_arg15) := rfl

theorem W4_main_arg16 (c : Dev nD) : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = W2 m ρ c (Proc.devRef .tc main_arg16) := W3_in m ρ c 3 rfl
    _ = W1 m ρ c (Proc.devRef .tc main_arg16) := W2_of_ne m ρ c main_arg16 (by decide)
    _ = W0 m ρ c (Proc.devRef .tc main_arg16) := StableHlo.after_of_writes_sub hostOps0 _ hostOps0_writes (by decide)
    _ = m ((c : Thread nD τ).loc main_arg16) := rfl

theorem W4_main_arg17 (c : Dev nD) : W4 m ρ c (Proc.devRef .tc main_arg17) = m ((c : Thread nD τ).loc main_arg17) :=
  calc W4 m ρ c (Proc.devRef .tc main_arg17)
    _ = W3 m ρ c (Proc.devRef .tc main_arg17) := W4_in m ρ c 2 rfl
    _ = W2 m ρ c (Proc.devRef .tc main_arg17) := W3_of_ne m ρ c main_arg17 (by decide)
    _ = W1 m ρ c (Proc.devRef .tc main_arg17) := W2_of_ne m ρ c main_arg17 (by decide)
    _ = W0 m ρ c (Proc.devRef .tc main_arg17) := StableHlo.after_of_writes_sub hostOps0 _ hostOps0_writes (by decide)
    _ = m ((c : Thread nD τ).loc main_arg17) := rfl

theorem W4_main_arg18 (c : Dev nD) : W4 m ρ c (Proc.devRef .tc main_arg18) = m ((c : Thread nD τ).loc main_arg18) :=
  calc W4 m ρ c (Proc.devRef .tc main_arg18)
    _ = W3 m ρ c (Proc.devRef .tc main_arg18) := W4_in m ρ c 3 rfl
    _ = W2 m ρ c (Proc.devRef .tc main_arg18) := W3_of_ne m ρ c main_arg18 (by decide)
    _ = W1 m ρ c (Proc.devRef .tc main_arg18) := W2_of_ne m ρ c main_arg18 (by decide)
    _ = W0 m ρ c (Proc.devRef .tc main_arg18) := StableHlo.after_of_writes_sub hostOps0 _ hostOps0_writes (by decide)
    _ = m ((c : Thread nD τ).loc main_arg18) := rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 over the thread state "every unscoped buffer at the boundary's contents, the generator register at some
    state, nothing owed": entered at `W1`, left at `W2`. Its arrays are split out of the unscoped buffers and
    put back at the exit contents; the generator register goes into the region's invariant and comes back; nothing is
    owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hh : Pipeline.ΦA spec0 c ⊢ (pdats m ρ 0 c).Φ 0 := hin0 (V1 m ρ) c
    iintro ⟨Hp, -, Hr⟩
    iapply hh
    unfold Pipeline.ΦA
    isplitl [Hr]; · iexact Hr
    iexact Hp
  hout c := by
    rw [Pipeline.ownSems0_none]
    have hh : (pdats m ρ 0 c).Φ (Fin.last _) ⊢ Pipeline.ΦA spec0 c := hout0 (V1 m ρ) c
    iintro H
    ihave H' := hh $$ H
    unfold Pipeline.ΦA
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state "every unscoped buffer at the boundary's contents, the generator register at some
    state, nothing owed": entered at `W2`, left at `W3`. Its arrays are split out of the unscoped buffers and
    put back at the exit contents; the generator register goes into the region's invariant and comes back; nothing is
    owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hh : Pipeline.ΦA spec1 c ⊢ (pdats m ρ 1 c).Φ 0 := hin1 (V2 m ρ) c
    iintro ⟨Hp, -, Hr⟩
    iapply hh
    unfold Pipeline.ΦA
    isplitl [Hr]; · iexact Hr
    iexact Hp
  hout c := by
    rw [Pipeline.ownSems0_none]
    have hh : (pdats m ρ 1 c).Φ (Fin.last _) ⊢ Pipeline.ΦA spec1 c := hout1 (V2 m ρ) c
    iintro H
    ihave H' := hh $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state "every unscoped buffer at the boundary's contents, the generator register at some
    state, nothing owed": entered at `W3`, left at `W4`. Its arrays are split out of the unscoped buffers and
    put back at the exit contents; the generator register goes into the region's invariant and comes back; nothing is
    owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hh : Pipeline.ΦA spec2 c ⊢ (pdats m ρ 2 c).Φ 0 := hin2 (V3 m ρ) c
    iintro ⟨Hp, -, Hr⟩
    iapply hh
    unfold Pipeline.ΦA
    isplitl [Hr]; · iexact Hr
    iexact Hp
  hout c := by
    rw [Pipeline.ownSems0_none]
    have hh : (pdats m ρ 2 c).Φ (Fin.last _) ⊢ Pipeline.ΦA spec2 c := hout2 (V3 m ρ) c
    iintro H
    ihave H' := hh $$ H
    unfold Pipeline.ΦA
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's items as segments: the host stretch, then the three regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
/-- @main IS the run of the segments. -/
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    every final state has every unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c),
    (h c _ (mem_uc main_arg14 (by decide))).trans (W4_main_arg14 m ρ c),
    (h c _ (mem_uc main_arg15 (by decide))).trans (W4_main_arg15 m ρ c),
    (h c _ (mem_uc main_arg16 (by decide))).trans (W4_main_arg16 m ρ c),
    (h c _ (mem_uc main_arg17 (by decide))).trans (W4_main_arg17 m ρ c),
    (h c _ (mem_uc main_arg18 (by decide))).trans (W4_main_arg18 m ρ c)⟩) (run_all m ρ)

/-- The run with the result's buffer named: it ends at region 2's output array as the pipeline leaves it. -/
theorem run_value : θ_run defs (onTc (τ := τ) (main (F := F))) ⟨m, fun _ => 0, ρ⟩ (fun r => ∀ c : Dev nD,
      r.2.mem ((c.tc : Thread nD τ).loc main_v7) = (dat2 (V3 m ρ) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c _ (mem_uc main_v7 (by decide))).trans (W4_arr m ρ c 6),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c),
    (h c _ (mem_uc main_arg14 (by decide))).trans (W4_main_arg14 m ρ c),
    (h c _ (mem_uc main_arg15 (by decide))).trans (W4_main_arg15 m ρ c),
    (h c _ (mem_uc main_arg16 (by decide))).trans (W4_main_arg16 m ρ c),
    (h c _ (mem_uc main_arg17 (by decide))).trans (W4_main_arg17 m ρ c),
    (h c _ (mem_uc main_arg18 (by decide))).trans (W4_main_arg18 m ρ c)⟩) (run_all m ρ)

end Cert.KernelIdeal.Hand

end
-- ==== Proof.Spec.lean ====
/-
  The specification: the result of the computation as ONE function of the argument arrays, over plain curried
  functions into the extended reals. A row is a vector of 128 channels; a weight matrix is read in the convention
  [out, in]; a plane is [512, 128]; a cube is [512, 512, 128].

  layer norm of a row x with weight w and bias b:   (x_k - mean x) * rsqrt (mean ((x - mean x)^2) + eps) * w_k + b_k,
  the mean being the sum of the 128 entries divided by 128;
  a linear layer:                                   (sum over i of x_i * w_{o,i}) + b_o;
  a gated row:                                      logistic (lin x)_o * x_o;
  the left plane  zl_{i,o} = sum over j of gated (lin (ln p_{i,j}))_o;
  the right plane zr_{i,o} = sum over j of gated (mask_{i,j} * lin (ln z_{i,j}))_o;
  the result      out_{i,j} = lin (ln (zl_i * zr_j)), the product taken channel by channel.
-/
import Idealize.ShloMosaic.PureOps.Ideal
import Idealize.ShloMosaic.Lib.ValueIdx

noncomputable section

open scoped BigOperators

namespace Cert.Spec

open Idealize.ShloMosaic Idealize.ShloMosaic.ValueIdx

abbrev Row : Type := Fin 128 → EReal
abbrev Mat : Type := Fin 128 → Fin 128 → EReal
abbrev Plane : Type := Fin 512 → Row
abbrev Cube : Type := Fin 512 → Fin 512 → Row
abbrev Mask : Type := Fin 512 → Fin 512 → EReal

/-- The small positive constant added to the variance: the one binary word both programs print. -/
def eps : EReal := Ideal.ofBits .f32 0x3727C5AC#32
/-- The number of channels, 128, as both programs print it. -/
def n128 : EReal := Ideal.ofBits .f32 0x43000000#32

/-- The mean of a row: its sum divided by 128. -/
def mean (x : Row) : EReal := Ideal.div (∑ k, x k) n128

/-- Layer norm of the row `x` with weight `w` and bias `b`. -/
def ln (w b x : Row) : Row := fun k =>
  (x k - mean x) * Ideal.rsqrt (mean (fun k' => (x k' - mean x) * (x k' - mean x)) + eps) * w k + b k

/-- A linear layer, the weight read [out, in]. -/
def lin (w : Mat) (b x : Row) : Row := fun o => (∑ i, x i * w o i) + b o

/-- A row gated by the logistic of a linear layer of itself. -/
def gated (w : Mat) (b x : Row) : Row := fun o => Ideal.logistic (lin w b x o) * x o

/-- The left plane: per row `i`, the sum over `j` of the gated projection of the normed `p i j`. -/
def zl (p : Cube) (lnw lnb : Row) (wp : Mat) (bp : Row) (wg : Mat) (bg : Row) : Plane := fun i o =>
  ∑ j, gated wg bg (lin wp bp (ln lnw lnb (p i j))) o

/-- The right plane: the same of `z`, the projection multiplied by the mask before the gate. -/
def zr (z : Cube) (mask : Mask) (lnw lnb : Row) (wp : Mat) (bp : Row) (wg : Mat) (bg : Row) : Plane := fun i o =>
  ∑ j, gated wg bg (fun o' => mask i j * lin wp bp (ln lnw lnb (z i j)) o') o

/-- The result from the two planes: the channelwise product of row `i` of the left with row `j` of the right,
    normed, then a linear layer. -/
def out (l r : Plane) (lnw lnb : Row) (wz : Mat) (bz : Row) : Cube := fun i j =>
  lin wz bz (ln lnw lnb (fun k => l i k * r j k))

/-- The whole computation, the arguments in the order both programs take them. -/
def G (z p : Cube) (mask : Mask) (w_lp : Mat) (b_lp : Row) (w_rp : Mat) (b_rp : Row) (w_lg : Mat) (b_lg : Row)
    (w_rg : Mat) (b_rg : Row) (w_z : Mat) (b_z : Row) (ln_l_w ln_l_b ln_r_w ln_r_b ln_o_w ln_o_b : Row) : Cube :=
  out (zl p ln_l_w ln_l_b w_lp b_lp w_lg b_lg) (zr z mask ln_r_w ln_r_b w_rp b_rp w_rg b_rg) ln_o_w ln_o_b w_z b_z

/-! ## Arrays read as curried functions, and back -/

abbrev A3 : Shape := ⟨3, ![512, 512, 128]⟩
abbrev A2 : Shape := ⟨2, ![512, 512]⟩
abbrev P2 : Shape := ⟨2, ![512, 128]⟩
abbrev M2 : Shape := ⟨2, ![128, 128]⟩
abbrev R1 : Shape := ⟨1, ![128]⟩

def cube (a : A3.Idx → EReal) : Cube := fun i j k => a (ix3 i j k)
def mask (a : A2.Idx → EReal) : Mask := fun i j => a (ix2 i j)
def plane (a : P2.Idx → EReal) : Plane := fun i k => a (ix2 i k)
/-- A weight array read as stored: entry (o, i). -/
def mat (a : M2.Idx → EReal) : Mat := fun o i => a (ix2 o i)
/-- A weight array that holds the transpose: entry (o, i) of the matrix is the array's (i, o). -/
def matT (a : M2.Idx → EReal) : Mat := fun o i => a (ix2 i o)
def row (a : R1.Idx → EReal) : Row := fun k => a (ix1 k)

def ofCube (f : Cube) : A3.Idx → EReal := fun y => f (y 0) (y 1) (y 2)
def ofPlane (f : Plane) : P2.Idx → EReal := fun y => f (y 0) (y 1)

theorem ofCube_apply (f : Cube) (i j : Fin 512) (k : Fin 128) : ofCube f (ix3 i j k) = f i j k := rfl
theorem ofPlane_apply (f : Plane) (i : Fin 512) (k : Fin 128) : ofPlane f (ix2 i k) = f i k := rfl
theorem cube_ofCube (f : Cube) : cube (ofCube f) = f := rfl
theorem plane_ofPlane (f : Plane) : plane (ofPlane f) = f := rfl

/-- A sum over 512 positions is the sum over its four consecutive blocks of 128. -/
theorem sum_blocks (f : Fin 512 → EReal) :
    ∑ j, f j = ∑ b : Fin 4, ∑ r : Fin 128, f ⟨b.val * 128 + r.val, by omega⟩ := by
  rw [← Finset.sum_product', Finset.univ_product_univ]
  refine (Fintype.sum_equiv (finProdFinEquiv (m := 4) (n := 128)) (fun x => f ⟨x.1.val * 128 + x.2.val, by omega⟩) f ?_).symm
  intro x
  congr 1
  apply Fin.ext
  simp only [finProdFinEquiv_apply_val]
  omega

end Cert.Spec

end
-- ==== Proof.KI.R0Cases.lean ====
import proofs.«151578_j65635690217487_1_alg».proof.Proof.KI.Region0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what each case of the body leaves, in closed form

The body's stores are whole-buffer stores, so what a case leaves in a buffer is its last store's payload, and each load
reads the whole contents it finds. With `x0` the block of `p`, `x1 … x6` the six small operands and `xs0` the
accumulator as the point before left it, every case leaves `k0_pay1 (k0_pay3 x0 x1 x2 x3 x4) x5 x6 a` in the
accumulator, `a` being the zero block where `j = 0` and `xs0` elsewhere; where `j = 3` the output window gets the same. -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- What one point adds: the block's contribution on top of the accumulator `a`. -/
abbrev step0 (x0 : Vec F S64x128x128 .f32) (x1 x2 : Vec F S128 .f32) (x3 : Vec F S128x128 .f32) (x4 : Vec F S128 .f32)
    (x5 : Vec F S128x128 .f32) (x6 : Vec F S128 .f32) (a : Vec F S64x128 .f32) : Vec F S64x128 .f32 :=
  k0_pay1 (k0_pay3 x0 x1 x2 x3 x4) x5 x6 a

/-- Case B: the accumulator ends at the point's contribution on top of what it held. -/
theorem sout_B (c : Dev nD) (i : grid0.Coords) (arg2 : Memref sig .tc .vmem S64x128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S64x128 .f32) (harg9 : arg9.IsWhole) (arg10 : Memref sig .tc .vmem S64x128 .f32) (harg10 : arg10.IsWhole) (hc0 : ¬cond0_0 i) (hc1 : ¬cond0_1 i)
    (x0 : Vec F S64x128x128 .f32) (x1 : Vec F S128 .f32) (x2 : Vec F S128 .f32) (x3 : Vec F S128x128 .f32) (x4 : Vec F S128 .f32) (x5 : Vec F S128x128 .f32) (x6 : Vec F S128 .f32) (xs0 : Vec F S64x128 .f32) :
    sout0_B_0 c i arg2 harg2 arg3 harg3 arg4 harg4 arg5 harg5 arg6 harg6 arg7 harg7 arg8 harg8 arg9 harg9 arg10 harg10 hc0 hc1 x0 x1 x2 x3 x4 x5 x6 xs0 = step0 x0 x1 x2 x3 x4 x5 x6 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S64x128x128) hz3, View.ld_unit_zero (S := S128) hz1, View.ld_unit_zero (S := S128x128) hz2, View.ld_unit_zero (S := S64x128) hz2, shapeCast_self]

/-- Case C: the accumulator ends as in case B, -/
theorem sout_C (c : Dev nD) (i : grid0.Coords) (arg2 : Memref sig .tc .vmem S64x128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S64x128 .f32) (harg9 : arg9.IsWhole) (arg10 : Memref sig .tc .vmem S64x128 .f32) (harg10 : arg10.IsWhole) (hc0 : ¬cond0_0 i) (hc1 : cond0_1 i)
    (x0 : Vec F S64x128x128 .f32) (x1 : Vec F S128 .f32) (x2 : Vec F S128 .f32) (x3 : Vec F S128x128 .f32) (x4 : Vec F S128 .f32) (x5 : Vec F S128x128 .f32) (x6 : Vec F S128 .f32) (xs0 : Vec F S64x128 .f32) :
    sout0_C_0 c i arg2 harg2 arg3 harg3 arg4 harg4 arg5 harg5 arg6 harg6 arg7 harg7 arg8 harg8 arg9 harg9 arg10 harg10 hc0 hc1 x0 x1 x2 x3 x4 x5 x6 xs0 = step0 x0 x1 x2 x3 x4 x5 x6 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, View.ld_unit_zero (S := S64x128x128) hz3, View.ld_unit_zero (S := S128) hz1, View.ld_unit_zero (S := S128x128) hz2, View.ld_unit_zero (S := S64x128) hz2, shapeCast_self]

/-- and the output window gets the accumulator's new contents. -/
theorem out_C (c : Dev nD) (i : grid0.Coords) (arg2 : Memref sig .tc .vmem S64x128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S64x128 .f32) (harg9 : arg9.IsWhole) (arg10 : Memref sig .tc .vmem S64x128 .f32) (harg10 : arg10.IsWhole) (hc0 : ¬cond0_0 i) (hc1 : cond0_1 i)
    (x0 : Vec F S64x128x128 .f32) (x1 : Vec F S128 .f32) (x2 : Vec F S128 .f32) (x3 : Vec F S128x128 .f32) (x4 : Vec F S128 .f32) (x5 : Vec F S128x128 .f32) (x6 : Vec F S128 .f32) (xs0 : Vec F S64x128 .f32) :
    out0_C_7 c i arg2 harg2 arg3 harg3 arg4 harg4 arg5 harg5 arg6 harg6 arg7 harg7 arg8 harg8 arg9 harg9 arg10 harg10 hc0 hc1 x0 x1 x2 x3 x4 x5 x6 xs0 = step0 x0 x1 x2 x3 x4 x5 x6 xs0 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz2, View.readCov_unit_zero (S := S64x128) _ hz2]
  simp only [View.readAt_eq_ld, harg2.read_unread, harg3.read_unread, harg4.read_unread, harg5.read_unread, harg6.read_unread, harg7.read_unread, harg8.read_unread, harg9.read_unread, harg10.read_unread, View.ld_unit_zero (S := S64x128x128) hz3, View.ld_unit_zero (S := S128) hz1, View.ld_unit_zero (S := S128x128) hz2, View.ld_unit_zero (S := S64x128) hz2, shapeCast_self]

/-- Case A: the accumulator is reset to the zero block first, whatever it held. -/
theorem sout_A (c : Dev nD) (i : grid0.Coords) (arg2 : Memref sig .tc .vmem S64x128x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S64x128 .f32) (harg9 : arg9.IsWhole) (arg10 : Memref sig .tc .vmem S64x128 .f32) (harg10 : arg10.IsWhole) (hc0 : cond0_0 i) (hc1 : ¬cond0_1 i)
    (x0 : Vec F S64x128x128 .f32) (x1 : Vec F S128 .f32) (x2 : Vec F S128 .f32) (x3 : Vec F S128x128 .f32) (x4 : Vec F S128 .f32) (x5 : Vec F S128x128 .f32) (x6 : Vec F S128 .f32) :
    sout0_A_0 c i arg2 harg2 arg3 harg3 arg4 harg4 arg5 harg5 arg6 harg6 arg7 harg7 arg8 harg8 arg9 harg9 arg10 harg10 hc0 hc1 x0 x1 x2 x3 x4 x5 x6 = step0 x0 x1 x2 x3 x4 x5 x6 (k0_pay2 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S64x128) hz2]
  simp only [View.readAt_eq_ld, harg2.read_unread, harg3.read_unread, harg4.read_unread, harg5.read_unread, harg6.read_unread, harg7.read_unread, harg8.read_unread, harg9.read_unread, harg10.read_unread, View.ld_unit_zero (S := S64x128x128) hz3, View.ld_unit_zero (S := S128) hz1, View.ld_unit_zero (S := S128x128) hz2, View.ld_unit_zero (S := S64x128) hz2, View.readCov_unit_zero (S := S64x128) _ hz2, shapeCast_self]

/-! ## The accumulator along a row of the grid -/

variable (V : (c : Dev nD) → (b : Ref sig .tc) → Buf (Elt F) ((c : Thread nD τ).loc b))

/-- At a row's first point the accumulator ends at the point's contribution on top of the zero block. -/
theorem acc_first (c : Dev nD) (t : Fin cfg0.N) (h0 : t.val % 4 = 0) :
    (outsAt0 V c t.val t.isLt).2 = step0 (iblk0 V c 0 t) (iblk0 V c 1 t) (iblk0 V c 2 t) (iblk0 V c 3 t) (iblk0 V c 4 t) (iblk0 V c 5 t) (iblk0 V c 6 t) (k0_pay2 (F := F)) := by
  have h1 : ¬t.val % 4 = 3 := by omega
  exact (congrArg Prod.snd (outsAt0_A V c t h0 h1)).trans (sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t))

/-- At any other point it ends at the point's contribution on top of what the point before left. -/
theorem acc_next (c : Dev nD) (t : Fin cfg0.N) (h0 : ¬t.val % 4 = 0) :
    (outsAt0 V c t.val t.isLt).2 = step0 (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2 := by
  by_cases h1 : t.val % 4 = 3
  · exact (congrArg Prod.snd (outsAt0_C V c t h0 h1)).trans (sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2)
  · exact (congrArg Prod.snd (outsAt0_B V c t h0 h1)).trans (sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2)

/-- At a row's last point the output window gets the accumulator's contents. -/
theorem out_last (c : Dev nD) (t : Fin cfg0.N) (h1 : t.val % 4 = 3) :
    (outsAt0 V c t.val t.isLt).1 = (outsAt0 V c t.val t.isLt).2 := by
  have h0 : ¬t.val % 4 = 0 := by omega
  exact ((congrArg Prod.fst (outsAt0_C V c t h0 h1)).trans (out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2)).trans
    ((congrArg Prod.snd (outsAt0_C V c t h0 h1)).trans (sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2)).symm

/-- The same, the point written as a successor. -/
theorem acc_succ (c : Dev nD) (n : ℕ) (hn : n + 1 < cfg0.N) (h0 : ¬(n + 1) % 4 = 0) :
    (outsAt0 V c (n + 1) hn).2 = step0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 V c n (Nat.lt_of_succ_lt hn)).2 :=
  acc_next V c ⟨n + 1, hn⟩ h0

end Cert.KernelIdeal.Hand

end
-- ==== Proof.KI.PayLemmas.lean ====
/-
  The layout operations, sums and the block product the three kernels share, read at an index: the casts between
  [64,128,128] and [8192,128] (row r = 128 a + b), the trailing unit axis of a per-row statistic, the lane vectors
  [128] spread over a block, the sum over the channel axis and over the block's second axis, and the product of an
  [8192,128] block with a [128,128] matrix into a zero accumulator as the plain sum over the contracted axis.
-/
import proofs.«151578_j65635690217487_1_alg».proof.KernelIdeal
import proofs.«151578_j65635690217487_1_alg».proof.Proof.Gen.KernelIdeal
import proofs.«151578_j65635690217487_1_alg».proof.Proof.Gen.KernelIdeal.Skeleton
import proofs.«151578_j65635690217487_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

variable {α : Type}

/-- Row `128 a + b` of the flattened block. -/
abbrev flat (a : Fin 64) (b : Fin 128) : Fin 8192 := ⟨a.val * 128 + b.val, by omega⟩

/-- The block flattened to [8192,128] reads, at row `128 a + b`, the block at `(a, b)`. -/
theorem cast_flat_apply (x : S64x128x128.Idx → α) (h : S64x128x128.ShapeCasts S8192x128) (a : Fin 64) (b k : Fin 128) :
    shapeCast S8192x128 x h (ix2 (flat a b) k) = x (ix3 a b k) :=
  shapeCast_apply x h _ _ (by
    rw [Shape.rowMajor_val_three, Shape.rowMajor_val_two]
    show (a.val * 128 + b.val) * 128 + k.val = (flat a b).val * 128 + k.val
    rfl)

/-- The flattened product folded back to [64,128,128] reads, at `(a, b)`, row `128 a + b`. -/
theorem cast_fold_apply (y : S8192x128.Idx → α) (h : S8192x128.ShapeCasts S64x128x128) (a : Fin 64) (b o : Fin 128) :
    shapeCast S64x128x128 y h (ix3 a b o) = y (ix2 (flat a b) o) :=
  shapeCast_apply y h _ _ (by
    rw [Shape.rowMajor_val_three, Shape.rowMajor_val_two]
    show (flat a b).val * 128 + o.val = (a.val * 128 + b.val) * 128 + o.val
    rfl)

/-- A per-row statistic given a trailing unit axis reads, at `(a, b, 0)`, the statistic at `(a, b)`. -/
theorem cast_unit_apply (v : S64x128.Idx → α) (h : S64x128.ShapeCasts S64x128x1) (a : Fin 64) (b : Fin 128) (z : Fin 1) :
    shapeCast S64x128x1 v h (ix3 a b z) = v (ix2 a b) :=
  shapeCast_apply v h _ _ (by
    rw [Shape.rowMajor_val_three, Shape.rowMajor_val_two]
    show a.val * 128 + b.val = (a.val * 128 + b.val) * 1 + z.val
    omega)

/-- The per-row statistic spread over the channels. -/
theorem bcast_row_apply (v : S64x128x1.Idx → α) (h : S64x128x1.Broadcasts S64x128x128) (a : Fin 64) (b k : Fin 128) :
    broadcastTo S64x128x128 v h (ix3 a b k) = v (ix3 a b 0) :=
  broadcastTo_apply v h _ _ (fun c => by
    match c with
    | ⟨0, _⟩ => rfl
    | ⟨1, _⟩ => rfl
    | ⟨2, _⟩ => rfl)

/-- A channel vector as a [1,1,128] block. -/
theorem cast_lane_apply (v : S128.Idx → α) (h : S128.ShapeCasts S1x1x128) (k : Fin 128) :
    shapeCast S1x1x128 v h (ix3 0 0 k) = v (ix1 k) :=
  shapeCast_apply v h _ _ (by
    rw [Shape.rowMajor_val_three, Shape.rowMajor_val_one]
    show k.val = (0 * 1 + 0) * 128 + k.val
    omega)

/-- The channel vector spread over the block. -/
theorem bcast_lane_apply (u : S1x1x128.Idx → α) (h : S1x1x128.Broadcasts S64x128x128) (a : Fin 64) (b k : Fin 128) :
    broadcastTo S64x128x128 u h (ix3 a b k) = u (ix3 0 0 k) :=
  broadcastTo_apply u h _ _ (fun c => by
    match c with
    | ⟨0, _⟩ => rfl
    | ⟨1, _⟩ => rfl
    | ⟨2, _⟩ => rfl)

/-! The coordinates of a reduction's lifted index and of the product's operand indices, one literal axis at a time. -/

theorem lift_lane_0 (h : S64x128x128.Reduces [2] S64x128) (j : S64x128.Idx) (k : Fin (S64x128x128.size 2)) :
    (h.lift j k 0).val = (j 0).val := by
  rw [h.lift_val]; unfold Shape.Reduces.liftVal; rw [dif_neg (by decide), dif_pos (by decide)]; rfl
theorem lift_lane_1 (h : S64x128x128.Reduces [2] S64x128) (j : S64x128.Idx) (k : Fin (S64x128x128.size 2)) :
    (h.lift j k 1).val = (j 1).val := by
  rw [h.lift_val]; unfold Shape.Reduces.liftVal; rw [dif_neg (by decide), dif_pos (by decide)]; rfl
theorem lift_lane_2 (h : S64x128x128.Reduces [2] S64x128) (j : S64x128.Idx) (k : Fin (S64x128x128.size 2)) :
    (h.lift j k 2).val = k.val := by
  rw [h.lift_val]; unfold Shape.Reduces.liftVal; rw [dif_pos (by decide)]
theorem lift_mid_0 (h : S64x128x128.Reduces [1] S64x128) (j : S64x128.Idx) (k : Fin (S64x128x128.size 1)) :
    (h.lift j k 0).val = (j 0).val := by
  rw [h.lift_val]; unfold Shape.Reduces.liftVal; rw [dif_neg (by decide), dif_pos (by decide)]; rfl
theorem lift_mid_1 (h : S64x128x128.Reduces [1] S64x128) (j : S64x128.Idx) (k : Fin (S64x128x128.size 1)) :
    (h.lift j k 1).val = k.val := by
  rw [h.lift_val]; unfold Shape.Reduces.liftVal; rw [dif_pos (by decide)]
theorem lift_mid_2 (h : S64x128x128.Reduces [1] S64x128) (j : S64x128.Idx) (k : Fin (S64x128x128.size 1)) :
    (h.lift j k 2).val = (j 1).val := by
  rw [h.lift_val]; unfold Shape.Reduces.liftVal; rw [dif_neg (by decide), dif_neg (by decide)]; rfl

/-- The sum over the channel axis, at `(a, b)`. -/
theorem sum_lane_apply (x : FVec Ideal S64x128x128 .f32) (h : S64x128x128.Reduces [2] S64x128)
    (hφ : FTy.f32 = FTy.f32 ∨ FTy.f32 = FTy.bf16) (hacc : (0x00000000#32 : BitVec 32) = 0x00000000#32) (a : Fin 64) (b : Fin 128) :
    multiReduction .add [2] S64x128 x 0x00000000#32 h hφ hacc (ix2 a b) = ∑ k : Fin 128, x (ix3 a b k) := by
  refine (Ideal.multiReduction_add_single x 0x00000000#32 h hφ hacc (ix2 a b)).trans ?_
  refine Finset.sum_congr rfl fun k _ => congrArg x (funext fun c => Fin.ext ?_)
  match c with
  | ⟨0, _⟩ => exact lift_lane_0 h _ k
  | ⟨1, _⟩ => exact lift_lane_1 h _ k
  | ⟨2, _⟩ => exact lift_lane_2 h _ k

/-- The sum over the block's second axis, at `(a, o)`. -/
theorem sum_mid_apply (x : FVec Ideal S64x128x128 .f32) (h : S64x128x128.Reduces [1] S64x128)
    (hφ : FTy.f32 = FTy.f32 ∨ FTy.f32 = FTy.bf16) (hacc : (0x00000000#32 : BitVec 32) = 0x00000000#32) (a : Fin 64) (o : Fin 128) :
    multiReduction .add [1] S64x128 x 0x00000000#32 h hφ hacc (ix2 a o) = ∑ b : Fin 128, x (ix3 a b o) := by
  refine (Ideal.multiReduction_add_single x 0x00000000#32 h hφ hacc (ix2 a o)).trans ?_
  refine Finset.sum_congr rfl fun k _ => congrArg x (funext fun c => Fin.ext ?_)
  match c with
  | ⟨0, _⟩ => exact lift_mid_0 h _ k
  | ⟨1, _⟩ => exact lift_mid_1 h _ k
  | ⟨2, _⟩ => exact lift_mid_2 h _ k

/-- The two sums with the accumulator's side conditions spelt as the programs print them. -/
theorem sum_lane_apply' (x : FVec Ideal S64x128x128 .f32) (h : S64x128x128.Reduces [2] S64x128) (a : Fin 64) (b : Fin 128) :
    multiReduction .add [2] S64x128 x 0x00000000#32 h (.inl rfl) rfl (ix2 a b) = ∑ k : Fin 128, x (ix3 a b k) :=
  sum_lane_apply x h _ _ a b
theorem sum_mid_apply' (x : FVec Ideal S64x128x128 .f32) (h : S64x128x128.Reduces [1] S64x128) (a : Fin 64) (o : Fin 128) :
    multiReduction .add [1] S64x128 x 0x00000000#32 h (.inl rfl) rfl (ix2 a o) = ∑ b : Fin 128, x (ix3 a b o) :=
  sum_mid_apply x h _ _ a o

theorem mm_lhs_0 (i : S8192x128.Idx) (q : dot_S8192x128_S128x128_S8192x128_1_0_0_1_n_n.contr.Idx) : (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide),
    dif_pos (show (0 : Fin S8192x128.rank) ∈ dot_S8192x128_S128x128_S8192x128_1_0_0_1_n_n.lhsNonContracting by decide)]
  rfl
theorem mm_lhs_1 (i : S8192x128.Idx) (q : dot_S8192x128_S128x128_S8192x128_1_0_0_1_n_n.contr.Idx) : (dot_S8192x128_S128x128_S8192x128_1_0_0_1_n_n.lhsIdx i q 1).val = (q ⟨0, by decide⟩).val :=
  DotDims.lhsIdx_val_of_single _ (cl := 1) rfl _ _
theorem mm_rhs_0 (i : S8192x128.Idx) (q : dot_S8192x128_S128x128_S8192x128_1_0_0_1_n_n.contr.Idx) : (dot_S8192x128_S128x128_S8192x128_1_0_0_1_n_n.rhsIdx i q 0).val = (q ⟨0, by decide⟩).val :=
  DotDims.rhsIdx_val_of_single _ (cr := 0) rfl _ _
theorem mm_rhs_1 (i : S8192x128.Idx) (q : dot_S8192x128_S128x128_S8192x128_1_0_0_1_n_n.contr.Idx) : (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide),
    dif_pos (show (1 : Fin S128x128.rank) ∈ dot_S8192x128_S128x128_S8192x128_1_0_0_1_n_n.rhsNonContracting by decide)]
  rfl

/-- The block product into a zero accumulator, at row `r` and column `o`: the sum over the contracted axis. -/
theorem mm_apply (x : FVec Ideal S8192x128 .bf16) (w : FVec Ideal S128x128 .bf16) (r : Fin 8192) (o : Fin 128) :
    matmul dot_S8192x128_S128x128_S8192x128_1_0_0_1_n_n none x w (constant S8192x128 .f32 0x00000000#32) (ix2 r o)
      = ∑ k : Fin 128, x (ix2 r k) * w (ix2 k o) := by
  refine (Ideal.matmul_constant_zero_apply dot_S8192x128_S128x128_S8192x128_1_0_0_1_n_n none x w (ix2 r o)).trans ?_
  rw [← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 r o) ((contrEquiv1 dot_S8192x128_S128x128_S8192x128_1_0_0_1_n_n 128 rfl rfl).symm k) = ix2 r k :=
    funext fun c => Fin.ext (by
      match c with
      | ⟨0, _⟩ => exact mm_lhs_0 _ _
      | ⟨1, _⟩ => exact (mm_lhs_1 _ _).trans hk)
  have er : dot_S8192x128_S128x128_S8192x128_1_0_0_1_n_n.rhsIdx (ix2 r o) ((contrEquiv1 dot_S8192x128_S128x128_S8192x128_1_0_0_1_n_n 128 rfl rfl).symm k) = ix2 k o :=
    funext fun c => Fin.ext (by
      match c with
      | ⟨0, _⟩ => exact (mm_rhs_0 _ _).trans hk
      | ⟨1, _⟩ => exact mm_rhs_1 _ _)
  rw [el, er]

/-! Two pointwise operations at an index. -/
theorem rsqrt_apply' {s : Shape} (x : FVec Ideal s .f32) (i : s.Idx) : rsqrt x i = Ideal.rsqrt (x i) := rfl
theorem logistic_apply' {s : Shape} (x : FVec Ideal s .f32) (i : s.Idx) : logistic x i = Ideal.logistic (x i) := rfl

end Cert.KernelIdeal.Hand

end
-- ==== Proof.KI.Pay0.lean ====
/-
  Region 0's payloads read at an index, at the ideal instance, in the specification's words: the projected row
  (layer norm over the channels, then the linear layer whose weight block holds the transpose), the zero block the
  first point stores, and the accumulator's update (the gate's logistic of a second linear layer times the row,
  summed over the block's second axis, added to what the accumulator held).
-/
import proofs.«151578_j65635690217487_1_alg».proof.Proof.KI.PayLemmas

noncomputable section

open scoped BigOperators

namespace Cert.KernelIdeal.Hand

open Cert.KernelIdeal Cert.KernelIdeal.Gen
open Idealize.ShloMosaic Idealize.ShloMosaic.ValueIdx

/-- The projected row at `(a, b)` and channel `o`. -/
theorem k0_pay3_apply (v3 : FVec Ideal S64x128x128 .f32) (v4 v5 : FVec Ideal S128 .f32) (v30 : FVec Ideal S128x128 .f32)
    (v32 : FVec Ideal S128 .f32) (a : Fin 64) (b o : Fin 128) :
    k0_pay3 (F := Ideal) v3 v4 v5 v30 v32 (ix3 a b o)
      = Cert.Spec.lin (Cert.Spec.matT v30) (Cert.Spec.row v32)
          (Cert.Spec.ln (Cert.Spec.row v4) (Cert.Spec.row v5) (fun k => v3 (ix3 a b k))) o := by
  unfold k0_pay3
  simp only [addf_apply, mulf_apply, subf_apply, divf_apply, rsqrt_apply', logistic_apply', truncf_apply, broadcast_apply,
    cast_fold_apply, cast_flat_apply, cast_unit_apply, bcast_row_apply, cast_lane_apply, bcast_lane_apply, shapeCast_self,
    sum_lane_apply, sum_mid_apply, mm_apply]
  rw [sum_lane_apply v3 reduces_S64x128x128_S64x128 (.inl rfl) rfl a b]
  rw [sum_lane_apply _ reduces_S64x128x128_S64x128 (.inl rfl) rfl a b]
  simp only [addf_apply, mulf_apply, subf_apply, divf_apply, rsqrt_apply', logistic_apply', truncf_apply, broadcast_apply,
    cast_fold_apply, cast_flat_apply, cast_unit_apply, bcast_row_apply, cast_lane_apply, bcast_lane_apply, shapeCast_self,
    sum_lane_apply, sum_mid_apply, mm_apply]
  rw [sum_lane_apply v3 reduces_S64x128x128_S64x128 (.inl rfl) rfl a b]
  simp only [Cert.Spec.lin, Cert.Spec.ln, Cert.Spec.mean, Cert.Spec.matT, Cert.Spec.row, Cert.Spec.eps, Cert.Spec.n128, Ideal.ofBits_def]

/-- The block the first point of a row stores into the accumulator is zero. -/
theorem k0_pay2_apply (a : Fin 64) (o : Fin 128) : k0_pay2 (F := Ideal) (ix2 a o) = 0 := by
  unfold k0_pay2
  simp only [shapeCast_self, broadcast_apply]
  exact Ideal.ofBits_zero_f32

/-- The accumulator's update at `(a, o)`: what it held plus the sum over the block's second axis of the gated rows. -/
theorem k0_pay1_apply (v40 : FVec Ideal S64x128x128 .f32) (v41 : FVec Ideal S128x128 .f32) (v43 : FVec Ideal S128 .f32)
    (v54 : FVec Ideal S64x128 .f32) (a : Fin 64) (o : Fin 128) :
    k0_pay1 (F := Ideal) v40 v41 v43 v54 (ix2 a o)
      = v54 (ix2 a o) + ∑ b : Fin 128, Cert.Spec.gated (Cert.Spec.matT v41) (Cert.Spec.row v43) (fun o' => v40 (ix3 a b o')) o := by
  unfold k0_pay1
  simp only [addf_apply, mulf_apply, subf_apply, divf_apply, rsqrt_apply', logistic_apply', truncf_apply, broadcast_apply,
    cast_fold_apply, cast_flat_apply, cast_unit_apply, bcast_row_apply, cast_lane_apply, bcast_lane_apply, shapeCast_self,
    sum_lane_apply, sum_mid_apply, mm_apply]
  rw [sum_mid_apply _ reduces_S64x128x128_S64x128_2 (.inl rfl) rfl a o]
  simp only [addf_apply, mulf_apply, subf_apply, divf_apply, rsqrt_apply', logistic_apply', truncf_apply, broadcast_apply,
    cast_fold_apply, cast_flat_apply, cast_unit_apply, bcast_row_apply, cast_lane_apply, bcast_lane_apply, shapeCast_self,
    sum_lane_apply, sum_mid_apply, mm_apply]
  simp only [Cert.Spec.gated, Cert.Spec.lin, Cert.Spec.matT, Cert.Spec.row]

end Cert.KernelIdeal.Hand

end
-- ==== Proof.KI.Acc0.lean ====
import proofs.«151578_j65635690217487_1_alg».proof.Proof.KI.R0Cases
import proofs.«151578_j65635690217487_1_alg».proof.Proof.Spec
import proofs.«151578_j65635690217487_1_alg».proof.Proof.KI.Pay0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! # Region 0 at the extended reals: the accumulator after a row of the grid

One grid point adds to the accumulator, at row `a` and channel `o`, the sum over the block's 128 positions `b` of the
gated projection of the normed row `p[a, b, ·]`. After the four points of a row of the grid the accumulator holds the sum
of the four contributions (the first on top of the zero block), and the output window's staging buffer gets the same. -/

variable (V : (c : Dev nD) → (b : Ref sig .tc) → Buf (Elt Ideal) ((c : Thread nD τ).loc b))

/-- What one grid point adds to the accumulator at row `a`, channel `o`. -/
def contrib0 (c : Dev nD) (t : Fin cfg0.N) (a : Fin 64) (o : Fin 128) : EReal :=
  ∑ b : Fin 128, Cert.Spec.gated (Cert.Spec.matT (iblk0 V c 5 t)) (Cert.Spec.row (iblk0 V c 6 t))
      (Cert.Spec.lin (Cert.Spec.matT (iblk0 V c 3 t)) (Cert.Spec.row (iblk0 V c 4 t))
        (Cert.Spec.ln (Cert.Spec.row (iblk0 V c 1 t)) (Cert.Spec.row (iblk0 V c 2 t)) (fun k => iblk0 V c 0 t (ix3 a b k)))) o

/-- The same over blocks given as plain vectors. -/
def contribOf (x0 : FVec Ideal S64x128x128 .f32) (x1 x2 : FVec Ideal S128 .f32) (x3 : FVec Ideal S128x128 .f32)
    (x4 : FVec Ideal S128 .f32) (x5 : FVec Ideal S128x128 .f32) (x6 : FVec Ideal S128 .f32) (a : Fin 64) (o : Fin 128) : EReal :=
  ∑ b : Fin 128, Cert.Spec.gated (Cert.Spec.matT x5) (Cert.Spec.row x6)
      (Cert.Spec.lin (Cert.Spec.matT x3) (Cert.Spec.row x4)
        (Cert.Spec.ln (Cert.Spec.row x1) (Cert.Spec.row x2) (fun k => x0 (ix3 a b k)))) o

theorem contrib0_eq (c : Dev nD) (t : Fin cfg0.N) (a : Fin 64) (o : Fin 128) :
    contrib0 V c t a o = contribOf (iblk0 V c 0 t) (iblk0 V c 1 t) (iblk0 V c 2 t) (iblk0 V c 3 t) (iblk0 V c 4 t) (iblk0 V c 5 t) (iblk0 V c 6 t) a o := rfl

/-- One point's step at an index: what the accumulator held plus the point's contribution. -/
theorem step_apply (x0 : FVec Ideal S64x128x128 .f32) (x1 x2 : FVec Ideal S128 .f32) (x3 : FVec Ideal S128x128 .f32)
    (x4 : FVec Ideal S128 .f32) (x5 : FVec Ideal S128x128 .f32) (x6 : FVec Ideal S128 .f32) (acc : FVec Ideal S64x128 .f32)
    (a : Fin 64) (o : Fin 128) :
    step0 (F := Ideal) x0 x1 x2 x3 x4 x5 x6 acc (ix2 a o) = acc (ix2 a o) + contribOf x0 x1 x2 x3 x4 x5 x6 a o := by
  show k0_pay1 (F := Ideal) (k0_pay3 (F := Ideal) x0 x1 x2 x3 x4) x5 x6 acc (ix2 a o) = _
  rw [k0_pay1_apply]
  unfold contribOf
  congr 1
  refine Finset.sum_congr rfl fun b _ => ?_
  have e : (fun o' => k0_pay3 (F := Ideal) x0 x1 x2 x3 x4 (ix3 a b o'))
      = Cert.Spec.lin (Cert.Spec.matT x3) (Cert.Spec.row x4) (Cert.Spec.ln (Cert.Spec.row x1) (Cert.Spec.row x2) (fun k => x0 (ix3 a b k))) :=
    funext fun o' => k0_pay3_apply x0 x1 x2 x3 x4 a b o'
  rw [e]

/-- A point's contribution by its position, zero past the grid: a total function of the position. -/
def contribN (c : Dev nD) (a : Fin 64) (o : Fin 128) (k : ℕ) : EReal :=
  if h : k < cfg0.N then contrib0 V c ⟨k, h⟩ a o else 0

theorem contribN_eq (c : Dev nD) (a : Fin 64) (o : Fin 128) (k : ℕ) (h : k < cfg0.N) :
    contrib0 V c ⟨k, h⟩ a o = contribN V c a o k := by
  unfold contribN; rw [dif_pos h]

/-- After the four points `m, m+1, m+2, m+3` of a row of the grid the accumulator holds the four contributions' sum. -/
theorem acc0_row_aux (c : Dev nD) (m : ℕ) (hm : m + 1 + 1 + 1 < cfg0.N) (h0 : m % 4 = 0) (a : Fin 64) (o : Fin 128) :
    (outsAt0 (F := Ideal) V c (m + 1 + 1 + 1) hm).2 (ix2 a o)
      = contribN V c a o m + contribN V c a o (m + 1) + contribN V c a o (m + 1 + 1) + contribN V c a o (m + 1 + 1 + 1) := by
  have h2 : m + 1 + 1 < cfg0.N := Nat.lt_of_succ_lt hm
  have h1 : m + 1 < cfg0.N := Nat.lt_of_succ_lt h2
  have hm0 : m < cfg0.N := Nat.lt_of_succ_lt h1
  have e3 := (congrFun (acc_succ V c (m + 1 + 1) hm (by omega)) (ix2 a o)).trans (step_apply _ _ _ _ _ _ _ _ a o)
  have e2 := (congrFun (acc_succ V c (m + 1) h2 (by omega)) (ix2 a o)).trans (step_apply _ _ _ _ _ _ _ _ a o)
  have e1 := (congrFun (acc_succ V c m h1 (by omega)) (ix2 a o)).trans (step_apply _ _ _ _ _ _ _ _ a o)
  have e0 := (congrFun (acc_first V c ⟨m, hm0⟩ h0) (ix2 a o)).trans (step_apply _ _ _ _ _ _ _ _ a o)
  rw [k0_pay2_apply, zero_add] at e0
  rw [← contrib0_eq, contribN_eq] at e0 e1 e2 e3
  rw [e3, e2, e1]
  exact congrArg (fun x => x + contribN V c a o (m + 1) + contribN V c a o (m + 1 + 1) + contribN V c a o (m + 1 + 1 + 1)) e0

/-- THE ROW: at a row's last point the accumulator holds the sum of the row's four contributions. -/
theorem acc0_row (c : Dev nD) (t : Fin cfg0.N) (h3 : t.val % 4 = 3) (a : Fin 64) (o : Fin 128) :
    (outsAt0 (F := Ideal) V c t.val t.isLt).2 (ix2 a o)
      = ∑ j' : Fin 4, contrib0 V c ⟨4 * (t.val / 4) + j'.val, by have := t.isLt; have : cfg0.N = 32 := N_0; have := j'.isLt; omega⟩ a o := by
  have hN : cfg0.N = 32 := N_0
  obtain ⟨n, hn⟩ := t
  dsimp only at h3 ⊢
  obtain ⟨m, rfl⟩ : ∃ m, n = m + 1 + 1 + 1 := ⟨n - 3, by omega⟩
  have h0 : m % 4 = 0 := by omega
  rw [acc0_row_aux V c m hn h0 a o]
  simp only [contribN_eq]
  rw [Fin.sum_univ_four]
  have hq : 4 * ((m + 1 + 1 + 1) / 4) = m := by omega
  show _ = contribN V c a o (4 * ((m + 1 + 1 + 1) / 4) + 0) + contribN V c a o (4 * ((m + 1 + 1 + 1) / 4) + 1)
      + contribN V c a o (4 * ((m + 1 + 1 + 1) / 4) + 2) + contribN V c a o (4 * ((m + 1 + 1 + 1) / 4) + 3)
  rw [hq]
  rfl

/-- At a row's last point the output window's staging buffer gets the accumulator's contents. -/
theorem out0_flush (c : Dev nD) (t : Fin cfg0.N) (h3 : t.val % 4 = 3) :
    (outsAt0 (F := Ideal) V c t.val t.isLt).1 = (outsAt0 (F := Ideal) V c t.val t.isLt).2 :=
  out_last V c t h3

end Cert.KernelIdeal.Hand

end
-- ==== Proof.KI.Value0.lean ====
/- Region 0 at the ideal instance: the array its output window leaves is the specification's left plane of the
   region's operands. Point t = 4·i + j of the grid reads block (i, j) of the cube — rows 64·i … 64·i+63, columns 128·j … 128·j+127 —
   and adds, into an accumulator that lives across the four points of a row block, the sum over the block's columns of
   the gated projections; the last point of the four copies the accumulator out and only that point writes back. So
   row r of the result is the sum over the four column blocks, and over the 128 columns of each, which is the sum over
   all 512 columns. -/
import proofs.«151578_j65635690217487_1_alg».proof.Proof.KI.Region0
import proofs.«151578_j65635690217487_1_alg».proof.Proof.Spec
import proofs.«151578_j65635690217487_1_alg».proof.Proof.KI.Acc0
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

theorem hz0_2 : (![0, 0] : Fin 2 → Nat) = fun _ => 0 := funext fun a => by fin_cases a <;> rfl

/-- The printed index maps, decided once over the 32 points: at point t = 4·i + j the cube's window is at block (i, j),
    the output's at row block i. -/
theorem idx_facts0 : ∀ t : Fin cfg0.N,
    win0_0.index t (0 : Fin 3) = t.val / 4 ∧ win0_0.index t (1 : Fin 3) = t.val % 4 ∧ win0_0.index t (2 : Fin 3) = 0
    ∧ win0_7.index t (0 : Fin 2) = t.val / 4 ∧ win0_7.index t (1 : Fin 2) = 0 :=
  (by decide +kernel : ∀ t : Fin grid0.N, _)

/-- The six small operands are whole: block index 0 on every axis (the second fact of a rank-1 window is a filler). -/
theorem idx_small0_1 : ∀ t : Fin cfg0.N, win0_1.index t (0 : Fin 1) = 0 ∧ True := (by decide +kernel : ∀ t : Fin grid0.N, _)
theorem idx_small0_2 : ∀ t : Fin cfg0.N, win0_2.index t (0 : Fin 1) = 0 ∧ True := (by decide +kernel : ∀ t : Fin grid0.N, _)
theorem idx_small0_3 : ∀ t : Fin cfg0.N, win0_3.index t (0 : Fin 2) = 0 ∧ win0_3.index t (1 : Fin 2) = 0 := (by decide +kernel : ∀ t : Fin grid0.N, _)
theorem idx_small0_4 : ∀ t : Fin cfg0.N, win0_4.index t (0 : Fin 1) = 0 ∧ True := (by decide +kernel : ∀ t : Fin grid0.N, _)
theorem idx_small0_5 : ∀ t : Fin cfg0.N, win0_5.index t (0 : Fin 2) = 0 ∧ win0_5.index t (1 : Fin 2) = 0 := (by decide +kernel : ∀ t : Fin grid0.N, _)
theorem idx_small0_6 : ∀ t : Fin cfg0.N, win0_6.index t (0 : Fin 1) = 0 ∧ True := (by decide +kernel : ∀ t : Fin grid0.N, _)

section Blocks0
variable {F : FTy → Type} [FloatOps F]
variable (V : (c : Dev nD) → (b : Ref sig .tc) → Buf (Elt F) ((c : Thread nD τ).loc b))

/-- The cube's block at point t is its rows 64·(t/4) … and columns 128·(t%4) …. -/
theorem iblk0_0_apply (c : Dev nD) (t : Fin cfg0.N) (a : Fin 64) (b k : Fin 128) (r q : Fin 512)
    (hr : r.val = 64 * (t.val / 4) + a.val) (hq : q.val = t.val % 4 * 128 + b.val) :
    (iblk0 V c 0 t : Vec F S64x128x128 .f32) (ix3 a b k) = (V c main_arg1 : S512x512x128.Idx → Elt F .f32) (ix3 r q k) := by
  obtain ⟨e0, e1, e2, -⟩ := idx_facts0 t
  unfold iblk0
  rw [View.read_apply]
  show V c main_arg1 _ = V c main_arg1 _
  congr 1
  funext d
  apply Fin.ext
  match d with
  | ⟨0, _⟩ => show win0_0.index t 0 * 64 + 1 * a.val = r.val; rw [e0, hr]; omega
  | ⟨1, _⟩ => show win0_0.index t 1 * 128 + 1 * b.val = q.val; rw [e1, hq]; omega
  | ⟨2, _⟩ => show win0_0.index t 2 * 128 + 1 * k.val = k.val; rw [e2]; omega

/-- The small operands' blocks are the whole arrays. -/
theorem iblk0_1_eq (c : Dev nD) (t : Fin cfg0.N) : (iblk0 V c 1 t : Vec F S128 .f32) = V c main_arg13 := by
  obtain ⟨e0, e1⟩ := idx_small0_1 t
  funext j
  unfold iblk0
  rw [View.read_apply]
  show V c main_arg13 _ = V c main_arg13 j
  congr 1
  funext d
  apply Fin.ext
  match d with
  | ⟨0, _⟩ => show win0_1.index t 0 * 128 + 1 * (j 0).val = (j 0).val; rw [e0]; omega

theorem iblk0_2_eq (c : Dev nD) (t : Fin cfg0.N) : (iblk0 V c 2 t : Vec F S128 .f32) = V c main_arg14 := by
  obtain ⟨e0, e1⟩ := idx_small0_2 t
  funext j
  unfold iblk0
  rw [View.read_apply]
  show V c main_arg14 _ = V c main_arg14 j
  congr 1
  funext d
  apply Fin.ext
  match d with
  | ⟨0, _⟩ => show win0_2.index t 0 * 128 + 1 * (j 0).val = (j 0).val; rw [e0]; omega

theorem iblk0_3_eq (c : Dev nD) (t : Fin cfg0.N) : (iblk0 V c 3 t : Vec F S128x128 .f32) = V c main_v0 := by
  obtain ⟨e0, e1⟩ := idx_small0_3 t
  funext j
  unfold iblk0
  rw [View.read_apply]
  show V c main_v0 _ = V c main_v0 j
  congr 1
  funext d
  apply Fin.ext
  match d with
  | ⟨0, _⟩ => show win0_3.index t 0 * 128 + 1 * (j 0).val = (j 0).val; rw [e0]; omega
  | ⟨1, _⟩ => show win0_3.index t 1 * 128 + 1 * (j 1).val = (j 1).val; rw [e1]; omega

theorem iblk0_4_eq (c : Dev nD) (t : Fin cfg0.N) : (iblk0 V c 4 t : Vec F S128 .f32) = V c main_arg4 := by
  obtain ⟨e0, e1⟩ := idx_small0_4 t
  funext j
  unfold iblk0
  rw [View.read_apply]
  show V c main_arg4 _ = V c main_arg4 j
  congr 1
  funext d
  apply Fin.ext
  match d with
  | ⟨0, _⟩ => show win0_4.index t 0 * 128 + 1 * (j 0).val = (j 0).val; rw [e0]; omega

theorem iblk0_5_eq (c : Dev nD) (t : Fin cfg0.N) : (iblk0 V c 5 t : Vec F S128x128 .f32) = V c main_v1 := by
  obtain ⟨e0, e1⟩ := idx_small0_5 t
  funext j
  unfold iblk0
  rw [View.read_apply]
  show V c main_v1 _ = V c main_v1 j
  congr 1
  funext d
  apply Fin.ext
  match d with
  | ⟨0, _⟩ => show win0_5.index t 0 * 128 + 1 * (j 0).val = (j 0).val; rw [e0]; omega
  | ⟨1, _⟩ => show win0_5.index t 1 * 128 + 1 * (j 1).val = (j 1).val; rw [e1]; omega

theorem iblk0_6_eq (c : Dev nD) (t : Fin cfg0.N) : (iblk0 V c 6 t : Vec F S128 .f32) = V c main_arg8 := by
  obtain ⟨e0, e1⟩ := idx_small0_6 t
  funext j
  unfold iblk0
  rw [View.read_apply]
  show V c main_arg8 _ = V c main_arg8 j
  congr 1
  funext d
  apply Fin.ext
  match d with
  | ⟨0, _⟩ => show win0_6.index t 0 * 128 + 1 * (j 0).val = (j 0).val; rw [e0]; omega

/-- A block of the output window, given entry by entry, is the block at point t of a whole-array function that has
    those entries at rows 64·(t/4)+a. -/
theorem blk0_7_read (c : Dev nD) (t : Fin cfg0.N) (P : Vec F S64x128 .f32) (G : S512x128.Idx → Elt F .f32)
    (h : ∀ (a : Fin 64) (o : Fin 128) (r : Fin 512), r.val = 64 * (t.val / 4) + a.val → P (ix2 a o) = G (ix2 r o)) :
    (cfg0.win 7).cut (grid0.coords t) P = ((cfg0.win 7).blk t).view.read (Elt F) G := by
  obtain ⟨-, -, -, e0, e1⟩ := idx_facts0 t
  have hN : cfg0.N = 32 := N_0
  have ht : t.val < 32 := hN ▸ t.isLt
  funext j
  show P j = G (((cfg0.win 7).blk t).view.emb j)
  have hj0 : (j 0).val < 64 := (j 0).isLt
  refine (congrArg P (eq_ix2 j)).trans ((h (j 0) (j 1) ⟨64 * (t.val / 4) + (j 0).val, by omega⟩ rfl).trans (congrArg G ?_))
  funext d
  apply Fin.ext
  match d with
  | ⟨0, _⟩ => show 64 * (t.val / 4) + (j 0).val = win0_7.index t 0 * 64 + 1 * (j 0).val; rw [e0]; omega
  | ⟨1, _⟩ => show (j 1).val = win0_7.index t 1 * 128 + 1 * (j 1).val; rw [e1]; omega

/-- The output's blocks at the points that write back tile the array: row r is in the block of point 4·(r/64) + 3. -/
theorem cover0 (i : S512x128.Idx) :
    ∃ t : Fin cfg0.N, (cfg0.win 7).flush t = true ∧ i ∈ ((cfg0.win 7).blk t).view.set := by
  have h0 : (i 0).val < 512 := (i 0).isLt
  have h1 : (i 1).val < 128 := (i 1).isLt
  have hN : cfg0.N = 32 := N_0
  have ht : 4 * ((i 0).val / 64) + 3 < cfg0.N := by rw [hN]; omega
  obtain ⟨t, hv⟩ : ∃ t : Fin cfg0.N, t.val = 4 * ((i 0).val / 64) + 3 := ⟨⟨_, ht⟩, rfl⟩
  obtain ⟨-, -, -, e0, e1⟩ := idx_facts0 t
  refine ⟨t, (flush0_7 t).mpr (by rw [hv]; omega), ?_⟩
  show i ∈ ((View.whole main_v5).slice (win0_7.rect t)).set
  rw [View.set_slice_whole, Rect.mem_set_unit]
  intro a
  match a with
  | ⟨0, _⟩ =>
    show win0_7.index t 0 * 64 ≤ (i 0).val ∧ (i 0).val < win0_7.index t 0 * 64 + 64
    rw [e0, hv]; omega
  | ⟨1, _⟩ =>
    show win0_7.index t 1 * 128 ≤ (i 1).val ∧ (i 1).val < win0_7.index t 1 * 128 + 128
    rw [e1]; omega

end Blocks0

/-! ## The result array -/

section Value0
variable (V : (c : Dev nD) → (b : Ref sig .tc) → Buf (Elt Ideal) ((c : Thread nD τ).loc b))

/-- What the region leaves in its output array: the specification's left plane of the cube, the layer norm's weight
    and bias, and the two linear layers' weights (held transposed) and biases, as the region finds them. -/
abbrev G0 (c : Dev nD) : S512x128.Idx → EReal :=
  Cert.Spec.ofPlane (Cert.Spec.zl (Cert.Spec.cube (V c main_arg1)) (Cert.Spec.row (V c main_arg13)) (Cert.Spec.row (V c main_arg14))
    (Cert.Spec.matT (V c main_v0)) (Cert.Spec.row (V c main_arg4)) (Cert.Spec.matT (V c main_v1)) (Cert.Spec.row (V c main_arg8)))

/-- One point's contribution to row a of its row block, in the arrays' own coordinates: the sum, over the 128 columns
    of the point's column block jq, of the gated projection of the normed cube row. -/
theorem contrib0_arr (c : Dev nD) (t : Fin cfg0.N) (a : Fin 64) (o : Fin 128) (r : Fin 512) (jq : Fin 4)
    (hr : r.val = 64 * (t.val / 4) + a.val) (hj : t.val % 4 = jq.val) :
    contrib0 V c t a o
      = ∑ b : Fin 128, Cert.Spec.gated (Cert.Spec.matT (V c main_v1)) (Cert.Spec.row (V c main_arg8))
          (Cert.Spec.lin (Cert.Spec.matT (V c main_v0)) (Cert.Spec.row (V c main_arg4))
            (Cert.Spec.ln (Cert.Spec.row (V c main_arg13)) (Cert.Spec.row (V c main_arg14))
              (Cert.Spec.cube (V c main_arg1) r ⟨jq.val * 128 + b.val, by have := jq.isLt; have := b.isLt; omega⟩))) o := by
  unfold contrib0
  rw [iblk0_1_eq, iblk0_2_eq, iblk0_3_eq, iblk0_4_eq, iblk0_5_eq, iblk0_6_eq]
  refine Finset.sum_congr rfl fun b _ => ?_
  exact congrArg (fun x : Cert.Spec.Row => Cert.Spec.gated (Cert.Spec.matT (V c main_v1)) (Cert.Spec.row (V c main_arg8))
      (Cert.Spec.lin (Cert.Spec.matT (V c main_v0)) (Cert.Spec.row (V c main_arg4))
        (Cert.Spec.ln (Cert.Spec.row (V c main_arg13)) (Cert.Spec.row (V c main_arg14)) x)) o)
    (funext fun k => iblk0_0_apply V c t a b k r ⟨jq.val * 128 + b.val, by have := jq.isLt; have := b.isLt; omega⟩ hr (by rw [hj]))

/-- What a point that writes back writes is its block of the result. -/
theorem flushed0_eq (c : Dev nD) (t : Fin cfg0.N) (hf : (cfg0.win 7).flush t = true) :
    (dat0 V c).flushed 7 t = ((cfg0.win 7).blk t).view.read (Elt Ideal) (G0 V c) := by
  have h3 : t.val % 4 = 3 := (flush0_7 t).mp hf
  show (cfg0.win 7).cut (grid0.coords t) ((dat0 V c).after 7 t) = _
  rw [after0_7, out0_flush V c t h3]
  refine blk0_7_read (F := Ideal) c t _ (G0 V c) fun a o r hr => ?_
  refine (acc0_row V c t h3 a o).trans ?_
  refine Eq.trans ?_ (Cert.Spec.sum_blocks (fun j : Fin 512 => Cert.Spec.gated (Cert.Spec.matT (V c main_v1)) (Cert.Spec.row (V c main_arg8))
      (Cert.Spec.lin (Cert.Spec.matT (V c main_v0)) (Cert.Spec.row (V c main_arg4))
        (Cert.Spec.ln (Cert.Spec.row (V c main_arg13)) (Cert.Spec.row (V c main_arg14)) (Cert.Spec.cube (V c main_arg1) r j))) o)).symm
  refine Finset.sum_congr rfl fun j' _ => ?_
  have hj' : j'.val < 4 := j'.isLt
  exact contrib0_arr V c _ a o r j'
    (by show r.val = 64 * ((4 * (t.val / 4) + j'.val) / 4) + a.val; omega)
    (by show (4 * (t.val / 4) + j'.val) % 4 = j'.val; omega)

/-- The region's output array after the run is the specification's left plane. -/
theorem value0 (c : Dev nD) :
    (dat0 (F := Ideal) V c).arrAt 7 cfg0.N = Cert.Spec.ofPlane (Cert.Spec.zl (Cert.Spec.cube (V c main_arg1)) (Cert.Spec.row (V c main_arg13)) (Cert.Spec.row (V c main_arg14)) (Cert.Spec.matT (V c main_v0)) (Cert.Spec.row (V c main_arg4)) (Cert.Spec.matT (V c main_v1)) (Cert.Spec.row (V c main_arg8))) :=
  (dat0 V c).arrAt_eq_of_cover 7 (G0 V c) (flushed0_eq V c) cover0

end Value0

end Cert.KernelIdeal.Hand

end
-- ==== Proof.KI.R1Closed.lean ====
import proofs.«151578_j65635690217487_1_alg».proof.Proof.KI.Region1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: what each case leaves, as a payload term of the point's blocks -/

theorem r1_hz1 : (![0] : Fin 1 → Nat) = fun _ => 0 := funext fun a => by fin_cases a <;> rfl
theorem r1_hz2 : (![0, 0] : Fin 2 → Nat) = fun _ => 0 := funext fun a => by fin_cases a <;> rfl
theorem r1_hz3 : (![0, 0, 0] : Fin 3 → Nat) = fun _ => 0 := funext fun a => by fin_cases a <;> rfl

/-- Case B: the accumulator ends at its update by the point's blocks — the one covering store's payload, whose loads
    read the whole buffers. -/
theorem sout1_B_0_eq (c : Dev nD) (i : grid1.Coords) (arg2 : Memref sig .tc .vmem S64x128x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : ¬cond1_1 i)
    (x0 : Vec F S64x128x128 .f32) (x1 : Vec F S64x128 .f32) (x2 : Vec F S128 .f32) (x3 : Vec F S128 .f32) (x4 : Vec F S128x128 .f32) (x5 : Vec F S128 .f32) (x6 : Vec F S128x128 .f32) (x7 : Vec F S128 .f32) (xs0 : Vec F S64x128 .f32) :
    sout1_B_0 c i arg2 harg2 arg3 harg3 arg4 harg4 arg5 harg5 arg6 harg6 arg7 harg7 arg8 harg8 arg9 harg9 arg10 harg10 arg11 harg11 hc0 hc1 x0 x1 x2 x3 x4 x5 x6 x7 xs0 = k1_pay1 (k1_pay3 x0 x2 x3 x4 x5) x1 x6 x7 xs0 := by
  unfold sout1_B_0
  rw [View.read_writes_eq_canon _ _ _ (scover1_B_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun1_B
  dsimp only
  sl_unfold_run_names
  rw [View.canon_unit_zero (S := S64x128) r1_hz2]
  simp only [View.readAt_eq_ld, harg2.read_unread, harg3.read_unread, harg4.read_unread, harg5.read_unread, harg6.read_unread, harg7.read_unread, harg8.read_unread, harg9.read_unread, harg11.read_unread, View.ld_unit_zero (S := S64x128x128) r1_hz3, View.ld_unit_zero (S := S64x128) r1_hz2, View.ld_unit_zero (S := S128x128) r1_hz2, View.ld_unit_zero (S := S128) r1_hz1]

/-- Case C: the accumulator ends at the same update, -/
theorem sout1_C_0_eq (c : Dev nD) (i : grid1.Coords) (arg2 : Memref sig .tc .vmem S64x128x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : cond1_1 i)
    (x0 : Vec F S64x128x128 .f32) (x1 : Vec F S64x128 .f32) (x2 : Vec F S128 .f32) (x3 : Vec F S128 .f32) (x4 : Vec F S128x128 .f32) (x5 : Vec F S128 .f32) (x6 : Vec F S128x128 .f32) (x7 : Vec F S128 .f32) (xs0 : Vec F S64x128 .f32) :
    sout1_C_0 c i arg2 harg2 arg3 harg3 arg4 harg4 arg5 harg5 arg6 harg6 arg7 harg7 arg8 harg8 arg9 harg9 arg10 harg10 arg11 harg11 hc0 hc1 x0 x1 x2 x3 x4 x5 x6 x7 xs0 = k1_pay1 (k1_pay3 x0 x2 x3 x4 x5) x1 x6 x7 xs0 := by
  unfold sout1_C_0
  rw [View.read_writes_eq_canon _ _ _ (scover1_C_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun1_C
  dsimp only
  sl_unfold_run_names
  rw [View.canon_unit_zero (S := S64x128) r1_hz2]
  simp only [View.readAt_eq_ld, harg2.read_unread, harg3.read_unread, harg4.read_unread, harg5.read_unread, harg6.read_unread, harg7.read_unread, harg8.read_unread, harg9.read_unread, harg11.read_unread, View.ld_unit_zero (S := S64x128x128) r1_hz3, View.ld_unit_zero (S := S64x128) r1_hz2, View.ld_unit_zero (S := S128x128) r1_hz2, View.ld_unit_zero (S := S128) r1_hz1]

/-- and output 8's staging buffer holds a copy of it (the accumulator read back after its store). -/
theorem out1_C_8_eq (c : Dev nD) (i : grid1.Coords) (arg2 : Memref sig .tc .vmem S64x128x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (hc0 : ¬cond1_0 i) (hc1 : cond1_1 i)
    (x0 : Vec F S64x128x128 .f32) (x1 : Vec F S64x128 .f32) (x2 : Vec F S128 .f32) (x3 : Vec F S128 .f32) (x4 : Vec F S128x128 .f32) (x5 : Vec F S128 .f32) (x6 : Vec F S128x128 .f32) (x7 : Vec F S128 .f32) (xs0 : Vec F S64x128 .f32) :
    out1_C_8 c i arg2 harg2 arg3 harg3 arg4 harg4 arg5 harg5 arg6 harg6 arg7 harg7 arg8 harg8 arg9 harg9 arg10 harg10 arg11 harg11 hc0 hc1 x0 x1 x2 x3 x4 x5 x6 x7 xs0 = k1_pay1 (k1_pay3 x0 x2 x3 x4 x5) x1 x6 x7 xs0 := by
  unfold out1_C_8
  rw [View.read_writes_eq_canon _ _ _ (cover1_C_8 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun1_C
  dsimp only
  sl_unfold_run_names
  rw [View.canon_unit_zero (S := S64x128) r1_hz2, View.readCov_unit_zero (S := S64x128) _ r1_hz2]
  simp only [View.readAt_eq_ld, harg2.read_unread, harg3.read_unread, harg4.read_unread, harg5.read_unread, harg6.read_unread, harg7.read_unread, harg8.read_unread, harg9.read_unread, harg11.read_unread, View.ld_unit_zero (S := S64x128x128) r1_hz3, View.ld_unit_zero (S := S64x128) r1_hz2, View.ld_unit_zero (S := S128x128) r1_hz2, View.ld_unit_zero (S := S128) r1_hz1]

/-- Case A: the accumulator is stored the zero block, read back, and ends at the update of that — whatever it held. -/
theorem sout1_A_0_eq (c : Dev nD) (i : grid1.Coords) (arg2 : Memref sig .tc .vmem S64x128x128 .f32) (harg2 : arg2.IsWhole) (arg3 : Memref sig .tc .vmem S64x128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S64x128 .f32) (harg10 : arg10.IsWhole) (arg11 : Memref sig .tc .vmem S64x128 .f32) (harg11 : arg11.IsWhole) (hc0 : cond1_0 i) (hc1 : ¬cond1_1 i)
    (x0 : Vec F S64x128x128 .f32) (x1 : Vec F S64x128 .f32) (x2 : Vec F S128 .f32) (x3 : Vec F S128 .f32) (x4 : Vec F S128x128 .f32) (x5 : Vec F S128 .f32) (x6 : Vec F S128x128 .f32) (x7 : Vec F S128 .f32) :
    sout1_A_0 c i arg2 harg2 arg3 harg3 arg4 harg4 arg5 harg5 arg6 harg6 arg7 harg7 arg8 harg8 arg9 harg9 arg10 harg10 arg11 harg11 hc0 hc1 x0 x1 x2 x3 x4 x5 x6 x7 = k1_pay1 (k1_pay3 x0 x2 x3 x4 x5) x1 x6 x7 (k1_pay2 (F := F)) := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 hc0 hc1 x0 x1 x2 x3 x4 x5 x6 x7)]
  unfold kernelRun1_A
  dsimp only
  sl_unfold_run_names
  rw [View.canon_cons_unit_zero (S := S64x128) r1_hz2, View.readCov_unit_zero (S := S64x128) _ r1_hz2]
  simp only [View.readAt_eq_ld, harg2.read_unread, harg3.read_unread, harg4.read_unread, harg5.read_unread, harg6.read_unread, harg7.read_unread, harg8.read_unread, harg9.read_unread, harg11.read_unread, View.ld_unit_zero (S := S64x128x128) r1_hz3, View.ld_unit_zero (S := S64x128) r1_hz2, View.ld_unit_zero (S := S128x128) r1_hz2, View.ld_unit_zero (S := S128) r1_hz1]

end Cert.KernelIdeal.Hand

end
-- ==== Proof.KI.Pay1.lean ====
/-
  Region 1's payloads read at an index, at the ideal instance, in the specification's words: the projected row
  (layer norm over the channels, then the linear layer whose weight block holds the transpose), the zero block the
  first point stores, and the accumulator's update (the gate's logistic of a second linear layer times the row,
  summed over the block's second axis, added to what the accumulator held).
-/
import proofs.«151578_j65635690217487_1_alg».proof.Proof.KI.PayLemmas

noncomputable section

open scoped BigOperators

namespace Cert.KernelIdeal.Hand

open Cert.KernelIdeal Cert.KernelIdeal.Gen
open Idealize.ShloMosaic Idealize.ShloMosaic.ValueIdx

/-- The projected row at `(a, b)` and channel `o`. -/
theorem k1_pay3_apply (v3 : FVec Ideal S64x128x128 .f32) (v4 v5 : FVec Ideal S128 .f32) (v30 : FVec Ideal S128x128 .f32)
    (v32 : FVec Ideal S128 .f32) (a : Fin 64) (b o : Fin 128) :
    k1_pay3 (F := Ideal) v3 v4 v5 v30 v32 (ix3 a b o)
      = Cert.Spec.lin (Cert.Spec.matT v30) (Cert.Spec.row v32)
          (Cert.Spec.ln (Cert.Spec.row v4) (Cert.Spec.row v5) (fun k => v3 (ix3 a b k))) o := by
  unfold k1_pay3
  simp only [addf_apply, mulf_apply, subf_apply, divf_apply, rsqrt_apply', logistic_apply', truncf_apply, broadcast_apply,
    cast_fold_apply, cast_flat_apply, cast_unit_apply, bcast_row_apply, cast_lane_apply, bcast_lane_apply, shapeCast_self,
    sum_lane_apply, sum_mid_apply, mm_apply]
  rw [sum_lane_apply v3 reduces_S64x128x128_S64x128 (.inl rfl) rfl a b]
  rw [sum_lane_apply _ reduces_S64x128x128_S64x128 (.inl rfl) rfl a b]
  simp only [addf_apply, mulf_apply, subf_apply, divf_apply, rsqrt_apply', logistic_apply', truncf_apply, broadcast_apply,
    cast_fold_apply, cast_flat_apply, cast_unit_apply, bcast_row_apply, cast_lane_apply, bcast_lane_apply, shapeCast_self,
    sum_lane_apply, sum_mid_apply, mm_apply]
  rw [sum_lane_apply v3 reduces_S64x128x128_S64x128 (.inl rfl) rfl a b]
  simp only [Cert.Spec.lin, Cert.Spec.ln, Cert.Spec.mean, Cert.Spec.matT, Cert.Spec.row, Cert.Spec.eps, Cert.Spec.n128, Ideal.ofBits_def]

/-- The block the first point of a row stores into the accumulator is zero. -/
theorem k1_pay2_apply (a : Fin 64) (o : Fin 128) : k1_pay2 (F := Ideal) (ix2 a o) = 0 := by
  unfold k1_pay2
  simp only [shapeCast_self, broadcast_apply]
  exact Ideal.ofBits_zero_f32

/-- The accumulator's update at `(a, o)`: what it held plus the sum over the block's second axis of the gated rows,
    each row first multiplied by its mask entry. -/
theorem k1_pay1_apply (v40 : FVec Ideal S64x128x128 .f32) (v41 : FVec Ideal S64x128 .f32) (v45 : FVec Ideal S128x128 .f32)
    (v47 : FVec Ideal S128 .f32) (v58 : FVec Ideal S64x128 .f32) (a : Fin 64) (o : Fin 128) :
    k1_pay1 (F := Ideal) v40 v41 v45 v47 v58 (ix2 a o)
      = v58 (ix2 a o) + ∑ b : Fin 128, Cert.Spec.gated (Cert.Spec.matT v45) (Cert.Spec.row v47)
          (fun o' => v41 (ix2 a b) * v40 (ix3 a b o')) o := by
  unfold k1_pay1
  simp only [addf_apply, mulf_apply, subf_apply, divf_apply, rsqrt_apply', logistic_apply', truncf_apply, broadcast_apply,
    cast_fold_apply, cast_flat_apply, cast_unit_apply, bcast_row_apply, cast_lane_apply, bcast_lane_apply, shapeCast_self,
    sum_lane_apply, sum_mid_apply, mm_apply]
  rw [sum_mid_apply _ reduces_S64x128x128_S64x128_2 (.inl rfl) rfl a o]
  simp only [addf_apply, mulf_apply, subf_apply, divf_apply, rsqrt_apply', logistic_apply', truncf_apply, broadcast_apply,
    cast_fold_apply, cast_flat_apply, cast_unit_apply, bcast_row_apply, cast_lane_apply, bcast_lane_apply, shapeCast_self,
    sum_lane_apply, sum_mid_apply, mm_apply]
  simp only [Cert.Spec.gated, Cert.Spec.lin, Cert.Spec.matT, Cert.Spec.row]

end Cert.KernelIdeal.Hand

end
-- ==== Proof.KI.Acc1.lean ====
import proofs.«151578_j65635690217487_1_alg».proof.Proof.KI.R1Closed
import proofs.«151578_j65635690217487_1_alg».proof.Proof.Spec
import proofs.«151578_j65635690217487_1_alg».proof.Proof.KI.Pay1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! # Region 1 at the ideal instance: the accumulator after a row's points is the sum of their contributions -/

/-- What blocks `x0 … x7` of one grid point add to the accumulator at row `a`, channel `o`: the sum over the block's
    second axis of the gated rows, each the masked projection of the normed row. -/
def contribOf1 (x0 : FVec Ideal S64x128x128 .f32) (x1 : FVec Ideal S64x128 .f32) (x2 x3 : FVec Ideal S128 .f32)
    (x4 : FVec Ideal S128x128 .f32) (x5 : FVec Ideal S128 .f32) (x6 : FVec Ideal S128x128 .f32) (x7 : FVec Ideal S128 .f32)
    (a : Fin 64) (o : Fin 128) : EReal :=
  ∑ b : Fin 128, Cert.Spec.gated (Cert.Spec.matT x6) (Cert.Spec.row x7)
      (fun o' => x1 (ix2 a b) * Cert.Spec.lin (Cert.Spec.matT x4) (Cert.Spec.row x5)
        (Cert.Spec.ln (Cert.Spec.row x2) (Cert.Spec.row x3) (fun k => x0 (ix3 a b k))) o') o

/-- The accumulator's update at an index: what it held plus the blocks' contribution. -/
theorem updOf1_apply (x0 : FVec Ideal S64x128x128 .f32) (x1 : FVec Ideal S64x128 .f32) (x2 x3 : FVec Ideal S128 .f32)
    (x4 : FVec Ideal S128x128 .f32) (x5 : FVec Ideal S128 .f32) (x6 : FVec Ideal S128x128 .f32) (x7 : FVec Ideal S128 .f32)
    (xs : FVec Ideal S64x128 .f32) (a : Fin 64) (o : Fin 128) :
    k1_pay1 (F := Ideal) (k1_pay3 x0 x2 x3 x4 x5) x1 x6 x7 xs (ix2 a o) = xs (ix2 a o) + contribOf1 x0 x1 x2 x3 x4 x5 x6 x7 a o := by
  rw [k1_pay1_apply]
  simp only [k1_pay3_apply]
  rfl

section Acc1
variable (V : (c : Dev nD) → (b : Ref sig .tc) → Buf (Elt Ideal) ((c : Thread nD τ).loc b))

set_option maxHeartbeats 4000000 in
/-- What one grid point adds to the accumulator at row `a`, channel `o`: the contribution of its eight input blocks. -/
def contrib1 (c : Dev nD) (t : Fin cfg1.N) (a : Fin 64) (o : Fin 128) : EReal :=
  contribOf1 (iblk1 V c 0 t) (iblk1 V c 1 t) (iblk1 V c 2 t) (iblk1 V c 3 t) (iblk1 V c 4 t) (iblk1 V c 5 t) (iblk1 V c 6 t) (iblk1 V c 7 t) a o

set_option maxHeartbeats 4000000 in
/-- The accumulator's update by the blocks of point `t`, at an index: what it held plus the point's contribution. -/
theorem upd1_apply (c : Dev nD) (t : Fin cfg1.N) (xs : FVec Ideal S64x128 .f32) (a : Fin 64) (o : Fin 128) :
    k1_pay1 (F := Ideal) (k1_pay3 (iblk1 V c 0 t) (iblk1 V c 2 t) (iblk1 V c 3 t) (iblk1 V c 4 t) (iblk1 V c 5 t))
        (iblk1 V c 1 t) (iblk1 V c 6 t) (iblk1 V c 7 t) xs (ix2 a o)
      = xs (ix2 a o) + contrib1 V c t a o :=
  updOf1_apply (iblk1 V c 0 t) (iblk1 V c 1 t) (iblk1 V c 2 t) (iblk1 V c 3 t) (iblk1 V c 4 t) (iblk1 V c 5 t) (iblk1 V c 6 t) (iblk1 V c 7 t) xs a o

/-- At the first point of a row the accumulator ends at the point's contribution. -/
theorem acc1_first (c : Dev nD) (t : Fin cfg1.N) (h0 : t.val % 4 = 0) (a : Fin 64) (o : Fin 128) :
    (outsAt1 (F := Ideal) V c t.val t.isLt).2 (ix2 a o) = contrib1 V c t a o := by
  rw [outsAt1_A V c t h0 (by omega)]
  dsimp only
  rw [sout1_A_0_eq]
  refine (upd1_apply V c t _ a o).trans ?_
  rw [k1_pay2_apply, zero_add]

/-- At any other point it ends at what the point before left plus the point's contribution. -/
theorem acc1_step (c : Dev nD) (t : Fin cfg1.N) (h0 : ¬t.val % 4 = 0) (a : Fin 64) (o : Fin 128) :
    (outsAt1 (F := Ideal) V c t.val t.isLt).2 (ix2 a o)
      = (outsAt1 (F := Ideal) V c (t.val - 1) (Nat.lt_of_le_of_lt (Nat.sub_le _ _) t.isLt)).2 (ix2 a o) + contrib1 V c t a o := by
  by_cases h1 : t.val % 4 = 3
  · rw [outsAt1_C V c t h0 h1]
    dsimp only
    rw [sout1_C_0_eq]
    exact upd1_apply V c t _ a o
  · rw [outsAt1_B V c t h0 h1]
    dsimp only
    rw [sout1_B_0_eq]
    exact upd1_apply V c t _ a o

/-- At the last point of a row output 8's staging buffer holds a copy of the accumulator. -/
theorem out1_flush (c : Dev nD) (t : Fin cfg1.N) (h3 : t.val % 4 = 3) :
    (outsAt1 (F := Ideal) V c t.val t.isLt).1 = (outsAt1 (F := Ideal) V c t.val t.isLt).2 := by
  rw [outsAt1_C V c t (by omega) h3]
  dsimp only
  rw [out1_C_8_eq, sout1_C_0_eq]

/-- A point's contribution, the point named by its position (out of range: nothing). -/
def contribN1 (c : Dev nD) (n : ℕ) (a : Fin 64) (o : Fin 128) : EReal :=
  if h : n < cfg1.N then contrib1 V c ⟨n, h⟩ a o else 0

theorem contrib1_eq_N (c : Dev nD) (n : ℕ) (h : n < cfg1.N) (a : Fin 64) (o : Fin 128) :
    contrib1 V c ⟨n, h⟩ a o = contribN1 V c n a o := by
  unfold contribN1; rw [dif_pos h]

/-- The four points of a row unrolled: from its first position `m`. -/
theorem acc1_row_aux (c : Dev nD) (m : ℕ) (hm : m + 3 < cfg1.N) (h0 : m % 4 = 0) (a : Fin 64) (o : Fin 128) :
    (outsAt1 (F := Ideal) V c (m + 3) hm).2 (ix2 a o)
      = contribN1 V c m a o + contribN1 V c (m + 1) a o + contribN1 V c (m + 2) a o + contribN1 V c (m + 3) a o := by
  have e3 : (outsAt1 (F := Ideal) V c (m + 3) hm).2 (ix2 a o)
      = (outsAt1 (F := Ideal) V c (m + 2) (by omega)).2 (ix2 a o) + contrib1 V c ⟨m + 3, hm⟩ a o :=
    acc1_step V c ⟨m + 3, hm⟩ (by dsimp only; omega) a o
  have e2 : (outsAt1 (F := Ideal) V c (m + 2) (by omega)).2 (ix2 a o)
      = (outsAt1 (F := Ideal) V c (m + 1) (by omega)).2 (ix2 a o) + contrib1 V c ⟨m + 2, by omega⟩ a o :=
    acc1_step V c ⟨m + 2, by omega⟩ (by dsimp only; omega) a o
  have e1 : (outsAt1 (F := Ideal) V c (m + 1) (by omega)).2 (ix2 a o)
      = (outsAt1 (F := Ideal) V c m (by omega)).2 (ix2 a o) + contrib1 V c ⟨m + 1, by omega⟩ a o :=
    acc1_step V c ⟨m + 1, by omega⟩ (by dsimp only; omega) a o
  have e0 : (outsAt1 (F := Ideal) V c m (by omega)).2 (ix2 a o) = contrib1 V c ⟨m, by omega⟩ a o :=
    acc1_first V c ⟨m, by omega⟩ h0 a o
  rw [e3, e2, e1, e0]
  simp only [contrib1_eq_N]

/-- After the last point of a row the accumulator is the sum of the row's four contributions. -/
theorem acc1_row (c : Dev nD) (t : Fin cfg1.N) (h3 : t.val % 4 = 3) (a : Fin 64) (o : Fin 128) :
    (outsAt1 (F := Ideal) V c t.val t.isLt).2 (ix2 a o)
      = ∑ j' : Fin 4, contrib1 V c ⟨4 * (t.val / 4) + j'.val, by have := t.isLt; have : cfg1.N = 32 := N_1; have := j'.isLt; omega⟩ a o := by
  obtain ⟨n, hn⟩ := t
  dsimp only at h3
  obtain ⟨m, rfl⟩ : ∃ m, n = m + 3 := ⟨n - 3, by omega⟩
  have hq : 4 * ((m + 3) / 4) = m := by omega
  simp only [contrib1_eq_N]
  rw [Fin.sum_univ_four]
  show _ = contribN1 V c (4 * ((m + 3) / 4)) a o + contribN1 V c (4 * ((m + 3) / 4) + 1) a o
      + contribN1 V c (4 * ((m + 3) / 4) + 2) a o + contribN1 V c (4 * ((m + 3) / 4) + 3) a o
  rw [hq]
  exact acc1_row_aux V c m hn (by omega) a o

end Acc1

end Cert.KernelIdeal.Hand

end
-- ==== Proof.KI.Value1.lean ====
/- Region 1 at the ideal instance: the array the masked reduction over z leaves is the specification's right plane
   `zr`, index by index. Point t = 4·i + j of the grid reads rows 64·i … 64·i+63 and columns 128·j … 128·j+127 of z and
   of the mask; the accumulator, reset at j = 0, holds after j = 3 the sum over the four column blocks, which is the sum
   over all 512 columns; that point writes rows 64·i … 64·i+63 of the result, and the eight row blocks tile it. -/
import proofs.«151578_j65635690217487_1_alg».proof.Proof.KI.Acc1
import proofs.«151578_j65635690217487_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-- The printed index maps, decided once over the 32 points: at point t = 4·i + j the windows of z and of the mask are
    at block (i, j), the output's at row block i, and the six small operands are whole. -/
theorem idx_facts1_0 : ∀ t : Fin cfg1.N,
    win1_0.index t (0 : Fin 3) = t.val / 4 ∧ win1_0.index t (1 : Fin 3) = t.val % 4 ∧ win1_0.index t (2 : Fin 3) = 0 :=
  (by decide +kernel : ∀ t : Fin grid1.N, _)
theorem idx_facts1_1 : ∀ t : Fin cfg1.N, win1_1.index t (0 : Fin 2) = t.val / 4 ∧ win1_1.index t (1 : Fin 2) = t.val % 4 :=
  (by decide +kernel : ∀ t : Fin grid1.N, _)
theorem idx_facts1_2 : ∀ t : Fin cfg1.N, win1_2.index t (0 : Fin 1) = 0 := (by decide +kernel : ∀ t : Fin grid1.N, _)
theorem idx_facts1_3 : ∀ t : Fin cfg1.N, win1_3.index t (0 : Fin 1) = 0 := (by decide +kernel : ∀ t : Fin grid1.N, _)
theorem idx_facts1_4 : ∀ t : Fin cfg1.N, win1_4.index t (0 : Fin 2) = 0 ∧ win1_4.index t (1 : Fin 2) = 0 :=
  (by decide +kernel : ∀ t : Fin grid1.N, _)
theorem idx_facts1_5 : ∀ t : Fin cfg1.N, win1_5.index t (0 : Fin 1) = 0 := (by decide +kernel : ∀ t : Fin grid1.N, _)
theorem idx_facts1_6 : ∀ t : Fin cfg1.N, win1_6.index t (0 : Fin 2) = 0 ∧ win1_6.index t (1 : Fin 2) = 0 :=
  (by decide +kernel : ∀ t : Fin grid1.N, _)
theorem idx_facts1_7 : ∀ t : Fin cfg1.N, win1_7.index t (0 : Fin 1) = 0 := (by decide +kernel : ∀ t : Fin grid1.N, _)
theorem idx_facts1_8 : ∀ t : Fin cfg1.N, win1_8.index t (0 : Fin 2) = t.val / 4 ∧ win1_8.index t (1 : Fin 2) = 0 :=
  (by decide +kernel : ∀ t : Fin grid1.N, _)

section Blocks
variable {F : FTy → Type} [FloatOps F]
variable (V : (c : Dev nD) → (b : Ref sig .tc) → Buf (Elt F) ((c : Thread nD τ).loc b))

/-- The block of z at point t is its rows 64·(t/4) … +63 and columns 128·(t%4) … +127. -/
theorem iblk1_0_apply (c : Dev nD) (t : Fin cfg1.N) (a : Fin 64) (b k : Fin 128) (r q : Fin 512)
    (hr : r.val = 64 * (t.val / 4) + a.val) (hq : q.val = 128 * (t.val % 4) + b.val) :
    (iblk1 V c 0 t : Vec F S64x128x128 .f32) (ix3 a b k) = (V c main_arg0 : S512x512x128.Idx → Elt F .f32) (ix3 r q k) := by
  obtain ⟨e0, e1, e2⟩ := idx_facts1_0 t
  unfold iblk1
  rw [View.read_apply]
  show V c main_arg0 _ = V c main_arg0 _
  congr 1
  funext d
  apply Fin.ext
  match d with
  | ⟨0, _⟩ => show win1_0.index t 0 * 64 + 1 * a.val = r.val; rw [e0, hr]; omega
  | ⟨1, _⟩ => show win1_0.index t 1 * 128 + 1 * b.val = q.val; rw [e1, hq]; omega
  | ⟨2, _⟩ => show win1_0.index t 2 * 128 + 1 * k.val = k.val; rw [e2]; omega

/-- The block of the mask at point t is the same rows and columns. -/
theorem iblk1_1_apply (c : Dev nD) (t : Fin cfg1.N) (a : Fin 64) (b : Fin 128) (r q : Fin 512)
    (hr : r.val = 64 * (t.val / 4) + a.val) (hq : q.val = 128 * (t.val % 4) + b.val) :
    (iblk1 V c 1 t : Vec F S64x128 .f32) (ix2 a b) = (V c main_arg2 : S512x512.Idx → Elt F .f32) (ix2 r q) := by
  obtain ⟨e0, e1⟩ := idx_facts1_1 t
  unfold iblk1
  rw [View.read_apply]
  show V c main_arg2 _ = V c main_arg2 _
  congr 1
  funext d
  apply Fin.ext
  match d with
  | ⟨0, _⟩ => show win1_1.index t 0 * 64 + 1 * a.val = r.val; rw [e0, hr]; omega
  | ⟨1, _⟩ => show win1_1.index t 1 * 128 + 1 * b.val = q.val; rw [e1, hq]; omega

/-- The six small operands' blocks are the whole arrays. -/
theorem iblk1_2_eq (c : Dev nD) (t : Fin cfg1.N) : (iblk1 V c 2 t : Vec F S128 .f32) = V c main_arg15 := by
  have e0 := (idx_facts1_2 t)
  funext j
  unfold iblk1
  rw [View.read_apply]
  show V c main_arg15 _ = V c main_arg15 j
  congr 1
  funext d
  apply Fin.ext
  match d with
  | ⟨0, _⟩ => show win1_2.index t 0 * 128 + 1 * (j 0).val = (j 0).val; rw [e0]; omega

theorem iblk1_3_eq (c : Dev nD) (t : Fin cfg1.N) : (iblk1 V c 3 t : Vec F S128 .f32) = V c main_arg16 := by
  have e0 := (idx_facts1_3 t)
  funext j
  unfold iblk1
  rw [View.read_apply]
  show V c main_arg16 _ = V c main_arg16 j
  congr 1
  funext d
  apply Fin.ext
  match d with
  | ⟨0, _⟩ => show win1_3.index t 0 * 128 + 1 * (j 0).val = (j 0).val; rw [e0]; omega

theorem iblk1_4_eq (c : Dev nD) (t : Fin cfg1.N) : (iblk1 V c 4 t : Vec F S128x128 .f32) = V c main_v2 := by
  obtain ⟨e0, e1⟩ := idx_facts1_4 t
  funext j
  unfold iblk1
  rw [View.read_apply]
  show V c main_v2 _ = V c main_v2 j
  congr 1
  funext d
  apply Fin.ext
  match d with
  | ⟨0, _⟩ => show win1_4.index t 0 * 128 + 1 * (j 0).val = (j 0).val; rw [e0]; omega
  | ⟨1, _⟩ => show win1_4.index t 1 * 128 + 1 * (j 1).val = (j 1).val; rw [e1]; omega

theorem iblk1_5_eq (c : Dev nD) (t : Fin cfg1.N) : (iblk1 V c 5 t : Vec F S128 .f32) = V c main_arg6 := by
  have e0 := (idx_facts1_5 t)
  funext j
  unfold iblk1
  rw [View.read_apply]
  show V c main_arg6 _ = V c main_arg6 j
  congr 1
  funext d
  apply Fin.ext
  match d with
  | ⟨0, _⟩ => show win1_5.index t 0 * 128 + 1 * (j 0).val = (j 0).val; rw [e0]; omega

theorem iblk1_6_eq (c : Dev nD) (t : Fin cfg1.N) : (iblk1 V c 6 t : Vec F S128x128 .f32) = V c main_v3 := by
  obtain ⟨e0, e1⟩ := idx_facts1_6 t
  funext j
  unfold iblk1
  rw [View.read_apply]
  show V c main_v3 _ = V c main_v3 j
  congr 1
  funext d
  apply Fin.ext
  match d with
  | ⟨0, _⟩ => show win1_6.index t 0 * 128 + 1 * (j 0).val = (j 0).val; rw [e0]; omega
  | ⟨1, _⟩ => show win1_6.index t 1 * 128 + 1 * (j 1).val = (j 1).val; rw [e1]; omega

theorem iblk1_7_eq (c : Dev nD) (t : Fin cfg1.N) : (iblk1 V c 7 t : Vec F S128 .f32) = V c main_arg10 := by
  have e0 := (idx_facts1_7 t)
  funext j
  unfold iblk1
  rw [View.read_apply]
  show V c main_arg10 _ = V c main_arg10 j
  congr 1
  funext d
  apply Fin.ext
  match d with
  | ⟨0, _⟩ => show win1_7.index t 0 * 128 + 1 * (j 0).val = (j 0).val; rw [e0]; omega

/-- A block of the output window, given entry by entry, is the block at point t of a whole-array function that has
    those entries at rows 64·(t/4)+a. -/
theorem blk1_8_read (c : Dev nD) (t : Fin cfg1.N) (P : Vec F S64x128 .f32) (G : S512x128.Idx → Elt F .f32)
    (h : ∀ (a : Fin 64) (o : Fin 128) (r : Fin 512), r.val = 64 * (t.val / 4) + a.val → P (ix2 a o) = G (ix2 r o)) :
    (cfg1.win 8).cut (grid1.coords t) P = ((cfg1.win 8).blk t).view.read (Elt F) G := by
  obtain ⟨e0, e1⟩ := idx_facts1_8 t
  have hN : cfg1.N = 32 := N_1
  have ht : t.val < 32 := hN ▸ t.isLt
  funext j
  show P j = G (((cfg1.win 8).blk t).view.emb j)
  have hj0 : (j 0).val < 64 := (j 0).isLt
  have hj1 : (j 1).val < 128 := (j 1).isLt
  refine (congrArg P (eq_ix2 j)).trans ((h (j 0) (j 1) ⟨64 * (t.val / 4) + (j 0).val, by omega⟩ rfl).trans (congrArg G ?_))
  funext d
  apply Fin.ext
  match d with
  | ⟨0, _⟩ => show 64 * (t.val / 4) + (j 0).val = win1_8.index t 0 * 64 + 1 * (j 0).val; rw [e0]; omega
  | ⟨1, _⟩ => show (j 1).val = win1_8.index t 1 * 128 + 1 * (j 1).val; rw [e1]; omega

/-- The output's blocks tile the array: row r is in the block of the last point of grid row r/64. -/
theorem cover1 (i : S512x128.Idx) :
    ∃ t : Fin cfg1.N, (cfg1.win 8).flush t = true ∧ i ∈ ((cfg1.win 8).blk t).view.set := by
  have h0 : (i 0).val < 512 := (i 0).isLt
  have h1 : (i 1).val < 128 := (i 1).isLt
  have hN : cfg1.N = 32 := N_1
  have ht : 4 * ((i 0).val / 64) + 3 < cfg1.N := by rw [hN]; omega
  obtain ⟨t, hv⟩ : ∃ t : Fin cfg1.N, t.val = 4 * ((i 0).val / 64) + 3 := ⟨⟨_, ht⟩, rfl⟩
  obtain ⟨e0, e1⟩ := idx_facts1_8 t
  refine ⟨t, (flush1_8 t).mpr (by rw [hv]; omega), ?_⟩
  show i ∈ ((View.whole main_v6).slice (win1_8.rect t)).set
  rw [View.set_slice_whole, Rect.mem_set_unit]
  intro a
  match a with
  | ⟨0, _⟩ =>
    show win1_8.index t 0 * 64 ≤ (i 0).val ∧ (i 0).val < win1_8.index t 0 * 64 + 64
    rw [e0, hv]; omega
  | ⟨1, _⟩ =>
    show win1_8.index t 1 * 128 ≤ (i 1).val ∧ (i 1).val < win1_8.index t 1 * 128 + 128
    rw [e1]; omega

end Blocks

/-! ## The result array -/

section Value
variable (V : (c : Dev nD) → (b : Ref sig .tc) → Buf (Elt Ideal) ((c : Thread nD τ).loc b))

/-- One gated row of the right plane's sum: row r, column q of z and of the mask, through the layer norm, the first
    linear layer, the mask and the gate. -/
abbrev term1 (c : Dev nD) (r q : Fin 512) (o : Fin 128) : EReal :=
  Cert.Spec.gated (Cert.Spec.matT (V c main_v3)) (Cert.Spec.row (V c main_arg10))
    (fun o' => Cert.Spec.mask (V c main_arg2) r q * Cert.Spec.lin (Cert.Spec.matT (V c main_v2)) (Cert.Spec.row (V c main_arg6))
      (Cert.Spec.ln (Cert.Spec.row (V c main_arg15)) (Cert.Spec.row (V c main_arg16)) (Cert.Spec.cube (V c main_arg0) r q)) o') o

/-- What the region leaves in its output array: the specification's right plane of z, the mask, the layer norm's
    weight and bias and the two linear layers' weights (held transposed) and biases, as the region finds them. -/
abbrev G1 (c : Dev nD) : S512x128.Idx → EReal :=
  Cert.Spec.ofPlane (Cert.Spec.zr (Cert.Spec.cube (V c main_arg0)) (Cert.Spec.mask (V c main_arg2)) (Cert.Spec.row (V c main_arg15))
    (Cert.Spec.row (V c main_arg16)) (Cert.Spec.matT (V c main_v2)) (Cert.Spec.row (V c main_arg6)) (Cert.Spec.matT (V c main_v3))
    (Cert.Spec.row (V c main_arg10)))

/-- The sum, over the 128 columns of a block, of the gated rows: the blocks as variables. -/
def rowSum1 (x0 : FVec Ideal S64x128x128 .f32) (x1 : FVec Ideal S64x128 .f32) (x2 x3 : FVec Ideal S128 .f32)
    (x4 : FVec Ideal S128x128 .f32) (x5 : FVec Ideal S128 .f32) (x6 : FVec Ideal S128x128 .f32) (x7 : FVec Ideal S128 .f32)
    (a : Fin 64) (o : Fin 128) : EReal :=
  ∑ b : Fin 128, Cert.Spec.gated (Cert.Spec.matT x6) (Cert.Spec.row x7)
      (fun o' => x1 (ix2 a b) * Cert.Spec.lin (Cert.Spec.matT x4) (Cert.Spec.row x5)
        (Cert.Spec.ln (Cert.Spec.row x2) (Cert.Spec.row x3) (fun k => x0 (ix3 a b k))) o') o

/-- What point t adds at row a of its block is the sum, over the 128 columns of its column block, of the gated rows
    of the arrays. -/
theorem contrib1_eq (c : Dev nD) (t : Fin cfg1.N) (a : Fin 64) (o : Fin 128) (r : Fin 512) (jj : Fin 4)
    (hr : r.val = 64 * (t.val / 4) + a.val) (hj : jj.val = t.val % 4) :
    contrib1 V c t a o = ∑ b : Fin 128, term1 V c r ⟨jj.val * 128 + b.val, by have := jj.isLt; have := b.isLt; omega⟩ o := by
  show rowSum1 (iblk1 V c 0 t) (iblk1 V c 1 t) (iblk1 V c 2 t) (iblk1 V c 3 t) (iblk1 V c 4 t) (iblk1 V c 5 t) (iblk1 V c 6 t) (iblk1 V c 7 t) a o = _
  unfold rowSum1
  rw [iblk1_2_eq, iblk1_3_eq, iblk1_4_eq, iblk1_5_eq, iblk1_6_eq, iblk1_7_eq]
  refine Finset.sum_congr rfl fun b _ => ?_
  have hq : (⟨jj.val * 128 + b.val, by have := jj.isLt; have := b.isLt; omega⟩ : Fin 512).val = 128 * (t.val % 4) + b.val := by
    show jj.val * 128 + b.val = _; omega
  refine congrArg (fun x : Cert.Spec.Row => Cert.Spec.gated (Cert.Spec.matT (V c main_v3)) (Cert.Spec.row (V c main_arg10)) x o)
    (funext fun o' => ?_)
  rw [iblk1_1_apply V c t a b r _ hr hq]
  refine congrArg (fun x : Cert.Spec.Row => Cert.Spec.mask (V c main_arg2) r _ * Cert.Spec.lin (Cert.Spec.matT (V c main_v2)) (Cert.Spec.row (V c main_arg6))
      (Cert.Spec.ln (Cert.Spec.row (V c main_arg15)) (Cert.Spec.row (V c main_arg16)) x) o')
    (funext fun k => iblk1_0_apply V c t a b k r _ hr hq)

/-- What a row's last point writes back is its block of the result. -/
theorem flushed1_eq (c : Dev nD) (t : Fin cfg1.N) (hf : (cfg1.win 8).flush t = true) :
    (dat1 V c).flushed 8 t = ((cfg1.win 8).blk t).view.read (Elt Ideal) (G1 V c) := by
  have h3 : t.val % 4 = 3 := (flush1_8 t).mp hf
  have hN : cfg1.N = 32 := N_1
  have ht : t.val < 32 := hN ▸ t.isLt
  show (cfg1.win 8).cut (grid1.coords t) ((dat1 V c).after 8 t) = _
  rw [after1_8, out1_flush V c t h3]
  refine blk1_8_read (F := Ideal) c t _ (G1 V c) fun a o r hr => ?_
  rw [acc1_row V c t h3 a o]
  show _ = ∑ j : Fin 512, term1 V c r j o
  rw [Cert.Spec.sum_blocks]
  refine Finset.sum_congr rfl fun j' _ => ?_
  have hj' : j'.val < 4 := j'.isLt
  exact contrib1_eq V c _ a o r j' (by show r.val = 64 * ((4 * (t.val / 4) + j'.val) / 4) + a.val; omega)
    (by show j'.val = (4 * (t.val / 4) + j'.val) % 4; omega)

/-- The region's output array after the run is the specification's right plane. -/
theorem value1 (c : Dev nD) :
    (dat1 (F := Ideal) V c).arrAt 8 cfg1.N = Cert.Spec.ofPlane (Cert.Spec.zr (Cert.Spec.cube (V c main_arg0)) (Cert.Spec.mask (V c main_arg2)) (Cert.Spec.row (V c main_arg15)) (Cert.Spec.row (V c main_arg16)) (Cert.Spec.matT (V c main_v2)) (Cert.Spec.row (V c main_arg6)) (Cert.Spec.matT (V c main_v3)) (Cert.Spec.row (V c main_arg10))) :=
  (dat1 V c).arrAt_eq_of_cover 8 (G1 V c) (fun t hf => flushed1_eq V c t hf) cover1

end Value

end Cert.KernelIdeal.Hand

end
-- ==== Proof.KI.Value2.lean ====
/- Region 2 at the ideal instance: the array the outer-product kernel leaves is the specification's `out` of the two
   planes it reads, index by index. Point t = 4·i + j of the grid writes block (i, j) of the result: rows 64·i … 64·i+63
   of the left plane against rows 128·j … 128·j+127 of the right plane; the blocks tile the [512, 512, 128] array. -/
import proofs.«151578_j65635690217487_1_alg».proof.Proof.KI.Region2
import proofs.«151578_j65635690217487_1_alg».proof.Proof.Spec
import proofs.«151578_j65635690217487_1_alg».proof.Proof.KI.PayLemmas
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

theorem hz2_1 : (![0] : Fin 1 → Nat) = fun _ => 0 := funext fun a => by fin_cases a <;> rfl
theorem hz2_2 : (![0, 0] : Fin 2 → Nat) = fun _ => 0 := funext fun a => by fin_cases a <;> rfl
theorem hz2_3 : (![0, 0, 0] : Fin 3 → Nat) = fun _ => 0 := funext fun a => by fin_cases a <;> rfl

/-- The printed index maps, decided once over the 32 points: at point t = 4·i + j the left plane's window is at row
    block i, the right plane's at row block j, the output's at block (i, j), and the four small operands are whole. -/
theorem idx_facts2 : ∀ t : Fin cfg2.N,
    win2_0.index t (0 : Fin 2) = t.val / 4 ∧ win2_0.index t (1 : Fin 2) = 0
    ∧ win2_1.index t (0 : Fin 2) = t.val % 4 ∧ win2_1.index t (1 : Fin 2) = 0
    ∧ win2_2.index t (0 : Fin 1) = 0 ∧ win2_3.index t (0 : Fin 1) = 0
    ∧ win2_4.index t (0 : Fin 2) = 0 ∧ win2_4.index t (1 : Fin 2) = 0
    ∧ win2_5.index t (0 : Fin 1) = 0
    ∧ win2_6.index t (0 : Fin 3) = t.val / 4 ∧ win2_6.index t (1 : Fin 3) = t.val % 4 ∧ win2_6.index t (2 : Fin 3) = 0 :=
  (by decide +kernel : ∀ t : Fin grid2.N, _)

section Blocks
variable {F : FTy → Type} [FloatOps F]
variable (V : (c : Dev nD) → (b : Ref sig .tc) → Buf (Elt F) ((c : Thread nD τ).loc b))

/-- The left plane's block at point t is its rows 64·(t/4) … 64·(t/4)+63. -/
theorem iblk2_0_apply (c : Dev nD) (t : Fin cfg2.N) (a : Fin 64) (k : Fin 128) (r : Fin 512) (hr : r.val = 64 * (t.val / 4) + a.val) :
    (iblk2 V c 0 t : Vec F S64x128 .f32) (ix2 a k) = (V c main_v5 : S512x128.Idx → Elt F .f32) (ix2 r k) := by
  obtain ⟨e0, e1, -⟩ := idx_facts2 t
  unfold iblk2
  rw [View.read_apply]
  show V c main_v5 _ = V c main_v5 _
  congr 1
  funext d
  apply Fin.ext
  match d with
  | ⟨0, _⟩ => show win2_0.index t 0 * 64 + 1 * a.val = r.val; rw [e0, hr]; omega
  | ⟨1, _⟩ => show win2_0.index t 1 * 128 + 1 * k.val = k.val; rw [e1]; omega

/-- The right plane's block at point t is its rows 128·(t%4) … 128·(t%4)+127. -/
theorem iblk2_1_apply (c : Dev nD) (t : Fin cfg2.N) (b : Fin 128) (k : Fin 128) (r : Fin 512) (hr : r.val = 128 * (t.val % 4) + b.val) :
    (iblk2 V c 1 t : Vec F S128x128 .f32) (ix2 b k) = (V c main_v6 : S512x128.Idx → Elt F .f32) (ix2 r k) := by
  obtain ⟨-, -, e0, e1, -⟩ := idx_facts2 t
  unfold iblk2
  rw [View.read_apply]
  show V c main_v6 _ = V c main_v6 _
  congr 1
  funext d
  apply Fin.ext
  match d with
  | ⟨0, _⟩ => show win2_1.index t 0 * 128 + 1 * b.val = r.val; rw [e0, hr]; omega
  | ⟨1, _⟩ => show win2_1.index t 1 * 128 + 1 * k.val = k.val; rw [e1]; omega

/-- The four small operands' blocks are the whole arrays. -/
theorem iblk2_2_eq (c : Dev nD) (t : Fin cfg2.N) : (iblk2 V c 2 t : Vec F S128 .f32) = V c main_arg17 := by
  obtain ⟨-, -, -, -, e, -⟩ := idx_facts2 t
  funext j
  unfold iblk2
  rw [View.read_apply]
  show V c main_arg17 _ = V c main_arg17 j
  congr 1
  funext d
  apply Fin.ext
  match d with
  | ⟨0, _⟩ => show win2_2.index t 0 * 128 + 1 * (j 0).val = (j 0).val; rw [e]; omega

theorem iblk2_3_eq (c : Dev nD) (t : Fin cfg2.N) : (iblk2 V c 3 t : Vec F S128 .f32) = V c main_arg18 := by
  obtain ⟨-, -, -, -, -, e, -⟩ := idx_facts2 t
  funext j
  unfold iblk2
  rw [View.read_apply]
  show V c main_arg18 _ = V c main_arg18 j
  congr 1
  funext d
  apply Fin.ext
  match d with
  | ⟨0, _⟩ => show win2_3.index t 0 * 128 + 1 * (j 0).val = (j 0).val; rw [e]; omega

theorem iblk2_4_eq (c : Dev nD) (t : Fin cfg2.N) : (iblk2 V c 4 t : Vec F S128x128 .f32) = V c main_v4 := by
  obtain ⟨-, -, -, -, -, -, e0, e1, -⟩ := idx_facts2 t
  funext j
  unfold iblk2
  rw [View.read_apply]
  show V c main_v4 _ = V c main_v4 j
  congr 1
  funext d
  apply Fin.ext
  match d with
  | ⟨0, _⟩ => show win2_4.index t 0 * 128 + 1 * (j 0).val = (j 0).val; rw [e0]; omega
  | ⟨1, _⟩ => show win2_4.index t 1 * 128 + 1 * (j 1).val = (j 1).val; rw [e1]; omega

theorem iblk2_5_eq (c : Dev nD) (t : Fin cfg2.N) : (iblk2 V c 5 t : Vec F S128 .f32) = V c main_arg12 := by
  obtain ⟨-, -, -, -, -, -, -, -, e, -⟩ := idx_facts2 t
  funext j
  unfold iblk2
  rw [View.read_apply]
  show V c main_arg12 _ = V c main_arg12 j
  congr 1
  funext d
  apply Fin.ext
  match d with
  | ⟨0, _⟩ => show win2_5.index t 0 * 128 + 1 * (j 0).val = (j 0).val; rw [e]; omega

/-- A block of the output window, given entry by entry, is the block at point t of a whole-array function that has
    those entries at rows 64·(t/4)+a and columns 128·(t%4)+b. -/
theorem blk2_6_read (c : Dev nD) (t : Fin cfg2.N) (P : Vec F S64x128x128 .f32) (G : S512x512x128.Idx → Elt F .f32)
    (h : ∀ (a : Fin 64) (b : Fin 128) (o : Fin 128) (r q : Fin 512), r.val = 64 * (t.val / 4) + a.val → q.val = 128 * (t.val % 4) + b.val →
      P (ix3 a b o) = G (ix3 r q o)) :
    (cfg2.win 6).cut (grid2.coords t) P = ((cfg2.win 6).blk t).view.read (Elt F) G := by
  obtain ⟨-, -, -, -, -, -, -, -, -, e0, e1, e2⟩ := idx_facts2 t
  have hN : cfg2.N = 32 := N_2
  have ht : t.val < 32 := hN ▸ t.isLt
  funext j
  show P j = G (((cfg2.win 6).blk t).view.emb j)
  have hj0 : (j 0).val < 64 := (j 0).isLt
  have hj1 : (j 1).val < 128 := (j 1).isLt
  refine (congrArg P (eq_ix3 j)).trans ((h (j 0) (j 1) (j 2) ⟨64 * (t.val / 4) + (j 0).val, by omega⟩ ⟨128 * (t.val % 4) + (j 1).val, by omega⟩ rfl rfl).trans (congrArg G ?_))
  funext d
  apply Fin.ext
  match d with
  | ⟨0, _⟩ => show 64 * (t.val / 4) + (j 0).val = win2_6.index t 0 * 64 + 1 * (j 0).val; rw [e0]; omega
  | ⟨1, _⟩ => show 128 * (t.val % 4) + (j 1).val = win2_6.index t 1 * 128 + 1 * (j 1).val; rw [e1]; omega
  | ⟨2, _⟩ => show (j 2).val = win2_6.index t 2 * 128 + 1 * (j 2).val; rw [e2]; omega

/-- The output's blocks tile the array: row r, column q is in the block of point 4·(r/64) + q/128. -/
theorem cover2 (i : S512x512x128.Idx) :
    ∃ t : Fin cfg2.N, (cfg2.win 6).flush t = true ∧ i ∈ ((cfg2.win 6).blk t).view.set := by
  have h0 : (i 0).val < 512 := (i 0).isLt
  have h1 : (i 1).val < 512 := (i 1).isLt
  have h2 : (i 2).val < 128 := (i 2).isLt
  have hN : cfg2.N = 32 := N_2
  have ht : 4 * ((i 0).val / 64) + (i 1).val / 128 < cfg2.N := by rw [hN]; omega
  obtain ⟨t, hv⟩ : ∃ t : Fin cfg2.N, t.val = 4 * ((i 0).val / 64) + (i 1).val / 128 := ⟨⟨_, ht⟩, rfl⟩
  obtain ⟨-, -, -, -, -, -, -, -, -, e0, e1, e2⟩ := idx_facts2 t
  refine ⟨t, flush2_6 t, ?_⟩
  show i ∈ ((View.whole main_v7).slice (win2_6.rect t)).set
  rw [View.set_slice_whole, Rect.mem_set_unit]
  intro a
  match a with
  | ⟨0, _⟩ =>
    show win2_6.index t 0 * 64 ≤ (i 0).val ∧ (i 0).val < win2_6.index t 0 * 64 + 64
    rw [e0, hv]; omega
  | ⟨1, _⟩ =>
    show win2_6.index t 1 * 128 ≤ (i 1).val ∧ (i 1).val < win2_6.index t 1 * 128 + 128
    rw [e1, hv]; omega
  | ⟨2, _⟩ =>
    show win2_6.index t 2 * 128 ≤ (i 2).val ∧ (i 2).val < win2_6.index t 2 * 128 + 128
    rw [e2]; omega

end Blocks

/-! ## The outer product of the two blocks, read at an index -/

section Outer
variable {α : Type}

/-- A [64,128] block given a middle unit axis reads, at (a, 0, k), the block at (a, k). -/
theorem cast_mid_unit_apply (v : S64x128.Idx → α) (h : S64x128.ShapeCasts S64x1x128) (a : Fin 64) (z : Fin 1) (k : Fin 128) :
    shapeCast S64x1x128 v h (ix3 a z k) = v (ix2 a k) :=
  shapeCast_apply v h _ _ (by
    rw [Shape.rowMajor_val_three, Shape.rowMajor_val_two]
    show a.val * 128 + k.val = (a.val * 1 + z.val) * 128 + k.val
    have := z.isLt; omega)

/-- Spread over the middle axis, it reads the same row at every b. -/
theorem bcast_mid_apply (v : S64x1x128.Idx → α) (h : S64x1x128.Broadcasts S64x128x128) (a : Fin 64) (b k : Fin 128) :
    broadcastTo S64x128x128 v h (ix3 a b k) = v (ix3 a 0 k) :=
  broadcastTo_apply v h _ _ (fun c => by
    match c with
    | ⟨0, _⟩ => rfl
    | ⟨1, _⟩ => rfl
    | ⟨2, _⟩ => rfl)

/-- A [128,128] block given a leading unit axis reads, at (0, b, k), the block at (b, k). -/
theorem cast_lead_unit_apply (v : S128x128.Idx → α) (h : S128x128.ShapeCasts S1x128x128) (z : Fin 1) (b k : Fin 128) :
    shapeCast S1x128x128 v h (ix3 z b k) = v (ix2 b k) :=
  shapeCast_apply v h _ _ (by
    rw [Shape.rowMajor_val_three, Shape.rowMajor_val_two]
    show b.val * 128 + k.val = (z.val * 128 + b.val) * 128 + k.val
    have := z.isLt; omega)

/-- Spread over the leading axis, it reads the same row at every a. -/
theorem bcast_lead_apply (v : S1x128x128.Idx → α) (h : S1x128x128.Broadcasts S64x128x128) (a : Fin 64) (b k : Fin 128) :
    broadcastTo S64x128x128 v h (ix3 a b k) = v (ix3 0 b k) :=
  broadcastTo_apply v h _ _ (fun c => by
    match c with
    | ⟨0, _⟩ => rfl
    | ⟨1, _⟩ => rfl
    | ⟨2, _⟩ => rfl)

end Outer

/-! ## The body's payload at an index -/

/-- The second payload at row 128·a + b and channel k: the layer norm, over the channels, of row a of the left block
    times row b of the right block. -/
theorem ln2_apply (x0 : FVec Ideal S64x128 .f32) (x1 : FVec Ideal S128x128 .f32) (x2 x3 : FVec Ideal S128 .f32)
    (a : Fin 64) (b k : Fin 128) :
    k2_pay2 (F := Ideal) x0 x1 x2 x3 (ix2 (flat a b) k)
      = Cert.Spec.ln (Cert.Spec.row x2) (Cert.Spec.row x3) (fun k' => x0 (ix2 a k') * x1 (ix2 b k')) k := by
  unfold k2_pay2
  simp only [addf_apply, mulf_apply, subf_apply, divf_apply, rsqrt_apply', truncf_apply, broadcast_apply,
    cast_fold_apply, cast_flat_apply, cast_unit_apply, bcast_row_apply, cast_lane_apply, bcast_lane_apply, shapeCast_self,
    bcast_mid_apply, bcast_lead_apply, cast_mid_unit_apply, cast_lead_unit_apply, mm_apply]
  rw [sum_lane_apply _ reduces_S64x128x128_S64x128 (.inl rfl) rfl a b]
  rw [sum_lane_apply _ reduces_S64x128x128_S64x128 (.inl rfl) rfl a b]
  simp only [addf_apply, mulf_apply, subf_apply, divf_apply, rsqrt_apply', truncf_apply, broadcast_apply,
    cast_fold_apply, cast_flat_apply, cast_unit_apply, bcast_row_apply, cast_lane_apply, bcast_lane_apply, shapeCast_self,
    bcast_mid_apply, bcast_lead_apply, cast_mid_unit_apply, cast_lead_unit_apply, mm_apply]
  rw [sum_lane_apply _ reduces_S64x128x128_S64x128 (.inl rfl) rfl a b]
  simp only [addf_apply, mulf_apply, subf_apply, divf_apply, rsqrt_apply', truncf_apply, broadcast_apply,
    cast_fold_apply, cast_flat_apply, cast_unit_apply, bcast_row_apply, cast_lane_apply, bcast_lane_apply, shapeCast_self,
    bcast_mid_apply, bcast_lead_apply, cast_mid_unit_apply, cast_lead_unit_apply, mm_apply]
  simp only [Cert.Spec.ln, Cert.Spec.mean, Cert.Spec.row, Cert.Spec.eps, Cert.Spec.n128, Ideal.ofBits_def]

/-- The first payload at (a, b, o): the linear layer, the weight block holding the transpose, of row 128·a + b of
    its left operand. -/
theorem lin2_apply (v39 : FVec Ideal S128 .f32) (v41 : FVec Ideal S8192x128 .bf16) (x4 : FVec Ideal S128x128 .f32)
    (a : Fin 64) (b o : Fin 128) :
    k2_pay1 (F := Ideal) v39 v41 (k2_pay3 x4) (constant (F := Ideal) S8192x128 .f32 0x00000000#32) (ix3 a b o)
      = Cert.Spec.lin (Cert.Spec.matT x4) (Cert.Spec.row v39) (fun k => v41 (ix2 (flat a b) k)) o := by
  unfold k2_pay1 k2_pay3
  simp only [addf_apply, mulf_apply, subf_apply, divf_apply, rsqrt_apply', truncf_apply, broadcast_apply,
    cast_fold_apply, cast_flat_apply, cast_unit_apply, bcast_row_apply, cast_lane_apply, bcast_lane_apply, shapeCast_self,
    bcast_mid_apply, bcast_lead_apply, cast_mid_unit_apply, cast_lead_unit_apply, mm_apply]
  simp only [Cert.Spec.lin, Cert.Spec.matT, Cert.Spec.row]

/-- The body's payload at an index of the block: the linear layer of the layer norm of the channelwise product of row
    a of the left block with row b of the right block. -/
theorem pay2_apply (x0 : FVec Ideal S64x128 .f32) (x1 : FVec Ideal S128x128 .f32) (x2 x3 : FVec Ideal S128 .f32)
    (x4 : FVec Ideal S128x128 .f32) (x5 : FVec Ideal S128 .f32) (a : Fin 64) (b : Fin 128) (o : Fin 128) :
    k2_pay1 (F := Ideal) x5 (k2_pay2 x0 x1 x2 x3) (k2_pay3 x4) (constant (F := Ideal) S8192x128 .f32 0x00000000#32) (ix3 a b o)
      = Cert.Spec.lin (Cert.Spec.matT x4) (Cert.Spec.row x5)
          (Cert.Spec.ln (Cert.Spec.row x2) (Cert.Spec.row x3) (fun k => x0 (ix2 a k) * x1 (ix2 b k))) o :=
  (lin2_apply x5 (k2_pay2 x0 x1 x2 x3) x4 a b o).trans
    (congrArg (fun x : Cert.Spec.Row => Cert.Spec.lin (Cert.Spec.matT x4) (Cert.Spec.row x5) x o)
      (funext fun k => ln2_apply x0 x1 x2 x3 a b k))

/-! ## The result array -/

section Value
variable (V : (c : Dev nD) → (b : Ref sig .tc) → Buf (Elt Ideal) ((c : Thread nD τ).loc b))

/-- What the region leaves in its output array: the specification's `out` of the two planes, the layer norm's weight
    and bias, the linear layer's weight (held transposed) and bias, as the region finds them. -/
abbrev G2 (c : Dev nD) : S512x512x128.Idx → EReal :=
  Cert.Spec.ofCube (Cert.Spec.out (Cert.Spec.plane (V c main_v5)) (Cert.Spec.plane (V c main_v6)) (Cert.Spec.row (V c main_arg17))
    (Cert.Spec.row (V c main_arg18)) (Cert.Spec.matT (V c main_v4)) (Cert.Spec.row (V c main_arg12)))

/-- Two rows equal entry by entry have equal channelwise products. -/
theorem row_congr2 (f0 g0 f1 g1 : Fin 128 → EReal) (h0 : ∀ k, f0 k = g0 k) (h1 : ∀ k, f1 k = g1 k) :
    (fun k => f0 k * f1 k) = fun k => g0 k * g1 k := by
  funext k; rw [h0, h1]

/-- What point t writes back is block t of the result. -/
theorem flushed2_eq (c : Dev nD) (t : Fin cfg2.N) :
    (dat2 V c).flushed 6 t = ((cfg2.win 6).blk t).view.read (Elt Ideal) (G2 V c) := by
  show (cfg2.win 6).cut (grid2.coords t) ((dat2 V c).after 6 t) = _
  rw [after2_6]
  unfold out2_6
  rw [View.canon_unit_zero hz2_3]
  simp only [View.ld_unit_zero (S := S64x128) hz2_2, View.ld_unit_zero (S := S128x128) hz2_2, View.ld_unit_zero (S := S128) hz2_1]
  rw [iblk2_2_eq, iblk2_3_eq, iblk2_4_eq, iblk2_5_eq]
  refine blk2_6_read (F := Ideal) c t _ (G2 V c) fun a b o r q hr hq => ?_
  refine (pay2_apply (iblk2 V c 0 t) (iblk2 V c 1 t) (V c main_arg17) (V c main_arg18) (V c main_v4) (V c main_arg12) a b o).trans ?_
  exact congrArg (fun x : Cert.Spec.Row => Cert.Spec.lin (Cert.Spec.matT (V c main_v4)) (Cert.Spec.row (V c main_arg12))
      (Cert.Spec.ln (Cert.Spec.row (V c main_arg17)) (Cert.Spec.row (V c main_arg18)) x) o)
    (row_congr2 _ _ _ _ (fun k => iblk2_0_apply V c t a k r hr) (fun k => iblk2_1_apply V c t b k q hq))

/-- The region's output array after the run is the specification's `out`. -/
theorem value2 (c : Dev nD) :
    (dat2 (F := Ideal) V c).arrAt 6 cfg2.N = Cert.Spec.ofCube (Cert.Spec.out (Cert.Spec.plane (V c main_v5)) (Cert.Spec.plane (V c main_v6)) (Cert.Spec.row (V c main_arg17)) (Cert.Spec.row (V c main_arg18)) (Cert.Spec.matT (V c main_v4)) (Cert.Spec.row (V c main_arg12))) :=
  (dat2 V c).arrAt_eq_of_cover 6 (G2 V c) (fun t _ => flushed2_eq V c t) cover2

end Value

end Cert.KernelIdeal.Hand

end
-- ==== Proof.KI.Result.lean ====
/-
  The idealized kernel's result, named by the specification. Each region's output array is the specification's
  plane or cube of that region's operands as it finds them; the operands are argument arrays, which every earlier
  item leaves as launched, or the host's transposes of weight arguments, and a transposed weight read as a
  transposed matrix is the weight read as stored. So the first region leaves the left plane of the launch
  arguments, the second the right plane, and the third the whole computation G of the launch arguments.
-/
import proofs.«151578_j65635690217487_1_alg».proof.Proof.KI.Run
import proofs.«151578_j65635690217487_1_alg».proof.Proof.KI.Value0
import proofs.«151578_j65635690217487_1_alg».proof.Proof.KI.Value1
import proofs.«151578_j65635690217487_1_alg».proof.Proof.KI.Value2
import proofs.«151578_j65635690217487_1_alg».proof.Proof.Spec
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

variable (m : (ℓ : Loc nD τ sig) → Buf (Elt Ideal) ℓ) (ρ : Dev nD → PrngReg)

/-! ## Each region's operands, read back to the launch memory -/

theorem W1_main_arg1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_writes_sub hostOps0 _ hostOps0_writes (by decide)
    _ = m ((c : Thread nD τ).loc main_arg1) := rfl

theorem W1_main_arg13 (c : Dev nD) : W1 m ρ c (Proc.devRef .tc main_arg13) = m ((c : Thread nD τ).loc main_arg13) :=
  calc W1 m ρ c (Proc.devRef .tc main_arg13)
    _ = W0 m ρ c (Proc.devRef .tc main_arg13) := StableHlo.after_of_writes_sub hostOps0 _ hostOps0_writes (by decide)
    _ = m ((c : Thread nD τ).loc main_arg13) := rfl

theorem W1_main_arg14 (c : Dev nD) : W1 m ρ c (Proc.devRef .tc main_arg14) = m ((c : Thread nD τ).loc main_arg14) :=
  calc W1 m ρ c (Proc.devRef .tc main_arg14)
    _ = W0 m ρ c (Proc.devRef .tc main_arg14) := StableHlo.after_of_writes_sub hostOps0 _ hostOps0_writes (by decide)
    _ = m ((c : Thread nD τ).loc main_arg14) := rfl

theorem W1_main_arg4 (c : Dev nD) : W1 m ρ c (Proc.devRef .tc main_arg4) = m ((c : Thread nD τ).loc main_arg4) :=
  calc W1 m ρ c (Proc.devRef .tc main_arg4)
    _ = W0 m ρ c (Proc.devRef .tc main_arg4) := StableHlo.after_of_writes_sub hostOps0 _ hostOps0_writes (by decide)
    _ = m ((c : Thread nD τ).loc main_arg4) := rfl

theorem W1_main_arg8 (c : Dev nD) : W1 m ρ c (Proc.devRef .tc main_arg8) = m ((c : Thread nD τ).loc main_arg8) :=
  calc W1 m ρ c (Proc.devRef .tc main_arg8)
    _ = W0 m ρ c (Proc.devRef .tc main_arg8) := StableHlo.after_of_writes_sub hostOps0 _ hostOps0_writes (by decide)
    _ = m ((c : Thread nD τ).loc main_arg8) := rfl

theorem W1_main_v0 (c : Dev nD) : W1 m ρ c (Proc.devRef .tc main_v0)
    = transpose S128x128 [1, 0] (m ((c : Thread nD τ).loc main_arg3)) transposes_S128x128_S128x128_1_0 :=
  calc W1 m ρ c (Proc.devRef .tc main_v0)
    _ = _ := by
      show StableHlo.after hostOps0 (W0 m ρ c) (Proc.devRef .tc main_v0) = _
      after_results

theorem W1_main_v1 (c : Dev nD) : W1 m ρ c (Proc.devRef .tc main_v1)
    = transpose S128x128 [1, 0] (m ((c : Thread nD τ).loc main_arg7)) transposes_S128x128_S128x128_1_0 :=
  calc W1 m ρ c (Proc.devRef .tc main_v1)
    _ = _ := by
      show StableHlo.after hostOps0 (W0 m ρ c) (Proc.devRef .tc main_v1) = _
      after_results

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W2_main_arg15 (c : Dev nD) : W2 m ρ c (Proc.devRef .tc main_arg15) = m ((c : Thread nD τ).loc main_arg15) :=
  calc W2 m ρ c (Proc.devRef .tc main_arg15)
    _ = W1 m ρ c (Proc.devRef .tc main_arg15) := W2_of_ne m ρ c main_arg15 (by decide)
    _ = W0 m ρ c (Proc.devRef .tc main_arg15) := StableHlo.after_of_writes_sub hostOps0 _ hostOps0_writes (by decide)
    _ = m ((c : Thread nD τ).loc main_arg15) := rfl

theorem W2_main_arg16 (c : Dev nD) : W2 m ρ c (Proc.devRef .tc main_arg16) = m ((c : Thread nD τ).loc main_arg16) :=
  calc W2 m ρ c (Proc.devRef .tc main_arg16)
    _ = W1 m ρ c (Proc.devRef .tc main_arg16) := W2_of_ne m ρ c main_arg16 (by decide)
    _ = W0 m ρ c (Proc.devRef .tc main_arg16) := StableHlo.after_of_writes_sub hostOps0 _ hostOps0_writes (by decide)
    _ = m ((c : Thread nD τ).loc main_arg16) := rfl

theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W2_main_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W2_main_v2 (c : Dev nD) : W2 m ρ c (Proc.devRef .tc main_v2)
    = transpose S128x128 [1, 0] (m ((c : Thread nD τ).loc main_arg5)) transposes_S128x128_S128x128_1_0 :=
  calc W2 m ρ c (Proc.devRef .tc main_v2)
    _ = W1 m ρ c (Proc.devRef .tc main_v2) := W2_of_ne m ρ c main_v2 (by decide)
    _ = _ := by
      show StableHlo.after hostOps0 (W0 m ρ c) (Proc.devRef .tc main_v2) = _
      after_results

theorem W2_main_v3 (c : Dev nD) : W2 m ρ c (Proc.devRef .tc main_v3)
    = transpose S128x128 [1, 0] (m ((c : Thread nD τ).loc main_arg9)) transposes_S128x128_S128x128_1_0 :=
  calc W2 m ρ c (Proc.devRef .tc main_v3)
    _ = W1 m ρ c (Proc.devRef .tc main_v3) := W2_of_ne m ρ c main_v3 (by decide)
    _ = _ := by
      show StableHlo.after hostOps0 (W0 m ρ c) (Proc.devRef .tc main_v3) = _
      after_results

theorem W3_main_arg17 (c : Dev nD) : W3 m ρ c (Proc.devRef .tc main_arg17) = m ((c : Thread nD τ).loc main_arg17) :=
  calc W3 m ρ c (Proc.devRef .tc main_arg17)
    _ = W2 m ρ c (Proc.devRef .tc main_arg17) := W3_of_ne m ρ c main_arg17 (by decide)
    _ = W1 m ρ c (Proc.devRef .tc main_arg17) := W2_of_ne m ρ c main_arg17 (by decide)
    _ = W0 m ρ c (Proc.devRef .tc main_arg17) := StableHlo.after_of_writes_sub hostOps0 _ hostOps0_writes (by decide)
    _ = m ((c : Thread nD τ).loc main_arg17) := rfl

theorem W3_main_arg18 (c : Dev nD) : W3 m ρ c (Proc.devRef .tc main_arg18) = m ((c : Thread nD τ).loc main_arg18) :=
  calc W3 m ρ c (Proc.devRef .tc main_arg18)
    _ = W2 m ρ c (Proc.devRef .tc main_arg18) := W3_of_ne m ρ c main_arg18 (by decide)
    _ = W1 m ρ c (Proc.devRef .tc main_arg18) := W2_of_ne m ρ c main_arg18 (by decide)
    _ = W0 m ρ c (Proc.devRef .tc main_arg18) := StableHlo.after_of_writes_sub hostOps0 _ hostOps0_writes (by decide)
    _ = m ((c : Thread nD τ).loc main_arg18) := rfl

theorem W3_main_arg12 (c : Dev nD) : W3 m ρ c (Proc.devRef .tc main_arg12) = m ((c : Thread nD τ).loc main_arg12) :=
  calc W3 m ρ c (Proc.devRef .tc main_arg12)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

theorem W3_main_v4 (c : Dev nD) : W3 m ρ c (Proc.devRef .tc main_v4)
    = transpose S128x128 [1, 0] (m ((c : Thread nD τ).loc main_arg11)) transposes_S128x128_S128x128_1_0 :=
  calc W3 m ρ c (Proc.devRef .tc main_v4)
    _ = W2 m ρ c (Proc.devRef .tc main_v4) := W3_of_ne m ρ c main_v4 (by decide)
    _ = W1 m ρ c (Proc.devRef .tc main_v4) := W2_of_ne m ρ c main_v4 (by decide)
    _ = _ := by
      show StableHlo.after hostOps0 (W0 m ρ c) (Proc.devRef .tc main_v4) = _
      after_results

/-- A weight's transpose read as a transposed matrix is the weight read as stored. -/
theorem matT_transpose (x : (⟨2, ![128, 128]⟩ : Shape).Idx → EReal) (h : (⟨2, ![128, 128]⟩ : Shape).Transposes [1, 0] ⟨2, ![128, 128]⟩) :
    Cert.Spec.matT (transpose ⟨2, ![128, 128]⟩ [1, 0] x h) = Cert.Spec.mat x := by
  funext o i
  exact transpose_ix2_apply x h i o

/-- What the first region leaves in the left plane's array. -/
theorem left_plane (c : Dev nD) : W3 m ρ c (Proc.devRef .tc main_v5)
    = Cert.Spec.ofPlane (Cert.Spec.zl (Cert.Spec.cube (m ((c : Thread nD τ).loc main_arg1))) (Cert.Spec.row (m ((c : Thread nD τ).loc main_arg13))) (Cert.Spec.row (m ((c : Thread nD τ).loc main_arg14))) (Cert.Spec.mat (m ((c : Thread nD τ).loc main_arg3))) (Cert.Spec.row (m ((c : Thread nD τ).loc main_arg4))) (Cert.Spec.mat (m ((c : Thread nD τ).loc main_arg7))) (Cert.Spec.row (m ((c : Thread nD τ).loc main_arg8)))) :=
  calc W3 m ρ c (Proc.devRef .tc main_v5)
    _ = W2 m ρ c (Proc.devRef .tc main_v5) := W3_of_ne m ρ c main_v5 (by decide)
    _ = (dat0 (V1 m ρ) c).arrAt 7 cfg0.N := W2_arr m ρ c 7
    _ = _ := by
      rw [value0]
      show Cert.Spec.ofPlane (Cert.Spec.zl (Cert.Spec.cube (W1 m ρ c (Proc.devRef .tc main_arg1))) (Cert.Spec.row (W1 m ρ c (Proc.devRef .tc main_arg13))) (Cert.Spec.row (W1 m ρ c (Proc.devRef .tc main_arg14))) (Cert.Spec.matT (W1 m ρ c (Proc.devRef .tc main_v0))) (Cert.Spec.row (W1 m ρ c (Proc.devRef .tc main_arg4))) (Cert.Spec.matT (W1 m ρ c (Proc.devRef .tc main_v1))) (Cert.Spec.row (W1 m ρ c (Proc.devRef .tc main_arg8)))) = _
      rw [W1_main_arg1, W1_main_arg13, W1_main_arg14, W1_main_arg4, W1_main_arg8, W1_main_v0, W1_main_v1, matT_transpose, matT_transpose]

/-- What the second region leaves in the right plane's array. -/
theorem right_plane (c : Dev nD) : W3 m ρ c (Proc.devRef .tc main_v6)
    = Cert.Spec.ofPlane (Cert.Spec.zr (Cert.Spec.cube (m ((c : Thread nD τ).loc main_arg0))) (Cert.Spec.mask (m ((c : Thread nD τ).loc main_arg2))) (Cert.Spec.row (m ((c : Thread nD τ).loc main_arg15))) (Cert.Spec.row (m ((c : Thread nD τ).loc main_arg16))) (Cert.Spec.mat (m ((c : Thread nD τ).loc main_arg5))) (Cert.Spec.row (m ((c : Thread nD τ).loc main_arg6))) (Cert.Spec.mat (m ((c : Thread nD τ).loc main_arg9))) (Cert.Spec.row (m ((c : Thread nD τ).loc main_arg10)))) :=
  calc W3 m ρ c (Proc.devRef .tc main_v6)
    _ = (dat1 (V2 m ρ) c).arrAt 8 cfg1.N := W3_arr m ρ c 8
    _ = _ := by
      rw [value1]
      show Cert.Spec.ofPlane (Cert.Spec.zr (Cert.Spec.cube (W2 m ρ c (Proc.devRef .tc main_arg0))) (Cert.Spec.mask (W2 m ρ c (Proc.devRef .tc main_arg2))) (Cert.Spec.row (W2 m ρ c (Proc.devRef .tc main_arg15))) (Cert.Spec.row (W2 m ρ c (Proc.devRef .tc main_arg16))) (Cert.Spec.matT (W2 m ρ c (Proc.devRef .tc main_v2))) (Cert.Spec.row (W2 m ρ c (Proc.devRef .tc main_arg6))) (Cert.Spec.matT (W2 m ρ c (Proc.devRef .tc main_v3))) (Cert.Spec.row (W2 m ρ c (Proc.devRef .tc main_arg10)))) = _
      rw [W2_main_arg0, W2_main_arg2, W2_main_arg15, W2_main_arg16, W2_main_arg6, W2_main_arg10, W2_main_v2, W2_main_v3, matT_transpose, matT_transpose]

/-- What the third region leaves in the result's array: the specification of the launch memory's arguments. -/
theorem result_eq (c : Dev nD) : (dat2 (V3 m ρ) c).arrAt 6 cfg2.N = Cert.Spec.ofCube (Cert.Spec.G (Cert.Spec.cube (m ((c : Thread nD τ).loc main_arg0))) (Cert.Spec.cube (m ((c : Thread nD τ).loc main_arg1))) (Cert.Spec.mask (m ((c : Thread nD τ).loc main_arg2))) (Cert.Spec.mat (m ((c : Thread nD τ).loc main_arg3))) (Cert.Spec.row (m ((c : Thread nD τ).loc main_arg4))) (Cert.Spec.mat (m ((c : Thread nD τ).loc main_arg5))) (Cert.Spec.row (m ((c : Thread nD τ).loc main_arg6))) (Cert.Spec.mat (m ((c : Thread nD τ).loc main_arg7))) (Cert.Spec.row (m ((c : Thread nD τ).loc main_arg8))) (Cert.Spec.mat (m ((c : Thread nD τ).loc main_arg9))) (Cert.Spec.row (m ((c : Thread nD τ).loc main_arg10))) (Cert.Spec.mat (m ((c : Thread nD τ).loc main_arg11))) (Cert.Spec.row (m ((c : Thread nD τ).loc main_arg12))) (Cert.Spec.row (m ((c : Thread nD τ).loc main_arg13))) (Cert.Spec.row (m ((c : Thread nD τ).loc main_arg14))) (Cert.Spec.row (m ((c : Thread nD τ).loc main_arg15))) (Cert.Spec.row (m ((c : Thread nD τ).loc main_arg16))) (Cert.Spec.row (m ((c : Thread nD τ).loc main_arg17))) (Cert.Spec.row (m ((c : Thread nD τ).loc main_arg18)))) := by
  rw [value2]
  show Cert.Spec.ofCube (Cert.Spec.out (Cert.Spec.plane (W3 m ρ c (Proc.devRef .tc main_v5))) (Cert.Spec.plane (W3 m ρ c (Proc.devRef .tc main_v6))) (Cert.Spec.row (W3 m ρ c (Proc.devRef .tc main_arg17))) (Cert.Spec.row (W3 m ρ c (Proc.devRef .tc main_arg18))) (Cert.Spec.matT (W3 m ρ c (Proc.devRef .tc main_v4))) (Cert.Spec.row (W3 m ρ c (Proc.devRef .tc main_arg12)))) = _
  rw [left_plane, right_plane, W3_main_arg17, W3_main_arg18, W3_main_arg12, W3_main_v4, matT_transpose]
  rfl

/-- THE KERNEL'S RUN, its result named by the specification. -/
theorem kernel_run : θ_run defs (onTc (τ := τ) (main (F := Ideal))) ⟨m, fun _ => 0, ρ⟩ (fun r => ∀ c : Dev nD,
      r.2.mem ((c.tc : Thread nD τ).loc main_v7) = Cert.Spec.ofCube (Cert.Spec.G (Cert.Spec.cube (m ((c.tc : Thread nD τ).loc main_arg0))) (Cert.Spec.cube (m ((c.tc : Thread nD τ).loc main_arg1))) (Cert.Spec.mask (m ((c.tc : Thread nD τ).loc main_arg2))) (Cert.Spec.mat (m ((c.tc : Thread nD τ).loc main_arg3))) (Cert.Spec.row (m ((c.tc : Thread nD τ).loc main_arg4))) (Cert.Spec.mat (m ((c.tc : Thread nD τ).loc main_arg5))) (Cert.Spec.row (m ((c.tc : Thread nD τ).loc main_arg6))) (Cert.Spec.mat (m ((c.tc : Thread nD τ).loc main_arg7))) (Cert.Spec.row (m ((c.tc : Thread nD τ).loc main_arg8))) (Cert.Spec.mat (m ((c.tc : Thread nD τ).loc main_arg9))) (Cert.Spec.row (m ((c.tc : Thread nD τ).loc main_arg10))) (Cert.Spec.mat (m ((c.tc : Thread nD τ).loc main_arg11))) (Cert.Spec.row (m ((c.tc : Thread nD τ).loc main_arg12))) (Cert.Spec.row (m ((c.tc : Thread nD τ).loc main_arg13))) (Cert.Spec.row (m ((c.tc : Thread nD τ).loc main_arg14))) (Cert.Spec.row (m ((c.tc : Thread nD τ).loc main_arg15))) (Cert.Spec.row (m ((c.tc : Thread nD τ).loc main_arg16))) (Cert.Spec.row (m ((c.tc : Thread nD τ).loc main_arg17))) (Cert.Spec.row (m ((c.tc : Thread nD τ).loc main_arg18))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c).1.trans (result_eq m ρ c), (h c).2⟩) (run_value m ρ)

end Cert.KernelIdeal.Hand

end
-- ==== Proof.Ref.Basics.lean ====
/-
  Shared vocabulary for reading the reference at an index: the array types at the ideal values, the two
  float words that denote 0 and 1, and the tactic that identifies two indices coordinate by coordinate.
-/
import proofs.«151578_j65635690217487_1_alg».proof.Proof.Gen.ReferenceIdeal.Read
import proofs.«151578_j65635690217487_1_alg».proof.Proof.Spec

noncomputable section

open scoped BigOperators

namespace Cert.ReferenceIdeal.Hand

open Cert.ReferenceIdeal Cert.ReferenceIdeal.Gen Cert.ReferenceIdeal.Read Idealize.ShloMosaic Idealize.ShloMosaic.ValueIdx Cert.Spec

/-- A [512, 512, 128] array of extended reals. -/
abbrev C3 : Type := (⟨S512x512x128, .f32⟩ : BufTy).Contents (Elt Ideal)
/-- A [512, 512] array. -/
abbrev C2 : Type := (⟨S512x512, .f32⟩ : BufTy).Contents (Elt Ideal)
/-- A [128, 128] weight array. -/
abbrev CM : Type := (⟨S128x128, .f32⟩ : BufTy).Contents (Elt Ideal)
/-- A [128] row. -/
abbrev C1 : Type := (⟨S128, .f32⟩ : BufTy).Contents (Elt Ideal)

/-- Two indices of rank at most three are equal when their coordinates are, each by computation. -/
macro "idx_rfl" : tactic => `(tactic| (funext a; first
  | (match a with | ⟨0, _⟩ => rfl | ⟨1, _⟩ => rfl | ⟨2, _⟩ => rfl)
  | (match a with | ⟨0, _⟩ => rfl | ⟨1, _⟩ => rfl)
  | (match a with | ⟨0, _⟩ => rfl)
  | exact a.elim0))

/-- The word of 1.0 denotes the extended real 1. -/
theorem ofBits_one_f32 : Ideal.ofBits .f32 0x3F800000#32 = 1 := by
  simp [Ideal.ofBits, Ideal.ieee, -EReal.coe_mul]; norm_num

end Cert.ReferenceIdeal.Hand

end
-- ==== Proof.Ref.Norm.lean ====
/-
  The layer norm of the reference, read at an index: stages %1 … %24 of the reference are, for ANY [512, 512, 128]
  array X in the place of its second argument, the layer norm of each row X[i, j, :] with weight w and bias b.
  The mean is the row's sum (the reduction starts from the word of 0) divided by the word of 128.
-/
import proofs.«151578_j65635690217487_1_alg».proof.Proof.Gen.ReferenceIdeal.Read
import proofs.«151578_j65635690217487_1_alg».proof.Proof.Spec
import proofs.«151578_j65635690217487_1_alg».proof.Proof.Ref.Basics

noncomputable section

open scoped BigOperators

namespace Cert.ReferenceIdeal.Hand

open Cert.ReferenceIdeal Cert.ReferenceIdeal.Gen Cert.ReferenceIdeal.Read Idealize.ShloMosaic Idealize.ShloMosaic.ValueIdx Cert.Spec

/-- The mean of row (i, j): stage %4. -/
theorem norm_mean (X : C3) (i j : Fin 512) (u : Fin 1) :
    val_main_v4 (F := Ideal) X (ix3 i j u) = mean (cube X i j) := by
  rw [val_main_v4_apply, val_main_v2_apply, val_main_v1_apply, val_main_cst_apply, val_main_v3_apply, val_main_cst_0_apply]
  simp only [Ideal.hostDivf_def, Ideal.ofBits_def, Ideal.ofBits_zero_f32, zero_add]
  unfold Spec.mean Spec.n128 Spec.cube
  exact congrArg (Ideal.div · (Ideal.ofBits .f32 0x43000000#32))
    (Finset.sum_congr rfl fun k _ => congrArg X (by idx_rfl))

/-- Row (i, j) less its mean: stage %6. -/
theorem norm_centered (X : C3) (i j : Fin 512) (k : Fin 128) :
    val_main_v6 (F := Ideal) X (ix3 i j k) = cube X i j k - mean (cube X i j) := by
  rw [val_main_v6_apply, val_main_v5_apply, show idx_main_v5 (ix3 i j k) = ix3 i j (0 : Fin 1) from by idx_rfl, norm_mean]
  rfl

/-- The variance of row (i, j): stage %11. -/
theorem norm_var (X : C3) (i j : Fin 512) (u : Fin 1) :
    val_main_v11 (F := Ideal) X (ix3 i j u)
      = mean (fun k => (cube X i j k - mean (cube X i j)) * (cube X i j k - mean (cube X i j))) := by
  rw [val_main_v11_apply, val_main_v9_apply, val_main_v8_apply, val_main_cst_1_apply, val_main_v10_apply, val_main_cst_2_apply]
  simp only [Ideal.hostDivf_def, Ideal.ofBits_def, Ideal.ofBits_zero_f32, zero_add]
  refine (congrArg (Ideal.div · (Ideal.ofBits .f32 0x43000000#32)) (Finset.sum_congr rfl fun k _ => ?_)).trans
    (show Ideal.div (∑ k, (cube X i j k - mean (cube X i j)) * (cube X i j k - mean (cube X i j))) n128 = _ from rfl)
  rw [show idx_main_v8 (idx_main_v9 (ix3 i j u)) k = ix3 i j k from by idx_rfl, val_main_v7_apply, norm_centered]
  rfl

/-- The layer norm of row (i, j) of `X` at channel `k`: stage %24. -/
theorem norm_apply (X : C3) (w b : C1) (i j : Fin 512) (k : Fin 128) :
    val_main_v24 (F := Ideal) X w b (ix3 i j k) = ln (row w) (row b) (cube X i j) k := by
  have hw : idx_main_v19 (idx_main_v20 (ix3 i j k)) = ix1 k := by idx_rfl
  have hb : idx_main_v22 (idx_main_v23 (ix3 i j k)) = ix1 k := by idx_rfl
  rw [val_main_v24_apply, val_main_v21_apply, val_main_v18_apply, val_main_v13_apply, val_main_v12_apply,
    show idx_main_v12 (ix3 i j k) = ix3 i j (0 : Fin 1) from by idx_rfl, norm_mean,
    val_main_v17_apply, show idx_main_v17 (ix3 i j k) = ix3 i j (0 : Fin 1) from by idx_rfl,
    val_main_v16_apply, val_main_v15_apply, norm_var, val_main_v14_apply, val_main_cst_3_apply,
    val_main_v20_apply, val_main_v19_apply, hw, val_main_v23_apply, val_main_v22_apply, hb]
  rfl

end Cert.ReferenceIdeal.Hand

end
-- ==== Proof.Ref.Left.lean ====
/-
  The left half of the reference read at an index: the projection of the normed p (stage %28), its gate
  (%59 … %68: the logistic printed as 1 / (1 + exp (-y))), the gated row (%79) and the sum over j (%81), which is
  the specification's left plane.
-/
import proofs.«151578_j65635690217487_1_alg».proof.Proof.Gen.ReferenceIdeal.Read
import proofs.«151578_j65635690217487_1_alg».proof.Proof.Spec
import proofs.«151578_j65635690217487_1_alg».proof.Proof.Ref.Norm

noncomputable section

open scoped BigOperators

namespace Cert.ReferenceIdeal.Hand

open Cert.ReferenceIdeal Cert.ReferenceIdeal.Gen Cert.ReferenceIdeal.Read Idealize.ShloMosaic Idealize.ShloMosaic.ValueIdx Cert.Spec

/-- The left projection: stage %28 is the linear layer (weight %arg3 read [out, in], bias %arg4) of the normed row. -/
theorem left_proj (x1 : C3) (x3 : CM) (x4 w b : C1) (i j : Fin 512) (o : Fin 128) :
    val_main_v28 (F := Ideal) x1 x3 x4 w b (ix3 i j o)
      = lin (mat x3) (row x4) (ln (row w) (row b) (cube x1 i j)) o := by
  have hb : idx_main_v26 (idx_main_v27 (ix3 i j o)) = ix1 o := by idx_rfl
  rw [val_main_v28_apply, val_main_v25_apply, val_main_v27_apply, val_main_v26_apply, hb]
  simp only [Ideal.addf_def]
  unfold Spec.lin
  refine congrArg₂ (· + ·) (Finset.sum_congr rfl fun k _ => ?_) rfl
  rw [show lidx_main_v25 (ix3 i j o) k = ix3 i j k from by idx_rfl,
    show ridx_main_v25 (ix3 i j o) k = ix2 o k from by idx_rfl, norm_apply]
  rfl

/-- The gate's argument: stage %62 is the linear layer (weight %arg7, bias %arg8) of the left projection. -/
theorem left_pre (x1 : C3) (x3 : CM) (x4 : C1) (x7 : CM) (x8 w b : C1) (i j : Fin 512) (o : Fin 128) :
    val_main_v62 (F := Ideal) x1 x3 x4 x7 x8 w b (ix3 i j o)
      = lin (mat x7) (row x8) (lin (mat x3) (row x4) (ln (row w) (row b) (cube x1 i j))) o := by
  have hb : idx_main_v60 (idx_main_v61 (ix3 i j o)) = ix1 o := by idx_rfl
  rw [val_main_v62_apply, val_main_v59_apply, val_main_v61_apply, val_main_v60_apply, hb]
  simp only [Ideal.addf_def]
  unfold Spec.lin
  refine congrArg₂ (· + ·) (Finset.sum_congr rfl fun k _ => ?_) rfl
  rw [show lidx_main_v59 (ix3 i j o) k = ix3 i j k from by idx_rfl,
    show ridx_main_v59 (ix3 i j o) k = ix2 o k from by idx_rfl, left_proj]
  rfl

/-- The gated left row: stage %79 is the logistic of the gate's argument times the projection. -/
theorem left_gated (x1 : C3) (x3 : CM) (x4 : C1) (x7 : CM) (x8 w b : C1) (i j : Fin 512) (o : Fin 128) :
    val_main_v79 (F := Ideal) x1 x3 x4 x7 x8 w b (ix3 i j o)
      = gated (mat x7) (row x8) (lin (mat x3) (row x4) (ln (row w) (row b) (cube x1 i j))) o := by
  rw [val_main_v79_apply, val_main_v68_apply, val_main_v67_apply, val_main_cst_10_apply, val_main_v66_apply,
    val_main_v65_apply, val_main_cst_9_apply, val_main_v64_apply, val_main_v63_apply, left_pre, left_proj]
  simp only [Ideal.mulf_def, Ideal.hostDivf_def, Ideal.addf_def, Ideal.hostUnary_exp_def, Ideal.hostNegf_def,
    Ideal.negf_def, Ideal.ofBits_def, ofBits_one_f32]
  rfl

/-- The left plane: stage %81, the sum over j from the word of 0, is the specification's `zl`. -/
theorem left_plane (x1 : C3) (x3 : CM) (x4 : C1) (x7 : CM) (x8 w b : C1) (i : Fin 512) (o : Fin 128) :
    val_main_v81 (F := Ideal) x1 x3 x4 x7 x8 w b (ix2 i o)
      = zl (cube x1) (row w) (row b) (mat x3) (row x4) (mat x7) (row x8) i o := by
  rw [val_main_v81_apply, val_main_cst_13_apply]
  simp only [Ideal.ofBits_def, Ideal.ofBits_zero_f32, zero_add]
  unfold Spec.zl
  refine Finset.sum_congr rfl fun j _ => ?_
  rw [show idx_main_v81 (ix2 i o) j = ix3 i j o from by idx_rfl, left_gated]

end Cert.ReferenceIdeal.Hand

end
-- ==== Proof.Ref.Right.lean ====
/-
  The right half of the reference read at an index: the layer norm of z (stages %29 … %52: the same operations
  as %1 … %24, of the first argument), its projection (%56) multiplied by the mask on the left (%58), the gate
  (%69 … %78), the gated row (%80) and the sum over j (%82), which is the specification's right plane.
-/
import proofs.«151578_j65635690217487_1_alg».proof.Proof.Gen.ReferenceIdeal.Read
import proofs.«151578_j65635690217487_1_alg».proof.Proof.Spec
import proofs.«151578_j65635690217487_1_alg».proof.Proof.Ref.Norm

noncomputable section

open scoped BigOperators

namespace Cert.ReferenceIdeal.Hand

open Cert.ReferenceIdeal Cert.ReferenceIdeal.Gen Cert.ReferenceIdeal.Read Idealize.ShloMosaic Idealize.ShloMosaic.ValueIdx Cert.Spec

/-- Stages %29 … %52 are stages %1 … %24 of another array: the same operations in the same order. -/
theorem right_norm_eq (x0 : C3) (w b : C1) : val_main_v52 (F := Ideal) x0 w b = val_main_v24 (F := Ideal) x0 w b := rfl

/-- The right projection before the mask: stage %56. -/
theorem right_proj0 (x0 : C3) (x5 : CM) (x6 w b : C1) (i j : Fin 512) (o : Fin 128) :
    val_main_v56 (F := Ideal) x0 x5 x6 w b (ix3 i j o)
      = lin (mat x5) (row x6) (ln (row w) (row b) (cube x0 i j)) o := by
  have hb : idx_main_v54 (idx_main_v55 (ix3 i j o)) = ix1 o := by idx_rfl
  rw [val_main_v56_apply, val_main_v53_apply, val_main_v55_apply, val_main_v54_apply, hb]
  simp only [Ideal.addf_def]
  unfold Spec.lin
  refine congrArg₂ (· + ·) (Finset.sum_congr rfl fun k _ => ?_) rfl
  rw [show lidx_main_v53 (ix3 i j o) k = ix3 i j k from by idx_rfl,
    show ridx_main_v53 (ix3 i j o) k = ix2 o k from by idx_rfl, right_norm_eq, norm_apply]
  rfl

/-- The right projection: stage %58 is the mask entry (i, j) times stage %56. -/
theorem right_proj (x0 : C3) (x2 : C2) (x5 : CM) (x6 w b : C1) (i j : Fin 512) (o : Fin 128) :
    val_main_v58 (F := Ideal) x0 x2 x5 x6 w b (ix3 i j o)
      = mask x2 i j * lin (mat x5) (row x6) (ln (row w) (row b) (cube x0 i j)) o := by
  rw [val_main_v58_apply, val_main_v57_apply, val_main_v0_apply,
    show idx_main_v0 (idx_main_v57 (ix3 i j o)) = ix2 i j from by idx_rfl, right_proj0]
  rfl

/-- The right gate's argument: stage %72. -/
theorem right_pre (x0 : C3) (x2 : C2) (x5 : CM) (x6 : C1) (x9 : CM) (x10 w b : C1) (i j : Fin 512) (o : Fin 128) :
    val_main_v72 (F := Ideal) x0 x2 x5 x6 x9 x10 w b (ix3 i j o)
      = lin (mat x9) (row x10) (fun o' => mask x2 i j * lin (mat x5) (row x6) (ln (row w) (row b) (cube x0 i j)) o') o := by
  have hb : idx_main_v70 (idx_main_v71 (ix3 i j o)) = ix1 o := by idx_rfl
  rw [val_main_v72_apply, val_main_v69_apply, val_main_v71_apply, val_main_v70_apply, hb]
  simp only [Ideal.addf_def]
  unfold Spec.lin
  refine congrArg₂ (· + ·) (Finset.sum_congr rfl fun k _ => ?_) rfl
  rw [show lidx_main_v69 (ix3 i j o) k = ix3 i j k from by idx_rfl,
    show ridx_main_v69 (ix3 i j o) k = ix2 o k from by idx_rfl, right_proj]
  rfl

/-- The gated right row: stage %80. -/
theorem right_gated (x0 : C3) (x2 : C2) (x5 : CM) (x6 : C1) (x9 : CM) (x10 w b : C1) (i j : Fin 512) (o : Fin 128) :
    val_main_v80 (F := Ideal) x0 x2 x5 x6 x9 x10 w b (ix3 i j o)
      = gated (mat x9) (row x10) (fun o' => mask x2 i j * lin (mat x5) (row x6) (ln (row w) (row b) (cube x0 i j)) o') o := by
  rw [val_main_v80_apply, val_main_v78_apply, val_main_v77_apply, val_main_cst_12_apply, val_main_v76_apply,
    val_main_v75_apply, val_main_cst_11_apply, val_main_v74_apply, val_main_v73_apply, right_pre, right_proj]
  simp only [Ideal.mulf_def, Ideal.hostDivf_def, Ideal.addf_def, Ideal.hostUnary_exp_def, Ideal.hostNegf_def,
    Ideal.negf_def, Ideal.ofBits_def, ofBits_one_f32]
  rfl

/-- The right plane: stage %82 is the specification's `zr`. -/
theorem right_plane (x0 : C3) (x2 : C2) (x5 : CM) (x6 : C1) (x9 : CM) (x10 w b : C1) (i : Fin 512) (o : Fin 128) :
    val_main_v82 (F := Ideal) x0 x2 x5 x6 x9 x10 w b (ix2 i o)
      = zr (cube x0) (mask x2) (row w) (row b) (mat x5) (row x6) (mat x9) (row x10) i o := by
  rw [val_main_v82_apply, val_main_cst_14_apply]
  simp only [Ideal.ofBits_def, Ideal.ofBits_zero_f32, zero_add]
  unfold Spec.zr
  refine Finset.sum_congr rfl fun j _ => ?_
  rw [show idx_main_v82 (ix2 i o) j = ix3 i j o from by idx_rfl, right_gated]

end Cert.ReferenceIdeal.Hand

end
-- ==== Proof.Ref.Out.lean ====
/-
  The last part of the reference read at an index: the product of the two planes broadcast over j and over i
  (stages %83 … %87), its layer norm (%88 … %111: again the operations of %1 … %24, now of the product) and the last
  linear layer (%112 … %115). Together with the two planes this makes the reference's result the specification's
  function `G` of the nineteen argument arrays.
-/
import proofs.«151578_j65635690217487_1_alg».proof.Proof.Gen.ReferenceIdeal.Read
import proofs.«151578_j65635690217487_1_alg».proof.Proof.Spec
import proofs.«151578_j65635690217487_1_alg».proof.Proof.Ref.Left
import proofs.«151578_j65635690217487_1_alg».proof.Proof.Ref.Right

noncomputable section

open scoped BigOperators

namespace Cert.ReferenceIdeal.Hand

open Cert.ReferenceIdeal Cert.ReferenceIdeal.Gen Cert.ReferenceIdeal.Read Idealize.ShloMosaic Idealize.ShloMosaic.ValueIdx Cert.Spec

/-- The product of the planes: stage %87 at (i, j, k) is the left plane's (i, k) times the right plane's (j, k). -/
theorem out_prod (x0 x1 : C3) (x2 : C2) (x3 : CM) (x4 : C1) (x5 : CM) (x6 : C1) (x7 : CM) (x8 : C1) (x9 : CM) (x10 x13 x14 x15 x16 : C1) (i j : Fin 512) (k : Fin 128) :
    val_main_v87 (F := Ideal) x0 x1 x2 x3 x4 x5 x6 x7 x8 x9 x10 x13 x14 x15 x16 (ix3 i j k)
      = (zl (cube x1) (row x13) (row x14) (mat x3) (row x4) (mat x7) (row x8)) i k * (zr (cube x0) (mask x2) (row x15) (row x16) (mat x5) (row x6) (mat x9) (row x10)) j k := by
  rw [val_main_v87_apply, val_main_v85_apply, val_main_v83_apply,
    show idx_main_v83 (idx_main_v85 (ix3 i j k)) = ix2 i k from by idx_rfl, left_plane,
    val_main_v86_apply, val_main_v84_apply,
    show idx_main_v84 (idx_main_v86 (ix3 i j k)) = ix2 j k from by idx_rfl, right_plane]
  rfl

/-- Stages %88 … %111 are stages %1 … %24 of the product array: the same operations in the same order. -/
theorem out_norm_eq (x0 x1 : C3) (x2 : C2) (x3 : CM) (x4 : C1) (x5 : CM) (x6 : C1) (x7 : CM) (x8 : C1) (x9 : CM) (x10 x13 x14 x15 x16 x17 x18 : C1) :
    val_main_v111 (F := Ideal) x0 x1 x2 x3 x4 x5 x6 x7 x8 x9 x10 x13 x14 x15 x16 x17 x18 = val_main_v24 (F := Ideal) (val_main_v87 (F := Ideal) x0 x1 x2 x3 x4 x5 x6 x7 x8 x9 x10 x13 x14 x15 x16) x17 x18 := rfl

/-- The normed product: stage %111. -/
theorem out_normed (x0 x1 : C3) (x2 : C2) (x3 : CM) (x4 : C1) (x5 : CM) (x6 : C1) (x7 : CM) (x8 : C1) (x9 : CM) (x10 x13 x14 x15 x16 x17 x18 : C1) (i j : Fin 512) (k : Fin 128) :
    val_main_v111 (F := Ideal) x0 x1 x2 x3 x4 x5 x6 x7 x8 x9 x10 x13 x14 x15 x16 x17 x18 (ix3 i j k)
      = ln (row x17) (row x18) (fun k' => (zl (cube x1) (row x13) (row x14) (mat x3) (row x4) (mat x7) (row x8)) i k' * (zr (cube x0) (mask x2) (row x15) (row x16) (mat x5) (row x6) (mat x9) (row x10)) j k') k := by
  rw [out_norm_eq, norm_apply]
  have e : cube (val_main_v87 (F := Ideal) x0 x1 x2 x3 x4 x5 x6 x7 x8 x9 x10 x13 x14 x15 x16) i j
      = fun k' => (zl (cube x1) (row x13) (row x14) (mat x3) (row x4) (mat x7) (row x8)) i k' * (zr (cube x0) (mask x2) (row x15) (row x16) (mat x5) (row x6) (mat x9) (row x10)) j k' :=
    funext fun k' => out_prod x0 x1 x2 x3 x4 x5 x6 x7 x8 x9 x10 x13 x14 x15 x16 i j k'
  rw [e]

/-- The result: stage %115 is the last linear layer (weight %arg11, bias %arg12) of the normed product. -/
theorem out_apply (x0 x1 : C3) (x2 : C2) (x3 : CM) (x4 : C1) (x5 : CM) (x6 : C1) (x7 : CM) (x8 : C1) (x9 : CM) (x10 : C1) (x11 : CM) (x12 x13 x14 x15 x16 x17 x18 : C1) (i j : Fin 512) (o : Fin 128) :
    val_main_v115 (F := Ideal) x0 x1 x2 x3 x4 x5 x6 x7 x8 x9 x10 x11 x12 x13 x14 x15 x16 x17 x18 (ix3 i j o)
      = Spec.out (zl (cube x1) (row x13) (row x14) (mat x3) (row x4) (mat x7) (row x8)) (zr (cube x0) (mask x2) (row x15) (row x16) (mat x5) (row x6) (mat x9) (row x10)) (row x17) (row x18) (mat x11) (row x12) i j o := by
  have hb : idx_main_v113 (idx_main_v114 (ix3 i j o)) = ix1 o := by idx_rfl
  rw [val_main_v115_apply, val_main_v112_apply, val_main_v114_apply, val_main_v113_apply, hb]
  simp only [Ideal.addf_def]
  unfold Spec.out Spec.lin
  refine congrArg₂ (· + ·) (Finset.sum_congr rfl fun k _ => ?_) rfl
  rw [show lidx_main_v112 (ix3 i j o) k = ix3 i j k from by idx_rfl,
    show ridx_main_v112 (ix3 i j o) k = ix2 o k from by idx_rfl, out_normed]
  rfl

/-- The reference's last stage, as an array, is the specification's `G` of the argument arrays. -/
theorem result_eq_G (x0 x1 : C3) (x2 : C2) (x3 : CM) (x4 : C1) (x5 : CM) (x6 : C1) (x7 : CM) (x8 : C1) (x9 : CM) (x10 : C1) (x11 : CM) (x12 x13 x14 x15 x16 x17 x18 : C1) :
    val_main_v115 (F := Ideal) x0 x1 x2 x3 x4 x5 x6 x7 x8 x9 x10 x11 x12 x13 x14 x15 x16 x17 x18
      = ofCube (G (cube x0) (cube x1) (mask x2) (mat x3) (row x4) (mat x5) (row x6) (mat x7) (row x8) (mat x9) (row x10)
          (mat x11) (row x12) (row x13) (row x14) (row x15) (row x16) (row x17) (row x18)) := by
  funext y
  obtain ⟨i, j, o, rfl⟩ : ∃ (i j : Fin 512) (o : Fin 128), y = ix3 i j o := ⟨y 0, y 1, y 2, eq_ix3 y⟩
  rw [out_apply]
  rfl

end Cert.ReferenceIdeal.Hand

end
-- ==== Proof.Ref.RefSpec.lean ====
/-
  The idealized reference computes the specification: every weakly fair execution of the reference ends with its
  result array at `Cert.Spec.G` of the nineteen argument arrays as launched, and with the arguments as launched.
  The run is the generated one; that its composed term is `G`, index by index, is `Hand.result_eq_G`.
-/
import proofs.«151578_j65635690217487_1_alg».proof.Defs
import proofs.«151578_j65635690217487_1_alg».proof.Proof.Gen.ReferenceIdeal
import proofs.«151578_j65635690217487_1_alg».proof.Proof.Gen.Pre_finite_inputs
import proofs.«151578_j65635690217487_1_alg».proof.Proof.Gen.ReferenceIdeal.Read
import proofs.«151578_j65635690217487_1_alg».proof.Proof.Spec
import proofs.«151578_j65635690217487_1_alg».proof.Proof.Ref.Out

noncomputable section

namespace Cert.ReferenceIdeal.Hand

open Idealize.ShloMosaic Idealize.ShloMosaic.TcCoe Idealize.SL.Sem

/-- the reference's frame conjunct -/
theorem frame_ri : Cert.frame_ReferenceIdeal := fun m ρ _ =>
  (θ_run Cert.ReferenceIdeal.defs _ _).mono (fun _ h c => (h c).2) (Cert.ReferenceIdeal.Value.run (F := Ideal) m ρ)

/-- the reference's run with its result named by the specification -/
theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v115)
        = Cert.Spec.ofCube (Cert.Spec.G
          (Cert.Spec.cube (m' ((c.tc : Thread Cert.ReferenceIdeal.nD Cert.ReferenceIdeal.τ).loc Cert.ReferenceIdeal.main_arg0)))
          (Cert.Spec.cube (m' ((c.tc : Thread Cert.ReferenceIdeal.nD Cert.ReferenceIdeal.τ).loc Cert.ReferenceIdeal.main_arg1)))
          (Cert.Spec.mask (m' ((c.tc : Thread Cert.ReferenceIdeal.nD Cert.ReferenceIdeal.τ).loc Cert.ReferenceIdeal.main_arg2)))
          (Cert.Spec.mat (m' ((c.tc : Thread Cert.ReferenceIdeal.nD Cert.ReferenceIdeal.τ).loc Cert.ReferenceIdeal.main_arg3)))
          (Cert.Spec.row (m' ((c.tc : Thread Cert.ReferenceIdeal.nD Cert.ReferenceIdeal.τ).loc Cert.ReferenceIdeal.main_arg4)))
          (Cert.Spec.mat (m' ((c.tc : Thread Cert.ReferenceIdeal.nD Cert.ReferenceIdeal.τ).loc Cert.ReferenceIdeal.main_arg5)))
          (Cert.Spec.row (m' ((c.tc : Thread Cert.ReferenceIdeal.nD Cert.ReferenceIdeal.τ).loc Cert.ReferenceIdeal.main_arg6)))
          (Cert.Spec.mat (m' ((c.tc : Thread Cert.ReferenceIdeal.nD Cert.ReferenceIdeal.τ).loc Cert.ReferenceIdeal.main_arg7)))
          (Cert.Spec.row (m' ((c.tc : Thread Cert.ReferenceIdeal.nD Cert.ReferenceIdeal.τ).loc Cert.ReferenceIdeal.main_arg8)))
          (Cert.Spec.mat (m' ((c.tc : Thread Cert.ReferenceIdeal.nD Cert.ReferenceIdeal.τ).loc Cert.ReferenceIdeal.main_arg9)))
          (Cert.Spec.row (m' ((c.tc : Thread Cert.ReferenceIdeal.nD Cert.ReferenceIdeal.τ).loc Cert.ReferenceIdeal.main_arg10)))
          (Cert.Spec.mat (m' ((c.tc : Thread Cert.ReferenceIdeal.nD Cert.ReferenceIdeal.τ).loc Cert.ReferenceIdeal.main_arg11)))
          (Cert.Spec.row (m' ((c.tc : Thread Cert.ReferenceIdeal.nD Cert.ReferenceIdeal.τ).loc Cert.ReferenceIdeal.main_arg12)))
          (Cert.Spec.row (m' ((c.tc : Thread Cert.ReferenceIdeal.nD Cert.ReferenceIdeal.τ).loc Cert.ReferenceIdeal.main_arg13)))
          (Cert.Spec.row (m' ((c.tc : Thread Cert.ReferenceIdeal.nD Cert.ReferenceIdeal.τ).loc Cert.ReferenceIdeal.main_arg14)))
          (Cert.Spec.row (m' ((c.tc : Thread Cert.ReferenceIdeal.nD Cert.ReferenceIdeal.τ).loc Cert.ReferenceIdeal.main_arg15)))
          (Cert.Spec.row (m' ((c.tc : Thread Cert.ReferenceIdeal.nD Cert.ReferenceIdeal.τ).loc Cert.ReferenceIdeal.main_arg16)))
          (Cert.Spec.row (m' ((c.tc : Thread Cert.ReferenceIdeal.nD Cert.ReferenceIdeal.τ).loc Cert.ReferenceIdeal.main_arg17)))
          (Cert.Spec.row (m' ((c.tc : Thread Cert.ReferenceIdeal.nD Cert.ReferenceIdeal.τ).loc Cert.ReferenceIdeal.main_arg18))))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)) :=
  (θ_run Cert.ReferenceIdeal.defs _ _).mono
    (fun _ h c => ⟨(h c).1.trans ((Cert.ReferenceIdeal.Read.val_main_v115_eq (F := Ideal) m' c).trans
      (result_eq_G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)))), (h c).2⟩)
    (Cert.ReferenceIdeal.Value.run (F := Ideal) m' g')

end Cert.ReferenceIdeal.Hand

end
-- ==== Proof.lean ====
/-
  The certificate's claim. Both printed kernels — the word-level one and its idealization — are the same three
  regions after five host transposes; each region's frame is proved at an arbitrary float instance, the first two
  with an accumulator carried from grid point to grid point, and composed in order, so every argument array ends
  as launched (the two kernel frames). The idealization rewrote no operation, so it is the program's own text read
  at the ideal instance. At the ideal instance the kernel's result is the specification of its arguments
  (layer norm, gated linear layer, a sum over the second axis taken four blocks at a time, the channelwise product
  of the two planes, layer norm and a last linear layer), and so is the reference's, whose frame is its run with
  the result dropped; from memories agreeing on the arguments the two results are therefore equal.
-/
import proofs.«151578_j65635690217487_1_alg».proof.Defs
import proofs.«151578_j65635690217487_1_alg».proof.Proof.Gen.Kernel
import proofs.«151578_j65635690217487_1_alg».proof.Proof.Gen.KernelIdeal
import proofs.«151578_j65635690217487_1_alg».proof.Proof.Gen.ReferenceIdeal
import proofs.«151578_j65635690217487_1_alg».proof.Proof.Gen.Pre_finite_inputs
import proofs.«151578_j65635690217487_1_alg».proof.Proof.K.Run
import proofs.«151578_j65635690217487_1_alg».proof.Proof.KI.Run
import proofs.«151578_j65635690217487_1_alg».proof.Proof.KI.Result
import proofs.«151578_j65635690217487_1_alg».proof.Proof.Ref.RefSpec

noncomputable section

namespace Cert.Proof

open Idealize.ShloMosaic Idealize.SL.Sem

/-- The word-level kernel runs and leaves its arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- Both idealized programs end at the specification of their arguments, and the arguments agree. -/
theorem algebraic : Cert.algebraic_KernelIdeal_ReferenceIdeal := by
  intro m ρ m' ρ' _ hagree
  refine ⟨_, Cert.KernelIdeal.Hand.kernel_run m ρ, ?_⟩
  refine (θ_run Cert.ReferenceIdeal.defs _ _).mono (fun _ h c => ⟨(h c).1.trans ?_, (h c).2⟩)
    (Cert.ReferenceIdeal.Hand.ref_run m' ρ')
  obtain ⟨h0, h1, h2, h3, h4, h5, h6, h7, h8, h9, h10, h11, h12, h13, h14, h15, h16, h17, h18⟩ := hagree c
  rw [h0, h1, h2, h3, h4, h5, h6, h7, h8, h9, h10, h11, h12, h13, h14, h15, h16, h17, h18]

theorem claim : Cert.Claim := ⟨Cert.Kernel.Gen.facts, Cert.KernelIdeal.Gen.facts, Cert.ReferenceIdeal.Gen.facts, Cert.Pre_finite_inputs.Gen.facts,
  frame_k, frame_ki, Cert.ReferenceIdeal.Hand.frame_ri, trivial, algebraic⟩

end Cert.Proof

end
